-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x3 .f32) (main_arg1 : IVec S2x1600000 32) (main_arg2 : IVec S100000 32) (main_arg3 : FVec F S3x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x3 : Shape := ⟨2, ![1700000, 3]⟩
abbrev S1x128 : Shape := ⟨2, ![1, 128]⟩
abbrev S100000x128 : Shape := ⟨2, ![100000, 128]⟩
abbrev S5000x3 : Shape := ⟨2, ![5000, 3]⟩
abbrev S5000x1 : Shape := ⟨2, ![5000, 1]⟩
abbrev S5000x128 : Shape := ⟨2, ![5000, 128]⟩
abbrev S1700000x128 : Shape := ⟨2, ![1700000, 128]⟩
abbrev S512x128 : Shape := ⟨2, ![512, 128]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 98
  | .vmem => 29
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x3, .f32⟩
  | .hbm, ⟨34, _⟩ => ⟨S100000x3, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x3, .f32⟩
  | .hbm, ⟨44, _⟩ => ⟨S_, .f32⟩
  | .hbm, ⟨45, _⟩ => ⟨S100000x3, .f32⟩
  | .hbm, ⟨46, _⟩ => ⟨S1700000x1, .i32⟩
  | .hbm, ⟨47, _⟩ => ⟨S100000x3, .f32⟩
  | .hbm, ⟨48, _⟩ => ⟨S100000x1, .f32⟩
  | .hbm, ⟨49, _⟩ => ⟨S1x128, .f32⟩
  | .hbm, ⟨50, _⟩ => ⟨S100000x128, .bf16⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .bf16⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S100000x1, .f32⟩
  | .hbm, ⟨66, _⟩ => ⟨S1x128, .f32⟩
  | .hbm, ⟨67, _⟩ => ⟨S100000x128, .bf16⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .bf16⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S100000x1, .f32⟩
  | .hbm, ⟨83, _⟩ => ⟨S1x128, .f32⟩
  | .hbm, ⟨84, _⟩ => ⟨S100000x128, .f32⟩
  | .hbm, ⟨85, _⟩ => ⟨S_, .f32⟩
  | .hbm, ⟨86, _⟩ => ⟨S512x128, .f32⟩
  | .hbm, ⟨87, _⟩ => ⟨S100000x1, .i32⟩
  | .hbm, ⟨88, _⟩ => ⟨S512x128, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S512, .f32⟩
  | .hbm, ⟨93, _⟩ => ⟨S100000x1, .i32⟩
  | .hbm, ⟨94, _⟩ => ⟨S512, .f32⟩
  | .hbm, ⟨95, _⟩ => ⟨S512x1, .f32⟩
  | .hbm, ⟨96, _⟩ => ⟨S1x2, .f32⟩
  | .hbm, ⟨97, _⟩ => ⟨S512x2, .f32⟩
  | .local _ .vmem, ⟨0, _⟩ => ⟨S5000x3, .f32⟩
  | .local _ .vmem, ⟨1, _⟩ => ⟨S5000x3, .f32⟩
  | .local _ .vmem, ⟨2, _⟩ => ⟨S5000x1, .f32⟩
  | .local _ .vmem, ⟨3, _⟩ => ⟨S5000x1, .f32⟩
  | .local _ .vmem, ⟨4, _⟩ => ⟨S3x128, .f32⟩
  | .local _ .vmem, ⟨5, _⟩ => ⟨S1x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .bf16⟩
  | .local _ .vmem, ⟨15, _⟩ => ⟨S5000x128, .bf16⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S512x128, .f32⟩
  | .local _ .vmem, ⟨25, _⟩ => ⟨S512x1, .f32⟩
  | .local _ .vmem, ⟨26, _⟩ => ⟨S128x2, .f32⟩
  | .local _ .vmem, ⟨27, _⟩ => ⟨S1x2, .f32⟩
  | .local _ .vmem, ⟨28, _⟩ => ⟨S512x2, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S_S100000x3 : S_.BroadcastsInDim S100000x3 (![] : Fin 0 → Fin S100000x3.rank)
  shapeCasts_S100000_S100000x1 : S100000.ShapeCasts S100000x1
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x3 : S5000x1.Broadcasts S5000x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S_S512 : S_.BroadcastsInDim S512 (![] : Fin 0 → Fin S512.rank)
  shapeCasts_S512_S512x1 : S512.ShapeCasts S512x1
  shapeCasts_S2_S1x2 : S2.ShapeCasts S1x2
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S512x1_S512x128 : S512x1.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1700000x1_S1700000_n_0_0_1_wf : ScatterDims.WF S100000 S1700000x1 S1700000 [] [0] [0] 1
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  dot_S5000x3_S3x128_S5000x128_1_0_0_1_n_n_wf : DotDims.WF S5000x3 S3x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1.size a ≤ S512x1.size a
  hwx3_1 : ∀ i : grid3.Coords, EltTy.bits .f32 = 32 ∨ (Rect.block (s := S512x1) S512x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x2.size a ≤ S128x2.size a
  hwx3_2 : ∀ i : grid3.Coords, EltTy.bits .f32 = 32 ∨ (Rect.block (s := S128x2) S128x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x2.size a ≤ S512x2.size a
  hwx3_4 : ∀ i : grid3.Coords, EltTy.bits .f32 = 32 ∨ (Rect.block (s := S512x2) S512x2.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_v27) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v61) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v66) S512x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S512x2.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 140
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x128, .f32⟩
  | 107 => ⟨S1700000x1, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S512x128, .f32⟩
  | 122 => ⟨S100000x1, .i32⟩
  | 123 => ⟨S512x128, .f32⟩
  | 124 => ⟨S_, .f32⟩
  | 125 => ⟨S100000, .f32⟩
  | 126 => ⟨S_, .f32⟩
  | 127 => ⟨S512, .f32⟩
  | _ => ⟨S100000x3, .f32⟩

abbrev hbmTy0_1 (i : Nat) : BufTy := match i % 128 with
  | 0 => ⟨S100000x1, .i32⟩
  | 1 => ⟨S512, .f32⟩
  | 2 => ⟨S_, .f32⟩
  | 3 => ⟨S512, .f32⟩
  | 4 => ⟨S512, .f32⟩
  | 5 => ⟨S512x1, .f32⟩
  | 6 => ⟨S512x128, .f32⟩
  | 7 => ⟨S512x128, .f32⟩
  | 8 => ⟨S512x2, .f32⟩
  | 9 => ⟨S1x2, .f32⟩
  | 10 => ⟨S512x2, .f32⟩
  | 11 => ⟨S512x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x128_S100000x128_1_0_0_1_n_n_wf : DotDims.WF S100000x3 S3x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
/-
  THE KERNEL PROGRAM'S RUN WITH ITS RESULT NAMED.

  The program is ten stretches in a row: host operations, then a pipelined region, four times over.  The contents of
  every buffer at each boundary are a fold from the launch memory: a host stretch applies its operations, a region
  leaves in each of its arrays what its write-backs leave and keeps every other buffer.  The frame statement says the
  run terminates and returns the argument arrays as launched; the same run also leaves, in the result buffer, the
  last boundary's contents there — the fourth region's output array after its one grid point.  That is what is
  stated here; the later modules read this fold back, stretch by stretch, as one function of the arguments.
-/
import proofs.«176127_j35218731827641_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run_value : θ_run defs (onTc (τ := τ) (main (F := F))) ⟨m, fun _ => 0, ρ⟩ (fun r => ∀ c : Dev nD,
      r.2.mem ((c.tc : Thread nD τ).loc main_v68) = W10 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v68 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunValue

end
-- ==== Proof.KernelEdges.lean ====
/-
  THE GRAPH'S DATA AS THE PROGRAM COMPUTES IT FROM THE EDGE LIST: sources, destinations, degrees, factors.

  The edge list is an array [2, E0] of signed 32-bit node indices; the program appends one self loop per node, so the
  source vector is row 0 followed by 0, 1, …, N - 1 and the destination vector row 1 followed by the same.  A node's
  degree is the number of edges ending in it (an accumulating scatter of ones into zeros), and its factor is the
  reciprocal square root of the degree where the degree is positive and zero elsewhere.  These four arrays are named
  here by the operations that compute them, as functions of the edge list alone; everything later treats them as
  given arrays and reads them only through the edge structure they define.
-/
import proofs.«176127_j35218731827641_2_alg».proof.KernelIdeal
import Idealize.ShloMosaic.PureOps.Ideal
import Idealize.ShloMosaic.PureOps.Ideal.Laws

noncomputable section

namespace Cert.KernelIdeal.Edges

open Cert.KernelIdeal Idealize.ShloMosaic

variable [Cert.KernelIdeal.Facts]
open Cert.KernelIdeal.Facts₀ Cert.KernelIdeal.Facts

/-- The edges' source nodes: row 0 of the edge list, then one self loop per node. -/
def srcOf (x1 : IVec S2x1600000 32) : IVec S1700000 32 :=
  concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0

/-- The edges' destination nodes: row 1 of the edge list, then one self loop per node. -/
def dstOf (x1 : IVec S2x1600000 32) : IVec S1700000 32 :=
  concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0

/-- A node's degree: the number of edges ending in it, as a sum of ones. -/
def degOf (x1 : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 (dstOf x1))
    (broadcastInDim S1700000 ![] bcast_S_S1700000 (constant (F := Ideal) S_ .f32 0x3F800000#32))

/-- A node's factor: the reciprocal square root of its degree where that is positive, zero elsewhere. -/
def dinvOf (x1 : IVec S2x1600000 32) : FVec Ideal S100000 .f32 :=
  select (cmpf (F := Ideal) .ogt (degOf x1) (broadcastInDim S100000 ![] bcast_S_S100000 (constant (F := Ideal) S_ .f32 0x00000000#32)))
    (Host.rsqrt (F := Ideal) (degOf x1))
    (broadcastInDim S100000 ![] bcast_S_S100000 (id (constant (F := Ideal) S_ .f32 0x00000000#32)))

end Cert.KernelIdeal.Edges

end
-- ==== Proof.KernelHost.lean ====
/-
  THE HOST STRETCHES OF THE KERNEL PROGRAM, EACH READ AS A FUNCTION OF THE BUFFERS IT STARTS FROM.

  Between its four pipelined regions the program runs plain array operations.  For each stretch, and whatever the
  buffers hold when it starts (`X`), the buffers a region will read are named here as array expressions of `X`:
  the neighbour sum (a row gather at the wrapped sources followed by an accumulating scatter into zeros at the
  destinations), the factor as a column, a bias as a row, the per-graph sums and counts.  A stretch writes only its
  own results: the sources, the destinations, the factors and the argument arrays pass through it unchanged
  (`Carried`), which is what lets the later stretches use what the first one computed.
-/
import proofs.«176127_j35218731827641_2_alg».proof.Proof.Gen.KernelIdeal.Launch
import proofs.«176127_j35218731827641_2_alg».proof.Proof.KernelEdges
import Idealize.ShloMosaic.Lib.StableHlo.Run

set_option maxRecDepth 100000

noncomputable section

namespace Cert.KernelIdeal.Stages

open Cert.KernelIdeal Cert.KernelIdeal.Edges
open Cert.KernelIdeal.Gen (hostOps0 hostOps0_1 hostOps0_2 hostOps1 hostOps2 hostOps3)
open Cert.KernelIdeal.Facts₀ Cert.KernelIdeal.Facts
open Idealize.ShloMosaic Idealize.ShloMosaic.TcCoe Idealize.ShloMosaic.StableHlo Idealize.SL.Sem

/-! ## The array expressions -/

/-- An index vector as a column. -/
def col (v : IVec S1700000 32) : IVec S1700000x1 32 := broadcastInDim S1700000x1 ![0] bcast_S1700000_S1700000x1_0 v

/-- The index vector with negative entries wrapped, as a column: what a row gather reads. -/
def wrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The input rows scaled by the nodes' factors. -/
def scaledIn (x0 : FVec Ideal S100000x3 .f32) (dinv : FVec Ideal S100000 .f32) : FVec Ideal S100000x3 .f32 :=
  mulf x0 (broadcastInDim S100000x3 ![0, 1] bcast_S100000x1_S100000x3_0_1
    (broadcastInDim S100000x1 ![0] bcast_S100000_S100000x1_0 dinv))

/-- The neighbour sum of 3-column rows. -/
def agg3 (src dst : IVec S1700000 32) (G : FVec Ideal S100000x3 .f32) : FVec Ideal S100000x3 .f32 :=
  Host.scatterAdd (F := Ideal) scatter_S100000x3_S1700000x1_S1700000x3_1_0_0_1
    (broadcastInDim S100000x3 ![] bcast_S_S100000x3 (constant (F := Ideal) S_ .f32 0x00000000#32)) (col dst)
    (Host.gather gather_S100000x3_S1700000x1_S1700000x3_1_0_n_n_0_1_13 G (wrapCol src))

/-- The neighbour sum of 128-column rows kept in the narrow float format: gathered, widened, summed. -/
def agg128 (src dst : IVec S1700000 32) (G : FVec Ideal S100000x128 .bf16) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32)) (col dst)
    (extf .f32 (Host.gather gather_S100000x128_S1700000x1_S1700000x128_1_0_n_n_0_1_1128 G (wrapCol src)) bitsLt_bf16_f32)

/-- The factors as a column. -/
def dcol (dinv : FVec Ideal S100000 .f32) : FVec Ideal S100000x1 .f32 := shapeCast S100000x1 dinv shapeCasts_S100000_S100000x1

/-- A bias as a row. -/
def brow (b : FVec Ideal S128 .f32) : FVec Ideal S1x128 .f32 := shapeCast S1x128 b shapeCasts_S128_S1x128

/-- Per graph, the sums of its nodes' features. -/
def sums (batch : IVec S100000 32) (H : FVec Ideal S100000x128 .f32) : FVec Ideal S512x128 .f32 :=
  Host.scatterAdd (F := Ideal) scatter_S512x128_S100000x1_S100000x128_1_0_0_1
    (broadcastInDim S512x128 ![] bcast_S_S512x128 (constant (F := Ideal) S_ .f32 0x00000000#32))
    (broadcastInDim S100000x1 ![0] bcast_S100000_S100000x1_0 batch) H

/-- Per graph, the number of its nodes, as a column. -/
def counts (batch : IVec S100000 32) : FVec Ideal S512x1 .f32 :=
  shapeCast S512x1 (Host.scatterAdd (F := Ideal) scatter_S512_S100000x1_S100000_n_0_0_1
    (broadcastInDim S512 ![] bcast_S_S512 (constant (F := Ideal) S_ .f32 0x00000000#32))
    (broadcastInDim S100000x1 ![0] bcast_S100000_S100000x1_0 batch)
    (broadcastInDim S100000 ![] bcast_S_S100000 (constant (F := Ideal) S_ .f32 0x3F800000#32))) shapeCasts_S512_S512x1

/-- The last bias as a row. -/
def frow (b : FVec Ideal S2 .f32) : FVec Ideal S1x2 .f32 := shapeCast S1x2 b shapeCasts_S2_S1x2

variable (X : Valuation τ sig (Elt Ideal))

/-! ## The first stretch: the graph's data -/

set_option maxHeartbeats 4000000 in
theorem first_src : StableHlo.after hostOps0 X (Proc.devRef .tc main_v3) = srcOf (X (Proc.devRef .tc main_arg1)) := by
  after_results <;> exact rfl
set_option maxHeartbeats 4000000 in
theorem first_dst : StableHlo.after hostOps0 X (Proc.devRef .tc main_v6) = dstOf (X (Proc.devRef .tc main_arg1)) := by
  after_results <;> exact rfl
set_option maxHeartbeats 4000000 in
/-- The selection between the reciprocal square root and zero, from whatever the comparison, the root and the zero are. -/
theorem where_factor (Y : Valuation τ sig (Elt Ideal)) : StableHlo.after hostOps0_1 Y (Proc.devRef .tc main_v14)
    = select (Y (Proc.devRef .tc main_v12)) (Y (Proc.devRef .tc main_v13))
        (broadcastInDim S100000 ![] bcast_S_S100000 (id (Y (Proc.devRef .tc main_cst_2)))) := by
  after_results <;> exact rfl
set_option maxHeartbeats 4000000 in
theorem first_pos : StableHlo.after hostOps0 X (Proc.devRef .tc main_v12)
    = cmpf (F := Ideal) .ogt (degOf (X (Proc.devRef .tc main_arg1)))
        (broadcastInDim S100000 ![] bcast_S_S100000 (constant (F := Ideal) S_ .f32 0x00000000#32)) := by
  after_results <;> exact rfl
set_option maxHeartbeats 4000000 in
theorem first_root : StableHlo.after hostOps0 X (Proc.devRef .tc main_v13)
    = Host.rsqrt (F := Ideal) (degOf (X (Proc.devRef .tc main_arg1))) := by
  after_results <;> exact rfl
set_option maxHeartbeats 4000000 in
theorem first_zero : StableHlo.after hostOps0 X (Proc.devRef .tc main_cst_2) = constant (F := Ideal) S_ .f32 0x00000000#32 := by
  after_results <;> exact rfl
theorem first_dinv : StableHlo.after hostOps0_1 (StableHlo.after hostOps0 X) (Proc.devRef .tc main_v14)
    = dinvOf (X (Proc.devRef .tc main_arg1)) := by
  rw [where_factor, first_pos, first_root, first_zero, dinvOf]

/-! ## What each region reads, from what its stretch starts from -/

set_option maxHeartbeats 4000000 in
theorem pre0_agg : StableHlo.after hostOps0_2 X (Proc.devRef .tc main_v27)
    = agg3 (X (Proc.devRef .tc main_v3)) (X (Proc.devRef .tc main_v6))
        (scaledIn (X (Proc.devRef .tc main_arg0)) (X (Proc.devRef .tc main_v14))) := by
  after_results <;> exact rfl
set_option maxHeartbeats 4000000 in
theorem pre0_dcol : StableHlo.after hostOps0_2 X (Proc.devRef .tc main_v28) = dcol (X (Proc.devRef .tc main_v14)) := by
  after_results <;> exact rfl
set_option maxHeartbeats 4000000 in
theorem pre0_brow : StableHlo.after hostOps0_2 X (Proc.devRef .tc main_v29) = brow (X (Proc.devRef .tc main_arg4)) := by
  after_results <;> exact rfl
set_option maxHeartbeats 4000000 in
theorem pre0_w : StableHlo.after hostOps0_2 X (Proc.devRef .tc main_arg3) = X (Proc.devRef .tc main_arg3) := by
  after_results

set_option maxHeartbeats 4000000 in
theorem pre1_agg : StableHlo.after hostOps1 X (Proc.devRef .tc main_v41)
    = agg128 (X (Proc.devRef .tc main_v3)) (X (Proc.devRef .tc main_v6)) (X (Proc.devRef .tc main_v30)) := by
  after_results <;> exact rfl
set_option maxHeartbeats 4000000 in
theorem pre1_dcol : StableHlo.after hostOps1 X (Proc.devRef .tc main_v42) = dcol (X (Proc.devRef .tc main_v14)) := by
  after_results <;> exact rfl
set_option maxHeartbeats 4000000 in
theorem pre1_brow : StableHlo.after hostOps1 X (Proc.devRef .tc main_v43) = brow (X (Proc.devRef .tc main_arg6)) := by
  after_results <;> exact rfl
set_option maxHeartbeats 4000000 in
theorem pre1_w : StableHlo.after hostOps1 X (Proc.devRef .tc main_arg5) = X (Proc.devRef .tc main_arg5) := by
  after_results

set_option maxHeartbeats 4000000 in
theorem pre2_agg : StableHlo.after hostOps2 X (Proc.devRef .tc main_v55)
    = agg128 (X (Proc.devRef .tc main_v3)) (X (Proc.devRef .tc main_v6)) (X (Proc.devRef .tc main_v44)) := by
  after_results <;> exact rfl
set_option maxHeartbeats 4000000 in
theorem pre2_dcol : StableHlo.after hostOps2 X (Proc.devRef .tc main_v56) = dcol (X (Proc.devRef .tc main_v14)) := by
  after_results <;> exact rfl
set_option maxHeartbeats 4000000 in
theorem pre2_brow : StableHlo.after hostOps2 X (Proc.devRef .tc main_v57) = brow (X (Proc.devRef .tc main_arg8)) := by
  after_results <;> exact rfl
set_option maxHeartbeats 4000000 in
theorem pre2_w : StableHlo.after hostOps2 X (Proc.devRef .tc main_arg7) = X (Proc.devRef .tc main_arg7) := by
  after_results

set_option maxHeartbeats 4000000 in
theorem pre3_sums : StableHlo.after hostOps3 X (Proc.devRef .tc main_v61)
    = sums (X (Proc.devRef .tc main_arg2)) (X (Proc.devRef .tc main_v58)) := by
  after_results <;> exact rfl
set_option maxHeartbeats 4000000 in
theorem pre3_counts : StableHlo.after hostOps3 X (Proc.devRef .tc main_v66) = counts (X (Proc.devRef .tc main_arg2)) := by
  after_results <;> exact rfl
set_option maxHeartbeats 4000000 in
theorem pre3_frow : StableHlo.after hostOps3 X (Proc.devRef .tc main_v67) = frow (X (Proc.devRef .tc main_arg10)) := by
  after_results <;> exact rfl
set_option maxHeartbeats 4000000 in
theorem pre3_w : StableHlo.after hostOps3 X (Proc.devRef .tc main_arg9) = X (Proc.devRef .tc main_arg9) := by
  after_results

end Cert.KernelIdeal.Stages

end
-- ==== Proof.KernelCarry.lean ====
/-
  WHAT EVERY STRETCH OF THE KERNEL PROGRAM LEAVES ALONE.

  The sources, the destinations and the factors are computed once, before the first region; the batch vector and
  the later layers' weights and biases are arguments.  No later host operation writes any of them, so whatever
  buffers a stretch starts from, it ends with these ten where they were.  `Carried X …` says the ten buffers of
  `X` hold the graph's data of the edge list x1 and the arguments x2, x5 … x10; it holds after the first stretch
  and is kept by each later one.
-/
import proofs.«176127_j35218731827641_2_alg».proof.Proof.KernelHost

set_option maxRecDepth 100000

noncomputable section

namespace Cert.KernelIdeal.Stages

open Cert.KernelIdeal Cert.KernelIdeal.Edges
open Cert.KernelIdeal.Gen (hostOps0 hostOps0_1 hostOps0_2 hostOps1 hostOps2 hostOps3)
open Cert.KernelIdeal.Facts₀ Cert.KernelIdeal.Facts
open Idealize.ShloMosaic Idealize.ShloMosaic.TcCoe Idealize.ShloMosaic.StableHlo Idealize.SL.Sem

/-- The ten buffers that the later stretches only read. -/
structure Carried (X : Valuation τ sig (Elt Ideal)) (x1 : IVec S2x1600000 32) (x2 : IVec S100000 32) (x5 : FVec Ideal S128x128 .f32) (x6 : FVec Ideal S128 .f32) (x7 : FVec Ideal S128x128 .f32) (x8 : FVec Ideal S128 .f32) (x9 : FVec Ideal S128x2 .f32) (x10 : FVec Ideal S2 .f32) : Prop where
  src : X (Proc.devRef .tc main_v3) = srcOf x1
  dst : X (Proc.devRef .tc main_v6) = dstOf x1
  dinv : X (Proc.devRef .tc main_v14) = dinvOf x1
  a2 : X (Proc.devRef .tc main_arg2) = x2
  a5 : X (Proc.devRef .tc main_arg5) = x5
  a6 : X (Proc.devRef .tc main_arg6) = x6
  a7 : X (Proc.devRef .tc main_arg7) = x7
  a8 : X (Proc.devRef .tc main_arg8) = x8
  a9 : X (Proc.devRef .tc main_arg9) = x9
  a10 : X (Proc.devRef .tc main_arg10) = x10

variable (X : Valuation τ sig (Elt Ideal))

set_option maxHeartbeats 16000000 in
/-- After the first stretch the ten buffers hold the graph's data and the arguments as the stretch found them. -/
theorem Carried.start : Carried (StableHlo.after hostOps0_1 (StableHlo.after hostOps0 X))
    (X (Proc.devRef .tc main_arg1)) (X (Proc.devRef .tc main_arg2)) (X (Proc.devRef .tc main_arg5))
    (X (Proc.devRef .tc main_arg6)) (X (Proc.devRef .tc main_arg7)) (X (Proc.devRef .tc main_arg8))
    (X (Proc.devRef .tc main_arg9)) (X (Proc.devRef .tc main_arg10)) where
  src := by after_results <;> exact rfl
  dst := by after_results <;> exact rfl
  dinv := first_dinv X
  a2 := by after_results
  a5 := by after_results
  a6 := by after_results
  a7 := by after_results
  a8 := by after_results
  a9 := by after_results
  a10 := by after_results

set_option maxHeartbeats 16000000 in
/-- The stretch `hostOps0_2` writes none of the ten. -/
theorem Carried.step0 {X : Valuation τ sig (Elt Ideal)} {x1 : IVec S2x1600000 32} {x2 : IVec S100000 32} {x5 : FVec Ideal S128x128 .f32} {x6 : FVec Ideal S128 .f32} {x7 : FVec Ideal S128x128 .f32} {x8 : FVec Ideal S128 .f32} {x9 : FVec Ideal S128x2 .f32} {x10 : FVec Ideal S2 .f32} (h : Carried X x1 x2 x5 x6 x7 x8 x9 x10) :
    Carried (StableHlo.after hostOps0_2 X) x1 x2 x5 x6 x7 x8 x9 x10 where
  src := (by after_results : StableHlo.after hostOps0_2 X (Proc.devRef .tc main_v3) = X (Proc.devRef .tc main_v3)).trans h.src
  dst := (by after_results : StableHlo.after hostOps0_2 X (Proc.devRef .tc main_v6) = X (Proc.devRef .tc main_v6)).trans h.dst
  dinv := (by after_results : StableHlo.after hostOps0_2 X (Proc.devRef .tc main_v14) = X (Proc.devRef .tc main_v14)).trans h.dinv
  a2 := (by after_results : StableHlo.after hostOps0_2 X (Proc.devRef .tc main_arg2) = X (Proc.devRef .tc main_arg2)).trans h.a2
  a5 := (by after_results : StableHlo.after hostOps0_2 X (Proc.devRef .tc main_arg5) = X (Proc.devRef .tc main_arg5)).trans h.a5
  a6 := (by after_results : StableHlo.after hostOps0_2 X (Proc.devRef .tc main_arg6) = X (Proc.devRef .tc main_arg6)).trans h.a6
  a7 := (by after_results : StableHlo.after hostOps0_2 X (Proc.devRef .tc main_arg7) = X (Proc.devRef .tc main_arg7)).trans h.a7
  a8 := (by after_results : StableHlo.after hostOps0_2 X (Proc.devRef .tc main_arg8) = X (Proc.devRef .tc main_arg8)).trans h.a8
  a9 := (by after_results : StableHlo.after hostOps0_2 X (Proc.devRef .tc main_arg9) = X (Proc.devRef .tc main_arg9)).trans h.a9
  a10 := (by after_results : StableHlo.after hostOps0_2 X (Proc.devRef .tc main_arg10) = X (Proc.devRef .tc main_arg10)).trans h.a10

set_option maxHeartbeats 16000000 in
/-- The stretch `hostOps1` writes none of the ten. -/
theorem Carried.step1 {X : Valuation τ sig (Elt Ideal)} {x1 : IVec S2x1600000 32} {x2 : IVec S100000 32} {x5 : FVec Ideal S128x128 .f32} {x6 : FVec Ideal S128 .f32} {x7 : FVec Ideal S128x128 .f32} {x8 : FVec Ideal S128 .f32} {x9 : FVec Ideal S128x2 .f32} {x10 : FVec Ideal S2 .f32} (h : Carried X x1 x2 x5 x6 x7 x8 x9 x10) :
    Carried (StableHlo.after hostOps1 X) x1 x2 x5 x6 x7 x8 x9 x10 where
  src := (by after_results : StableHlo.after hostOps1 X (Proc.devRef .tc main_v3) = X (Proc.devRef .tc main_v3)).trans h.src
  dst := (by after_results : StableHlo.after hostOps1 X (Proc.devRef .tc main_v6) = X (Proc.devRef .tc main_v6)).trans h.dst
  dinv := (by after_results : StableHlo.after hostOps1 X (Proc.devRef .tc main_v14) = X (Proc.devRef .tc main_v14)).trans h.dinv
  a2 := (by after_results : StableHlo.after hostOps1 X (Proc.devRef .tc main_arg2) = X (Proc.devRef .tc main_arg2)).trans h.a2
  a5 := (by after_results : StableHlo.after hostOps1 X (Proc.devRef .tc main_arg5) = X (Proc.devRef .tc main_arg5)).trans h.a5
  a6 := (by after_results : StableHlo.after hostOps1 X (Proc.devRef .tc main_arg6) = X (Proc.devRef .tc main_arg6)).trans h.a6
  a7 := (by after_results : StableHlo.after hostOps1 X (Proc.devRef .tc main_arg7) = X (Proc.devRef .tc main_arg7)).trans h.a7
  a8 := (by after_results : StableHlo.after hostOps1 X (Proc.devRef .tc main_arg8) = X (Proc.devRef .tc main_arg8)).trans h.a8
  a9 := (by after_results : StableHlo.after hostOps1 X (Proc.devRef .tc main_arg9) = X (Proc.devRef .tc main_arg9)).trans h.a9
  a10 := (by after_results : StableHlo.after hostOps1 X (Proc.devRef .tc main_arg10) = X (Proc.devRef .tc main_arg10)).trans h.a10

set_option maxHeartbeats 16000000 in
/-- The stretch `hostOps2` writes none of the ten. -/
theorem Carried.step2 {X : Valuation τ sig (Elt Ideal)} {x1 : IVec S2x1600000 32} {x2 : IVec S100000 32} {x5 : FVec Ideal S128x128 .f32} {x6 : FVec Ideal S128 .f32} {x7 : FVec Ideal S128x128 .f32} {x8 : FVec Ideal S128 .f32} {x9 : FVec Ideal S128x2 .f32} {x10 : FVec Ideal S2 .f32} (h : Carried X x1 x2 x5 x6 x7 x8 x9 x10) :
    Carried (StableHlo.after hostOps2 X) x1 x2 x5 x6 x7 x8 x9 x10 where
  src := (by after_results : StableHlo.after hostOps2 X (Proc.devRef .tc main_v3) = X (Proc.devRef .tc main_v3)).trans h.src
  dst := (by after_results : StableHlo.after hostOps2 X (Proc.devRef .tc main_v6) = X (Proc.devRef .tc main_v6)).trans h.dst
  dinv := (by after_results : StableHlo.after hostOps2 X (Proc.devRef .tc main_v14) = X (Proc.devRef .tc main_v14)).trans h.dinv
  a2 := (by after_results : StableHlo.after hostOps2 X (Proc.devRef .tc main_arg2) = X (Proc.devRef .tc main_arg2)).trans h.a2
  a5 := (by after_results : StableHlo.after hostOps2 X (Proc.devRef .tc main_arg5) = X (Proc.devRef .tc main_arg5)).trans h.a5
  a6 := (by after_results : StableHlo.after hostOps2 X (Proc.devRef .tc main_arg6) = X (Proc.devRef .tc main_arg6)).trans h.a6
  a7 := (by after_results : StableHlo.after hostOps2 X (Proc.devRef .tc main_arg7) = X (Proc.devRef .tc main_arg7)).trans h.a7
  a8 := (by after_results : StableHlo.after hostOps2 X (Proc.devRef .tc main_arg8) = X (Proc.devRef .tc main_arg8)).trans h.a8
  a9 := (by after_results : StableHlo.after hostOps2 X (Proc.devRef .tc main_arg9) = X (Proc.devRef .tc main_arg9)).trans h.a9
  a10 := (by after_results : StableHlo.after hostOps2 X (Proc.devRef .tc main_arg10) = X (Proc.devRef .tc main_arg10)).trans h.a10

set_option maxHeartbeats 16000000 in
/-- The stretch `hostOps3` writes none of the ten. -/
theorem Carried.step3 {X : Valuation τ sig (Elt Ideal)} {x1 : IVec S2x1600000 32} {x2 : IVec S100000 32} {x5 : FVec Ideal S128x128 .f32} {x6 : FVec Ideal S128 .f32} {x7 : FVec Ideal S128x128 .f32} {x8 : FVec Ideal S128 .f32} {x9 : FVec Ideal S128x2 .f32} {x10 : FVec Ideal S2 .f32} (h : Carried X x1 x2 x5 x6 x7 x8 x9 x10) :
    Carried (StableHlo.after hostOps3 X) x1 x2 x5 x6 x7 x8 x9 x10 where
  src := (by after_results : StableHlo.after hostOps3 X (Proc.devRef .tc main_v3) = X (Proc.devRef .tc main_v3)).trans h.src
  dst := (by after_results : StableHlo.after hostOps3 X (Proc.devRef .tc main_v6) = X (Proc.devRef .tc main_v6)).trans h.dst
  dinv := (by after_results : StableHlo.after hostOps3 X (Proc.devRef .tc main_v14) = X (Proc.devRef .tc main_v14)).trans h.dinv
  a2 := (by after_results : StableHlo.after hostOps3 X (Proc.devRef .tc main_arg2) = X (Proc.devRef .tc main_arg2)).trans h.a2
  a5 := (by after_results : StableHlo.after hostOps3 X (Proc.devRef .tc main_arg5) = X (Proc.devRef .tc main_arg5)).trans h.a5
  a6 := (by after_results : StableHlo.after hostOps3 X (Proc.devRef .tc main_arg6) = X (Proc.devRef .tc main_arg6)).trans h.a6
  a7 := (by after_results : StableHlo.after hostOps3 X (Proc.devRef .tc main_arg7) = X (Proc.devRef .tc main_arg7)).trans h.a7
  a8 := (by after_results : StableHlo.after hostOps3 X (Proc.devRef .tc main_arg8) = X (Proc.devRef .tc main_arg8)).trans h.a8
  a9 := (by after_results : StableHlo.after hostOps3 X (Proc.devRef .tc main_arg9) = X (Proc.devRef .tc main_arg9)).trans h.a9
  a10 := (by after_results : StableHlo.after hostOps3 X (Proc.devRef .tc main_arg10) = X (Proc.devRef .tc main_arg10)).trans h.a10

set_option maxHeartbeats 4000000 in
/-- The first stretch writes no argument: the three the first region needs. -/
theorem start_a0 : StableHlo.after hostOps0_1 (StableHlo.after hostOps0 X) (Proc.devRef .tc main_arg0) = X (Proc.devRef .tc main_arg0) := by
  after_results
set_option maxHeartbeats 4000000 in
theorem start_a3 : StableHlo.after hostOps0_1 (StableHlo.after hostOps0 X) (Proc.devRef .tc main_arg3) = X (Proc.devRef .tc main_arg3) := by
  after_results
set_option maxHeartbeats 4000000 in
theorem start_a4 : StableHlo.after hostOps0_1 (StableHlo.after hostOps0 X) (Proc.devRef .tc main_arg4) = X (Proc.devRef .tc main_arg4) := by
  after_results

end Cert.KernelIdeal.Stages

end
-- ==== Proof.LibGcnSpec.lean ====
/-
  THE MATHEMATICS OF ONE DENSE STEP AND OF THE READ-OUT, as whole-array functions over the extended reals.

  A graph-convolution layer, once the neighbour sums `A` [R, K] are formed, finishes every node (row) p by itself:
  the row is scaled by the node's factor d[p], multiplied by the weights W [K, N], shifted by the bias b and rectified,
      dense(p, j) = max( (sum over k of (A[p, k] * d[p]) * W[k, j]) + b[j], 0 ),
  and, when the next layer wants its input already scaled, multiplied by d[p] once more.  The read-out divides each
  graph's summed features S [G, K] by that graph's node count (at least one), and applies a last linear map:
      head(g, o) = (sum over k of (S[g, k] / max(cnt[g], 1)) * W[k, o]) + b[o].
  The factor arrives as a column [R, 1], the bias as a row [1, N].  No program appears in this module.
-/
import Idealize.ShloMosaic.Lib.ValueIdx
import Idealize.ShloMosaic.PureOps.Ideal.Laws

noncomputable section

open scoped BigOperators

namespace Cert.Gcn

open Idealize.ShloMosaic Idealize.ShloMosaic.ValueIdx

/-- One dense step: every row scaled by its factor, times the weights, plus the bias row, rectified at zero. -/
def denseArr {R K N : ℕ} (A : (⟨2, ![R, K]⟩ : Shape).Idx → EReal) (d : (⟨2, ![R, 1]⟩ : Shape).Idx → EReal)
    (W : (⟨2, ![K, N]⟩ : Shape).Idx → EReal) (b : (⟨2, ![1, N]⟩ : Shape).Idx → EReal) :
    (⟨2, ![R, N]⟩ : Shape).Idx → EReal :=
  fun i => max ((∑ k : Fin K, (A (ix2 (i 0) k) * d (ix2 (i 0) (0 : Fin 1))) * W (ix2 k (i 1)))
    + b (ix2 (0 : Fin 1) (i 1))) 0

theorem denseArr_apply {R K N : ℕ} (A : (⟨2, ![R, K]⟩ : Shape).Idx → EReal) (d : (⟨2, ![R, 1]⟩ : Shape).Idx → EReal)
    (W : (⟨2, ![K, N]⟩ : Shape).Idx → EReal) (b : (⟨2, ![1, N]⟩ : Shape).Idx → EReal) (p : Fin R) (j : Fin N) :
    denseArr A d W b (ix2 p j) = max ((∑ k : Fin K, (A (ix2 p k) * d (ix2 p (0 : Fin 1))) * W (ix2 k j))
      + b (ix2 (0 : Fin 1) j)) 0 := rfl

/-- The dense step whose result is scaled by the row's factor once more. -/
def denseScaledArr {R K N : ℕ} (A : (⟨2, ![R, K]⟩ : Shape).Idx → EReal) (d : (⟨2, ![R, 1]⟩ : Shape).Idx → EReal)
    (W : (⟨2, ![K, N]⟩ : Shape).Idx → EReal) (b : (⟨2, ![1, N]⟩ : Shape).Idx → EReal) :
    (⟨2, ![R, N]⟩ : Shape).Idx → EReal :=
  fun i => denseArr A d W b i * d (ix2 (i 0) (0 : Fin 1))

theorem denseScaledArr_apply {R K N : ℕ} (A : (⟨2, ![R, K]⟩ : Shape).Idx → EReal) (d : (⟨2, ![R, 1]⟩ : Shape).Idx → EReal)
    (W : (⟨2, ![K, N]⟩ : Shape).Idx → EReal) (b : (⟨2, ![1, N]⟩ : Shape).Idx → EReal) (p : Fin R) (j : Fin N) :
    denseScaledArr A d W b (ix2 p j) = denseArr A d W b (ix2 p j) * d (ix2 p (0 : Fin 1)) := rfl

/-- The read-out: each graph's feature sums divided by its node count (at least the single-precision one), then a
    linear map with a bias row. -/
def headArr {G K N : ℕ} (S : (⟨2, ![G, K]⟩ : Shape).Idx → EReal) (cnt : (⟨2, ![G, 1]⟩ : Shape).Idx → EReal)
    (W : (⟨2, ![K, N]⟩ : Shape).Idx → EReal) (b : (⟨2, ![1, N]⟩ : Shape).Idx → EReal) :
    (⟨2, ![G, N]⟩ : Shape).Idx → EReal :=
  fun i => (∑ k : Fin K, Ideal.div (S (ix2 (i 0) k)) (max (cnt (ix2 (i 0) (0 : Fin 1))) (Ideal.ofBits .f32 0x3F800000#32))
      * W (ix2 k (i 1))) + b (ix2 (0 : Fin 1) (i 1))

theorem headArr_apply {G K N : ℕ} (S : (⟨2, ![G, K]⟩ : Shape).Idx → EReal) (cnt : (⟨2, ![G, 1]⟩ : Shape).Idx → EReal)
    (W : (⟨2, ![K, N]⟩ : Shape).Idx → EReal) (b : (⟨2, ![1, N]⟩ : Shape).Idx → EReal) (g : Fin G) (o : Fin N) :
    headArr S cnt W b (ix2 g o) = (∑ k : Fin K, Ideal.div (S (ix2 g k))
      (max (cnt (ix2 g (0 : Fin 1))) (Ideal.ofBits .f32 0x3F800000#32)) * W (ix2 k o)) + b (ix2 (0 : Fin 1) o) := rfl

end Cert.Gcn

end
-- ==== Proof.KernelOut.lean ====
/-
  THE KERNEL PROGRAM'S RESULT AS ONE FUNCTION OF ITS ARGUMENTS.

  Layer by layer: the neighbour sum of the scaled input rows, the dense step of the first region (scaled again for
  the next layer), the neighbour sum of its rows, the second region's dense step, the third neighbour sum, the
  third region's dense step (not scaled), then the per-graph sums and counts and the last region's read-out.
-/
import proofs.«176127_j35218731827641_2_alg».proof.Proof.KernelHost
import proofs.«176127_j35218731827641_2_alg».proof.Proof.LibGcnSpec

noncomputable section

namespace Cert.KernelIdeal.Stages

open Cert.KernelIdeal Cert.KernelIdeal.Edges
open Idealize.ShloMosaic

variable (x0 : FVec Ideal S100000x3 .f32) (x1 : IVec S2x1600000 32) (x2 : IVec S100000 32)
  (x3 : FVec Ideal S3x128 .f32) (x4 : FVec Ideal S128 .f32) (x5 : FVec Ideal S128x128 .f32) (x6 : FVec Ideal S128 .f32)
  (x7 : FVec Ideal S128x128 .f32) (x8 : FVec Ideal S128 .f32) (x9 : FVec Ideal S128x2 .f32) (x10 : FVec Ideal S2 .f32)

/-- The first layer's output rows, scaled for the second layer's neighbour sum. -/
def feat1 : FVec Ideal S100000x128 .bf16 :=
  Cert.Gcn.denseScaledArr (R := 100000) (K := 3) (N := 128)
    (agg3 (srcOf x1) (dstOf x1) (scaledIn x0 (dinvOf x1))) (dcol (dinvOf x1)) x3 (brow x4)

/-- The second layer's output rows, scaled for the third layer's neighbour sum. -/
def feat2 : FVec Ideal S100000x128 .bf16 :=
  Cert.Gcn.denseScaledArr (R := 100000) (K := 128) (N := 128)
    (agg128 (srcOf x1) (dstOf x1) (feat1 x0 x1 x3 x4)) (dcol (dinvOf x1)) x5 (brow x6)

/-- The third layer's output rows. -/
def feat3 : FVec Ideal S100000x128 .f32 :=
  Cert.Gcn.denseArr (R := 100000) (K := 128) (N := 128)
    (agg128 (srcOf x1) (dstOf x1) (feat2 x0 x1 x3 x4 x5 x6)) (dcol (dinvOf x1)) x7 (brow x8)

/-- The program's result. -/
def out : FVec Ideal S512x2 .f32 :=
  Cert.Gcn.headArr (G := 512) (K := 128) (N := 2) (sums x2 (feat3 x0 x1 x3 x4 x5 x6 x7 x8)) (counts x2) x9 (frow x10)

end Cert.KernelIdeal.Stages

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«176127_j35218731827641_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«176127_j35218731827641_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibGcnBlock.lean ====
/-
  THE DENSE STEP AND THE READ-OUT ON A BLOCK OF ROWS, read at an index, at the ideal values.

  On a block of `R` rows the vector unit spells one dense step as: the block cast to itself, the factor column cast to
  itself and broadcast over the `K` input columns, their product (narrowed, which changes nothing), the weights
  (narrowed likewise), the matrix product into a zero accumulator, the bias row cast to itself and broadcast over the
  rows, the sum, the larger of it and the zero word splat over the block; and, when the result is wanted scaled, one more
  product with the factor column broadcast over the `N` output columns.  Read at `(p, j)` this is
      max ((∑ k, (A (p, k) · d p) · W (k, j)) + b j, 0)        (times d p once more),
  the entry of `Cert.Gcn.denseArr` (resp. `denseScaledArr`) of the block's own arrays.  The read-out is spelled: the count
  column cast to itself, the larger of it and the one word splat over the column, broadcast over the `K` columns, the sums
  divided by it, the product with the weights into a zero accumulator, plus the bias row broadcast: the entry of
  `Cert.Gcn.headArr`.  Generic in the extents; the sums are compared term by term in one order and nothing is regrouped.
-/
import proofs.«176127_j35218731827641_2_alg».proof.Proof.LibGcnSpec
import proofs.«176127_j35218731827641_2_alg».proof.Proof.LibBlockDot
import proofs.«176127_j35218731827641_2_alg».proof.Proof.LibColumn
import Idealize.ShloMosaic.Lib.ValueLayout
import Idealize.ShloMosaic.Lib.Pipeline.Value

noncomputable section

open scoped BigOperators

namespace Cert.LibGcnBlock

open Idealize.ShloMosaic Idealize.ShloMosaic.ValueIdx Idealize.ShloMosaic.ColumnLayout

/-- The dense step on a block, at `(p, j)`. -/
theorem dense_apply {R K N : ℕ}
    (x0 : FVec Ideal ⟨2, ![R, K]⟩ .f32) (x1 : FVec Ideal ⟨2, ![R, 1]⟩ .f32)
    (x2 : FVec Ideal ⟨2, ![K, N]⟩ .f32) (x3 : FVec Ideal ⟨2, ![1, N]⟩ .f32)
    (h0 : (⟨2, ![R, K]⟩ : Shape).ShapeCasts ⟨2, ![R, K]⟩) (h1 : (⟨2, ![R, 1]⟩ : Shape).ShapeCasts ⟨2, ![R, 1]⟩)
    (hb1 : (⟨2, ![R, 1]⟩ : Shape).Broadcasts ⟨2, ![R, K]⟩)
    (h3 : (⟨2, ![1, N]⟩ : Shape).ShapeCasts ⟨2, ![1, N]⟩) (hb3 : (⟨2, ![1, N]⟩ : Shape).Broadcasts ⟨2, ![R, N]⟩)
    (hlt : FTy.bits .bf16 < FTy.bits .f32) (p : Fin R) (j : Fin N) :
    maximumf (addf (matmul (DotDims.plain R K N) none
            (truncf .bf16 (mulf (shapeCast ⟨2, ![R, K]⟩ x0 h0)
              (broadcastTo ⟨2, ![R, K]⟩ (shapeCast ⟨2, ![R, 1]⟩ x1 h1) hb1)) hlt)
            (truncf .bf16 x2 hlt) (constant ⟨2, ![R, N]⟩ .f32 0x00000000#32))
          (broadcastTo ⟨2, ![R, N]⟩ (shapeCast ⟨2, ![1, N]⟩ x3 h3) hb3))
        (broadcast ⟨2, ![R, N]⟩ (Scalar.ofBits (F := Ideal) .f32 0x00000000#32)) (ix2 p j)
      = Cert.Gcn.denseArr x0 x1 x2 x3 (ix2 p j) := by
  rw [Cert.Gcn.denseArr_apply]
  simp only [shapeCast_self]
  show max (matmul (DotDims.plain R K N) none
            (truncf .bf16 (mulf x0 (broadcastTo ⟨2, ![R, K]⟩ x1 hb1)) hlt)
            (truncf .bf16 x2 hlt) (constant ⟨2, ![R, N]⟩ .f32 0x00000000#32) (ix2 p j)
          + broadcastTo ⟨2, ![R, N]⟩ x3 hb3 (ix2 p j))
        (Ideal.ofBits .f32 0x00000000#32) = _
  rw [Cert.BlockDot.kdot_apply, broadcastTo_1b_ab_apply, Ideal.ofBits_zero_f32]
  congr 2
  refine Finset.sum_congr rfl fun k _ => ?_
  show x0 (ix2 p k) * broadcastTo ⟨2, ![R, K]⟩ x1 hb1 (ix2 p k) * x2 (ix2 k j) = _
  rw [broadcastTo_a1_ab_apply]

/-- The dense step on a block with its result scaled by the factor once more (and narrowed), at `(p, j)`. -/
theorem denseScaled_apply {R K N : ℕ}
    (x0 : FVec Ideal ⟨2, ![R, K]⟩ .f32) (x1 : FVec Ideal ⟨2, ![R, 1]⟩ .f32)
    (x2 : FVec Ideal ⟨2, ![K, N]⟩ .f32) (x3 : FVec Ideal ⟨2, ![1, N]⟩ .f32) (x1' : FVec Ideal ⟨2, ![R, 1]⟩ .f32)
    (hx : x1' = x1)
    (h0 : (⟨2, ![R, K]⟩ : Shape).ShapeCasts ⟨2, ![R, K]⟩) (h1 : (⟨2, ![R, 1]⟩ : Shape).ShapeCasts ⟨2, ![R, 1]⟩)
    (hb1 : (⟨2, ![R, 1]⟩ : Shape).Broadcasts ⟨2, ![R, K]⟩)
    (h3 : (⟨2, ![1, N]⟩ : Shape).ShapeCasts ⟨2, ![1, N]⟩) (hb3 : (⟨2, ![1, N]⟩ : Shape).Broadcasts ⟨2, ![R, N]⟩)
    (hb2 : (⟨2, ![R, 1]⟩ : Shape).Broadcasts ⟨2, ![R, N]⟩)
    (hlt : FTy.bits .bf16 < FTy.bits .f32) (p : Fin R) (j : Fin N) :
    truncf .bf16 (mulf (maximumf (addf (matmul (DotDims.plain R K N) none
            (truncf .bf16 (mulf (shapeCast ⟨2, ![R, K]⟩ x0 h0)
              (broadcastTo ⟨2, ![R, K]⟩ (shapeCast ⟨2, ![R, 1]⟩ x1 h1) hb1)) hlt)
            (truncf .bf16 x2 hlt) (constant ⟨2, ![R, N]⟩ .f32 0x00000000#32))
          (broadcastTo ⟨2, ![R, N]⟩ (shapeCast ⟨2, ![1, N]⟩ x3 h3) hb3))
        (broadcast ⟨2, ![R, N]⟩ (Scalar.ofBits (F := Ideal) .f32 0x00000000#32)))
        (broadcastTo ⟨2, ![R, N]⟩ (shapeCast ⟨2, ![R, 1]⟩ x1' h1) hb2)) hlt (ix2 p j)
      = Cert.Gcn.denseScaledArr x0 x1 x2 x3 (ix2 p j) := by
  subst hx
  rw [Cert.Gcn.denseScaledArr_apply, ← dense_apply x0 x1' x2 x3 h0 h1 hb1 h3 hb3 hlt p j]
  show _ * broadcastTo ⟨2, ![R, N]⟩ (shapeCast ⟨2, ![R, 1]⟩ x1' h1) hb2 (ix2 p j) = _
  rw [broadcastTo_a1_ab_apply, shapeCast_self x1' h1]

/-- The read-out on a block, at `(g, o)`. -/
theorem head_apply {G K N : ℕ}
    (c0 : FVec Ideal ⟨2, ![G, 1]⟩ .f32) (s0 : FVec Ideal ⟨2, ![G, K]⟩ .f32)
    (w0 : FVec Ideal ⟨2, ![K, N]⟩ .f32) (b0 : FVec Ideal ⟨2, ![1, N]⟩ .f32)
    (hc : (⟨2, ![G, 1]⟩ : Shape).ShapeCasts ⟨2, ![G, 1]⟩) (hs : (⟨2, ![G, K]⟩ : Shape).ShapeCasts ⟨2, ![G, K]⟩)
    (hbc : (⟨2, ![G, 1]⟩ : Shape).Broadcasts ⟨2, ![G, K]⟩)
    (hb : (⟨2, ![1, N]⟩ : Shape).ShapeCasts ⟨2, ![1, N]⟩) (hbb : (⟨2, ![1, N]⟩ : Shape).Broadcasts ⟨2, ![G, N]⟩)
    (hlt : FTy.bits .bf16 < FTy.bits .f32) (g : Fin G) (o : Fin N) :
    addf (matmul (DotDims.plain G K N) none
          (truncf .bf16 (divf (shapeCast ⟨2, ![G, K]⟩ s0 hs)
            (broadcastTo ⟨2, ![G, K]⟩ (maximumf (shapeCast ⟨2, ![G, 1]⟩ c0 hc)
              (broadcast ⟨2, ![G, 1]⟩ (Scalar.ofBits (F := Ideal) .f32 0x3F800000#32))) hbc)) hlt)
          (truncf .bf16 w0 hlt) (constant ⟨2, ![G, N]⟩ .f32 0x00000000#32))
        (broadcastTo ⟨2, ![G, N]⟩ (shapeCast ⟨2, ![1, N]⟩ b0 hb) hbb) (ix2 g o)
      = Cert.Gcn.headArr s0 c0 w0 b0 (ix2 g o) := by
  rw [Cert.Gcn.headArr_apply]
  simp only [shapeCast_self]
  show matmul (DotDims.plain G K N) none
          (truncf .bf16 (divf s0
            (broadcastTo ⟨2, ![G, K]⟩ (maximumf c0
              (broadcast ⟨2, ![G, 1]⟩ (Scalar.ofBits (F := Ideal) .f32 0x3F800000#32))) hbc)) hlt)
          (truncf .bf16 w0 hlt) (constant ⟨2, ![G, N]⟩ .f32 0x00000000#32) (ix2 g o)
        + broadcastTo ⟨2, ![G, N]⟩ b0 hbb (ix2 g o) = _
  rw [Cert.BlockDot.kdot_apply, broadcastTo_1b_ab_apply]
  congr 1
  refine Finset.sum_congr rfl fun k _ => ?_
  show Ideal.div (s0 (ix2 g k))
      (broadcastTo ⟨2, ![G, K]⟩ (maximumf c0
        (broadcast ⟨2, ![G, 1]⟩ (Scalar.ofBits (F := Ideal) .f32 0x3F800000#32))) hbc (ix2 g k)) * w0 (ix2 k o) = _
  rw [broadcastTo_a1_ab_apply]
  rfl

end Cert.LibGcnBlock

end
-- ==== Proof.LibGcnRows.lean ====
/-
  ROW LOCALITY OF THE DENSE STEP AND OF THE READ-OUT.

  Entry `(p, j)` of a dense step depends on row `p` of the summed features and of the factor column, on the weights and
  on the bias row, and on nothing else.  So the step computed on a block of rows — the block's rows are rows
  `off, off + 1, …` of the tall arrays, the weights and the bias are whole — is that block of rows of the step computed
  on the tall arrays.  The same holds for the step scaled once more and for the read-out.  Stated at indices given by the
  values of their coordinates; the sums are compared term by term.
-/
import proofs.«176127_j35218731827641_2_alg».proof.Proof.LibGcnSpec

noncomputable section

open scoped BigOperators

namespace Cert.LibGcnRows

open Idealize.ShloMosaic Idealize.ShloMosaic.ValueIdx Cert.Gcn

/-- A block of rows of the dense step is the dense step of the block. -/
theorem dense_rows {R R' K N : ℕ}
    (a : (⟨2, ![R, K]⟩ : Shape).Idx → EReal) (d : (⟨2, ![R, 1]⟩ : Shape).Idx → EReal)
    (w : (⟨2, ![K, N]⟩ : Shape).Idx → EReal) (b : (⟨2, ![1, N]⟩ : Shape).Idx → EReal)
    (A : (⟨2, ![R', K]⟩ : Shape).Idx → EReal) (D : (⟨2, ![R', 1]⟩ : Shape).Idx → EReal)
    (W : (⟨2, ![K, N]⟩ : Shape).Idx → EReal) (B : (⟨2, ![1, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → a u = A z)
    (hd : ∀ (u : (⟨2, ![R, 1]⟩ : Shape).Idx) (z : (⟨2, ![R', 1]⟩ : Shape).Idx),
      (z 0).val = off + (u 0).val → (z 1).val = (u 1).val → d u = D z)
    (hw : ∀ u, w u = W u) (hb : ∀ u, b u = B u) :
    denseArr a d w b y = denseArr A D W B i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [denseArr_apply, denseArr_apply, hd (ix2 p (0 : Fin 1)) (ix2 p' (0 : Fin 1)) hi0 rfl, hb]
  congr 2
  exact Finset.sum_congr rfl fun k _ => by rw [ha (ix2 p k) (ix2 p' k) hi0 rfl, hw]

/-- A block of rows of the scaled dense step is the scaled dense step of the block. -/
theorem denseScaled_rows {R R' K N : ℕ}
    (a : (⟨2, ![R, K]⟩ : Shape).Idx → EReal) (d : (⟨2, ![R, 1]⟩ : Shape).Idx → EReal)
    (w : (⟨2, ![K, N]⟩ : Shape).Idx → EReal) (b : (⟨2, ![1, N]⟩ : Shape).Idx → EReal)
    (A : (⟨2, ![R', K]⟩ : Shape).Idx → EReal) (D : (⟨2, ![R', 1]⟩ : Shape).Idx → EReal)
    (W : (⟨2, ![K, N]⟩ : Shape).Idx → EReal) (B : (⟨2, ![1, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → a u = A z)
    (hd : ∀ (u : (⟨2, ![R, 1]⟩ : Shape).Idx) (z : (⟨2, ![R', 1]⟩ : Shape).Idx),
      (z 0).val = off + (u 0).val → (z 1).val = (u 1).val → d u = D z)
    (hw : ∀ u, w u = W u) (hb : ∀ u, b u = B u) :
    denseScaledArr a d w b y = denseScaledArr A D W B i := by
  have e := dense_rows a d w b A D W B off y i hi0 hi1 ha hd hw hb
  show denseArr a d w b y * d (ix2 (y 0) (0 : Fin 1)) = denseArr A D W B i * D (ix2 (i 0) (0 : Fin 1))
  rw [e, hd (ix2 (y 0) (0 : Fin 1)) (ix2 (i 0) (0 : Fin 1)) hi0 rfl]

/-- A block of rows of the read-out is the read-out of the block. -/
theorem head_rows {R R' K N : ℕ}
    (s : (⟨2, ![R, K]⟩ : Shape).Idx → EReal) (n : (⟨2, ![R, 1]⟩ : Shape).Idx → EReal)
    (w : (⟨2, ![K, N]⟩ : Shape).Idx → EReal) (b : (⟨2, ![1, N]⟩ : Shape).Idx → EReal)
    (S : (⟨2, ![R', K]⟩ : Shape).Idx → EReal) (C : (⟨2, ![R', 1]⟩ : Shape).Idx → EReal)
    (W : (⟨2, ![K, N]⟩ : Shape).Idx → EReal) (B : (⟨2, ![1, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (hs : ∀ (u : (⟨2, ![R, K]⟩ : Shape).Idx) (z : (⟨2, ![R', K]⟩ : Shape).Idx),
      (z 0).val = off + (u 0).val → (z 1).val = (u 1).val → s u = S z)
    (hn : ∀ (u : (⟨2, ![R, 1]⟩ : Shape).Idx) (z : (⟨2, ![R', 1]⟩ : Shape).Idx),
      (z 0).val = off + (u 0).val → (z 1).val = (u 1).val → n u = C z)
    (hw : ∀ u, w u = W u) (hb : ∀ u, b u = B u) :
    headArr s n w b y = headArr S C W B i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [headArr_apply, headArr_apply, hn (ix2 p (0 : Fin 1)) (ix2 p' (0 : Fin 1)) hi0 rfl, hb]
  congr 1
  exact Finset.sum_congr rfl fun k _ => by rw [hs (ix2 p k) (ix2 p' k) hi0 rfl, hw]

end Cert.LibGcnRows

end
-- ==== Proof.DenseRegion0.lean ====
/-
  THE FIRST DENSE STEP, SCALED, AS ONE FUNCTION OF ITS ARRAYS.

  The first row-blocked region runs the dense step with its result scaled by the factor once more, on twenty blocks of
  5000 rows of a 100000-row array: at point `t` it reads rows `5000 t … 5000 t + 4999` of the summed features and of the
  factor column (the column twice, the same block both times), the whole weights and the whole bias row, and writes the
  same rows of the result, narrowed (which changes nothing at the ideal values).  Each block's result is the scaled dense
  step of the block, which is the block of rows of the scaled dense step of the whole arrays (row locality); the twenty
  blocks tile the result, the point covering row `r` being `r / 5000`.  So the result array ends holding
  `Cert.Gcn.denseScaledArr` of the four arrays as the region finds them.
-/
import proofs.«176127_j35218731827641_2_alg».proof.Proof.Gen.KernelIdeal.Frame
import proofs.«176127_j35218731827641_2_alg».proof.Proof.LibGcnBlock
import proofs.«176127_j35218731827641_2_alg».proof.Proof.LibGcnRows
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The body's payload is the scaled dense step of its loaded blocks (the factor column is loaded twice). -/
theorem pay0_eq (v0 : FVec Ideal S5000x3 .f32) (v2 : FVec Ideal S5000x1 .f32) (v7 : FVec Ideal S3x128 .f32)
    (v10 : FVec Ideal S1x128 .f32) :
    (k0_pay1 (F := Ideal) v0 v2 v7 v10 v2 : S5000x128.Idx → EReal)
      = Cert.Gcn.denseScaledArr (R := 5000) (K := 3) (N := 128) v0 v2 v7 v10 := by
  funext i
  obtain ⟨p, j, rfl⟩ : ∃ (p : Fin 5000) (j : Fin 128), i = ix2 p j := ⟨i 0, i 1, eq_ix2 i⟩
  exact Cert.LibGcnBlock.denseScaled_apply (R := 5000) (K := 3) (N := 128) v0 v2 v7 v10 v2 rfl _ _ _ _ _ _ _ p j

/-- The printed index maps, decided over the grid: the row-blocked windows sit at block `(t, 0)`, the whole ones at
    block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The features' block at point `t` is rows `5000 t …` of the array. -/
theorem blk0_0 (c : Dev nD) (t : Fin cfg0.N) (u : S5000x3.Idx) (z : S100000x3.Idx)
    (h0 : (z 0).val = t.val * 5000 + (u 0).val) (h1 : (z 1).val = (u 1).val) :
    (iblk0 V c 0 t : S5000x3.Idx → EReal) u = (V c (Pipeline.arrRef spec0 0) : S100000x3.Idx → EReal) z := by
  obtain ⟨e0, e1, -⟩ := idx_facts0 t
  have h : ((cfg0.win 0).blk t).view.emb u = z := by
    funext a; apply Fin.ext
    match a with
    | ⟨0, _⟩ => show win0_0.index t (0 : Fin 2) * 5000 + 1 * (u 0).val = (z 0).val; omega
    | ⟨1, _⟩ => show win0_0.index t (1 : Fin 2) * 3 + 1 * (u 1).val = (z 1).val; omega
  show (V c (Pipeline.arrRef spec0 0) : S100000x3.Idx → EReal) (((cfg0.win 0).blk t).view.emb u) = _
  rw [h]

/-- The factor column's block at point `t` is rows `5000 t …` of the column. -/
theorem blk0_1 (c : Dev nD) (t : Fin cfg0.N) (u : S5000x1.Idx) (z : S100000x1.Idx)
    (h0 : (z 0).val = t.val * 5000 + (u 0).val) (h1 : (z 1).val = (u 1).val) :
    (iblk0 V c 1 t : S5000x1.Idx → EReal) u = (V c (Pipeline.arrRef spec0 1) : S100000x1.Idx → EReal) z := by
  obtain ⟨-, -, e2, e3, -⟩ := idx_facts0 t
  have h : ((cfg0.win 1).blk t).view.emb u = z := by
    funext a; apply Fin.ext
    match a with
    | ⟨0, _⟩ => show win0_1.index t (0 : Fin 2) * 5000 + 1 * (u 0).val = (z 0).val; omega
    | ⟨1, _⟩ => show win0_1.index t (1 : Fin 2) * 1 + 1 * (u 1).val = (z 1).val; omega
  show (V c (Pipeline.arrRef spec0 1) : S100000x1.Idx → EReal) (((cfg0.win 1).blk t).view.emb u) = _
  rw [h]

/-- The weights' block at every point is the whole array. -/
theorem blk0_2 (c : Dev nD) (t : Fin cfg0.N) (u : S3x128.Idx) :
    (iblk0 V c 2 t : S3x128.Idx → EReal) u = (V c (Pipeline.arrRef spec0 2) : S3x128.Idx → EReal) u := by
  obtain ⟨-, -, -, -, e4, e5, -⟩ := idx_facts0 t
  have h : ((cfg0.win 2).blk t).view.emb u = u := by
    funext a; apply Fin.ext
    match a with
    | ⟨0, _⟩ => show win0_2.index t (0 : Fin 2) * 3 + 1 * (u 0).val = (u 0).val; omega
    | ⟨1, _⟩ => show win0_2.index t (1 : Fin 2) * 128 + 1 * (u 1).val = (u 1).val; omega
  show (V c (Pipeline.arrRef spec0 2) : S3x128.Idx → EReal) (((cfg0.win 2).blk t).view.emb u) = _
  rw [h]

/-- The bias row's block at every point is the whole row. -/
theorem blk0_3 (c : Dev nD) (t : Fin cfg0.N) (u : S1x128.Idx) :
    (iblk0 V c 3 t : S1x128.Idx → EReal) u = (V c (Pipeline.arrRef spec0 3) : S1x128.Idx → EReal) u := by
  obtain ⟨-, -, -, -, -, -, e6, e7, -⟩ := idx_facts0 t
  have h : ((cfg0.win 3).blk t).view.emb u = u := by
    funext a; apply Fin.ext
    match a with
    | ⟨0, _⟩ => show win0_3.index t (0 : Fin 2) * 1 + 1 * (u 0).val = (u 0).val; omega
    | ⟨1, _⟩ => show win0_3.index t (1 : Fin 2) * 128 + 1 * (u 1).val = (u 1).val; omega
  show (V c (Pipeline.arrRef spec0 3) : S1x128.Idx → EReal) (((cfg0.win 3).blk t).view.emb u) = _
  rw [h]

/-- What point `t` writes back is block `t` of the scaled dense step of the arrays as the region finds them. -/
theorem flushed0_eq (c : Dev nD) (t : Fin cfg0.N) :
    (dat0 (F := Ideal) V c).flushed 4 t = ((cfg0.win 4).blk t).view.read (Elt Ideal)
      (Cert.Gcn.denseScaledArr (R := 100000) (K := 3) (N := 128) (V c (Pipeline.arrRef spec0 0))
        (V c (Pipeline.arrRef spec0 1)) (V c (Pipeline.arrRef spec0 2)) (V c (Pipeline.arrRef spec0 3))) := by
  have hz : (![0, 0] : Fin 2 → Nat) = fun _ => 0 := funext fun a => by fin_cases a <;> rfl
  show (cfg0.win 4).cut (grid0.coords t) ((dat0 (F := Ideal) V c).after 4 t) = _
  rw [after0_4]
  unfold out0_4
  rw [View.canon_unit_zero hz]
  simp only [View.ld_unit_zero (S := S5000x3) hz, View.ld_unit_zero (S := S5000x1) hz,
    View.ld_unit_zero (S := S3x128) hz, View.ld_unit_zero (S := S1x128) hz]
  rw [pay0_eq]
  obtain ⟨-, -, -, -, -, -, -, -, e8, e9⟩ := idx_facts0 t
  funext y
  show Cert.Gcn.denseScaledArr (R := 5000) (K := 3) (N := 128) (iblk0 V c 0 t) (iblk0 V c 1 t) (iblk0 V c 2 t) (iblk0 V c 3 t) y
    = Cert.Gcn.denseScaledArr (R := 100000) (K := 3) (N := 128) (V c (Pipeline.arrRef spec0 0))
        (V c (Pipeline.arrRef spec0 1)) (V c (Pipeline.arrRef spec0 2)) (V c (Pipeline.arrRef spec0 3))
        (((cfg0.win 4).blk t).view.emb y)
  refine Cert.LibGcnRows.denseScaled_rows _ _ _ _ _ _ _ _ (t.val * 5000) y _ ?_ ?_
    (fun u z h0 h1 => blk0_0 V c t u z h0 h1) (fun u z h0 h1 => blk0_1 V c t u z h0 h1)
    (fun u => blk0_2 V c t u) (fun u => blk0_3 V c t u)
  · show win0_4.index t (0 : Fin 2) * 5000 + 1 * (y 0).val = t.val * 5000 + (y 0).val; omega
  · show win0_4.index t (1 : Fin 2) * 128 + 1 * (y 1).val = (y 1).val; omega

/-- An index of the result is in point `t`'s block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v30).slice (win0_4.rect t)).set ↔ _
  rw [View.set_slice_whole, Rect.mem_set_unit]
  exact Iff.rfl

/-- Every index of the result is in the block of the point its row divided by 5000 names. -/
theorem cover0 (i : S100000x128.Idx) :
    ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, -, -, e8, e9⟩ := idx_facts0 t
  refine ⟨t, flush0_4 t, ?_⟩
  rw [mem_blk0]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- The result array after the region: the scaled dense step of the four arrays as the region finds them. -/
theorem final0 (c : Dev nD) :
    (dat0 (F := Ideal) V c).arrAt 4 cfg0.N
      = Cert.Gcn.denseScaledArr (R := 100000) (K := 3) (N := 128) (V c (Pipeline.arrRef spec0 0))
        (V c (Pipeline.arrRef spec0 1)) (V c (Pipeline.arrRef spec0 2)) (V c (Pipeline.arrRef spec0 3)) :=
  (dat0 (F := Ideal) V c).arrAt_eq_of_cover 4 _ (fun t _ => flushed0_eq V c t) cover0

end Cert.KernelIdeal.RegionValue

end
-- ==== Proof.DenseRegion1.lean ====
/-
  THE SECOND DENSE STEP, SCALED, AS ONE FUNCTION OF ITS ARRAYS.

  The second row-blocked region runs the dense step with its result scaled by the factor once more, on twenty blocks of
  5000 rows of a 100000-row array: at point `t` it reads rows `5000 t … 5000 t + 4999` of the summed features and of the
  factor column (the column twice, the same block both times), the whole weights and the whole bias row, and writes the
  same rows of the result, narrowed (which changes nothing at the ideal values).  Each block's result is the scaled dense
  step of the block, which is the block of rows of the scaled dense step of the whole arrays (row locality); the twenty
  blocks tile the result, the point covering row `r` being `r / 5000`.  So the result array ends holding
  `Cert.Gcn.denseScaledArr` of the four arrays as the region finds them.
-/
import proofs.«176127_j35218731827641_2_alg».proof.Proof.Gen.KernelIdeal.Frame
import proofs.«176127_j35218731827641_2_alg».proof.Proof.LibGcnBlock
import proofs.«176127_j35218731827641_2_alg».proof.Proof.LibGcnRows
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The body's payload is the scaled dense step of its loaded blocks (the factor column is loaded twice). -/
theorem pay1_eq (v0 : FVec Ideal S5000x128 .f32) (v2 : FVec Ideal S5000x1 .f32) (v7 : FVec Ideal S128x128 .f32)
    (v10 : FVec Ideal S1x128 .f32) :
    (k1_pay1 (F := Ideal) v0 v2 v7 v10 v2 : S5000x128.Idx → EReal)
      = Cert.Gcn.denseScaledArr (R := 5000) (K := 128) (N := 128) v0 v2 v7 v10 := by
  funext i
  obtain ⟨p, j, rfl⟩ : ∃ (p : Fin 5000) (j : Fin 128), i = ix2 p j := ⟨i 0, i 1, eq_ix2 i⟩
  exact Cert.LibGcnBlock.denseScaled_apply (R := 5000) (K := 128) (N := 128) v0 v2 v7 v10 v2 rfl _ _ _ _ _ _ _ p j

/-- The printed index maps, decided over the grid: the row-blocked windows sit at block `(t, 0)`, the whole ones at
    block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The features' block at point `t` is rows `5000 t …` of the array. -/
theorem blk1_0 (c : Dev nD) (t : Fin cfg1.N) (u : S5000x128.Idx) (z : S100000x128.Idx)
    (h0 : (z 0).val = t.val * 5000 + (u 0).val) (h1 : (z 1).val = (u 1).val) :
    (iblk1 V c 0 t : S5000x128.Idx → EReal) u = (V c (Pipeline.arrRef spec1 0) : S100000x128.Idx → EReal) z := by
  obtain ⟨e0, e1, -⟩ := idx_facts1 t
  have h : ((cfg1.win 0).blk t).view.emb u = z := by
    funext a; apply Fin.ext
    match a with
    | ⟨0, _⟩ => show win1_0.index t (0 : Fin 2) * 5000 + 1 * (u 0).val = (z 0).val; omega
    | ⟨1, _⟩ => show win1_0.index t (1 : Fin 2) * 128 + 1 * (u 1).val = (z 1).val; omega
  show (V c (Pipeline.arrRef spec1 0) : S100000x128.Idx → EReal) (((cfg1.win 0).blk t).view.emb u) = _
  rw [h]

/-- The factor column's block at point `t` is rows `5000 t …` of the column. -/
theorem blk1_1 (c : Dev nD) (t : Fin cfg1.N) (u : S5000x1.Idx) (z : S100000x1.Idx)
    (h0 : (z 0).val = t.val * 5000 + (u 0).val) (h1 : (z 1).val = (u 1).val) :
    (iblk1 V c 1 t : S5000x1.Idx → EReal) u = (V c (Pipeline.arrRef spec1 1) : S100000x1.Idx → EReal) z := by
  obtain ⟨-, -, e2, e3, -⟩ := idx_facts1 t
  have h : ((cfg1.win 1).blk t).view.emb u = z := by
    funext a; apply Fin.ext
    match a with
    | ⟨0, _⟩ => show win1_1.index t (0 : Fin 2) * 5000 + 1 * (u 0).val = (z 0).val; omega
    | ⟨1, _⟩ => show win1_1.index t (1 : Fin 2) * 1 + 1 * (u 1).val = (z 1).val; omega
  show (V c (Pipeline.arrRef spec1 1) : S100000x1.Idx → EReal) (((cfg1.win 1).blk t).view.emb u) = _
  rw [h]

/-- The weights' block at every point is the whole array. -/
theorem blk1_2 (c : Dev nD) (t : Fin cfg1.N) (u : S128x128.Idx) :
    (iblk1 V c 2 t : S128x128.Idx → EReal) u = (V c (Pipeline.arrRef spec1 2) : S128x128.Idx → EReal) u := by
  obtain ⟨-, -, -, -, e4, e5, -⟩ := idx_facts1 t
  have h : ((cfg1.win 2).blk t).view.emb u = u := by
    funext a; apply Fin.ext
    match a with
    | ⟨0, _⟩ => show win1_2.index t (0 : Fin 2) * 128 + 1 * (u 0).val = (u 0).val; omega
    | ⟨1, _⟩ => show win1_2.index t (1 : Fin 2) * 128 + 1 * (u 1).val = (u 1).val; omega
  show (V c (Pipeline.arrRef spec1 2) : S128x128.Idx → EReal) (((cfg1.win 2).blk t).view.emb u) = _
  rw [h]

/-- The bias row's block at every point is the whole row. -/
theorem blk1_3 (c : Dev nD) (t : Fin cfg1.N) (u : S1x128.Idx) :
    (iblk1 V c 3 t : S1x128.Idx → EReal) u = (V c (Pipeline.arrRef spec1 3) : S1x128.Idx → EReal) u := by
  obtain ⟨-, -, -, -, -, -, e6, e7, -⟩ := idx_facts1 t
  have h : ((cfg1.win 3).blk t).view.emb u = u := by
    funext a; apply Fin.ext
    match a with
    | ⟨0, _⟩ => show win1_3.index t (0 : Fin 2) * 1 + 1 * (u 0).val = (u 0).val; omega
    | ⟨1, _⟩ => show win1_3.index t (1 : Fin 2) * 128 + 1 * (u 1).val = (u 1).val; omega
  show (V c (Pipeline.arrRef spec1 3) : S1x128.Idx → EReal) (((cfg1.win 3).blk t).view.emb u) = _
  rw [h]

/-- What point `t` writes back is block `t` of the scaled dense step of the arrays as the region finds them. -/
theorem flushed1_eq (c : Dev nD) (t : Fin cfg1.N) :
    (dat1 (F := Ideal) V c).flushed 4 t = ((cfg1.win 4).blk t).view.read (Elt Ideal)
      (Cert.Gcn.denseScaledArr (R := 100000) (K := 128) (N := 128) (V c (Pipeline.arrRef spec1 0))
        (V c (Pipeline.arrRef spec1 1)) (V c (Pipeline.arrRef spec1 2)) (V c (Pipeline.arrRef spec1 3))) := by
  have hz : (![0, 0] : Fin 2 → Nat) = fun _ => 0 := funext fun a => by fin_cases a <;> rfl
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  rw [pay1_eq]
  obtain ⟨-, -, -, -, -, -, -, -, e8, e9⟩ := idx_facts1 t
  funext y
  show Cert.Gcn.denseScaledArr (R := 5000) (K := 128) (N := 128) (iblk1 V c 0 t) (iblk1 V c 1 t) (iblk1 V c 2 t) (iblk1 V c 3 t) y
    = Cert.Gcn.denseScaledArr (R := 100000) (K := 128) (N := 128) (V c (Pipeline.arrRef spec1 0))
        (V c (Pipeline.arrRef spec1 1)) (V c (Pipeline.arrRef spec1 2)) (V c (Pipeline.arrRef spec1 3))
        (((cfg1.win 4).blk t).view.emb y)
  refine Cert.LibGcnRows.denseScaled_rows _ _ _ _ _ _ _ _ (t.val * 5000) y _ ?_ ?_
    (fun u z h0 h1 => blk1_0 V c t u z h0 h1) (fun u z h0 h1 => blk1_1 V c t u z h0 h1)
    (fun u => blk1_2 V c t u) (fun u => blk1_3 V c t u)
  · show win1_4.index t (0 : Fin 2) * 5000 + 1 * (y 0).val = t.val * 5000 + (y 0).val; omega
  · show win1_4.index t (1 : Fin 2) * 128 + 1 * (y 1).val = (y 1).val; omega

/-- An index of the result is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v44).slice (win1_4.rect t)).set ↔ _
  rw [View.set_slice_whole, Rect.mem_set_unit]
  exact Iff.rfl

/-- Every index of the result is in the block of the point its row divided by 5000 names. -/
theorem cover1 (i : S100000x128.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, -, -, -, -, -, -, e8, e9⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- The result array after the region: the scaled dense step of the four arrays as the region finds them. -/
theorem final1 (c : Dev nD) :
    (dat1 (F := Ideal) V c).arrAt 4 cfg1.N
      = Cert.Gcn.denseScaledArr (R := 100000) (K := 128) (N := 128) (V c (Pipeline.arrRef spec1 0))
        (V c (Pipeline.arrRef spec1 1)) (V c (Pipeline.arrRef spec1 2)) (V c (Pipeline.arrRef spec1 3)) :=
  (dat1 (F := Ideal) V c).arrAt_eq_of_cover 4 _ (fun t _ => flushed1_eq V c t) cover1

end Cert.KernelIdeal.RegionValue

end
-- ==== Proof.DenseRegion2.lean ====
/-
  THE LAST DENSE STEP AS ONE FUNCTION OF ITS ARRAYS.

  The third row-blocked region runs the dense step on twenty blocks of 5000 rows of a 100000-row array: at point `t` it
  reads rows `5000 t … 5000 t + 4999` of the summed features and of the factor column, the whole weights and the whole
  bias row, and writes the same rows of the result.  Each block's result is the dense step of the block, which is the block
  of rows of the dense step of the whole arrays (row locality); the twenty blocks tile the result, the point covering row
  `r` being `r / 5000`.  So the result array ends holding `Cert.Gcn.denseArr` of the four arrays as the region finds them.
-/
import proofs.«176127_j35218731827641_2_alg».proof.Proof.Gen.KernelIdeal.Frame
import proofs.«176127_j35218731827641_2_alg».proof.Proof.LibGcnBlock
import proofs.«176127_j35218731827641_2_alg».proof.Proof.LibGcnRows
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The body's payload is the dense step of its loaded blocks. -/
theorem pay2_eq (v0 : FVec Ideal S5000x128 .f32) (v2 : FVec Ideal S5000x1 .f32) (v7 : FVec Ideal S128x128 .f32)
    (v10 : FVec Ideal S1x128 .f32) :
    k2_pay1 (F := Ideal) v0 v2 v7 v10 = Cert.Gcn.denseArr (R := 5000) (K := 128) (N := 128) v0 v2 v7 v10 := by
  funext i
  obtain ⟨p, j, rfl⟩ : ∃ (p : Fin 5000) (j : Fin 128), i = ix2 p j := ⟨i 0, i 1, eq_ix2 i⟩
  exact Cert.LibGcnBlock.dense_apply (R := 5000) (K := 128) (N := 128) v0 v2 v7 v10 _ _ _ _ _ _ p j

/-- The printed index maps, decided over the grid: the row-blocked windows sit at block `(t, 0)`, the whole ones at
    block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The features' block at point `t` is rows `5000 t …` of the array. -/
theorem blk2_0 (c : Dev nD) (t : Fin cfg2.N) (u : S5000x128.Idx) (z : S100000x128.Idx)
    (h0 : (z 0).val = t.val * 5000 + (u 0).val) (h1 : (z 1).val = (u 1).val) :
    (iblk2 V c 0 t : S5000x128.Idx → EReal) u = (V c (Pipeline.arrRef spec2 0) : S100000x128.Idx → EReal) z := by
  obtain ⟨e0, e1, -⟩ := idx_facts2 t
  have h : ((cfg2.win 0).blk t).view.emb u = z := by
    funext a; apply Fin.ext
    match a with
    | ⟨0, _⟩ => show win2_0.index t (0 : Fin 2) * 5000 + 1 * (u 0).val = (z 0).val; omega
    | ⟨1, _⟩ => show win2_0.index t (1 : Fin 2) * 128 + 1 * (u 1).val = (z 1).val; omega
  show (V c (Pipeline.arrRef spec2 0) : S100000x128.Idx → EReal) (((cfg2.win 0).blk t).view.emb u) = _
  rw [h]

/-- The factor column's block at point `t` is rows `5000 t …` of the column. -/
theorem blk2_1 (c : Dev nD) (t : Fin cfg2.N) (u : S5000x1.Idx) (z : S100000x1.Idx)
    (h0 : (z 0).val = t.val * 5000 + (u 0).val) (h1 : (z 1).val = (u 1).val) :
    (iblk2 V c 1 t : S5000x1.Idx → EReal) u = (V c (Pipeline.arrRef spec2 1) : S100000x1.Idx → EReal) z := by
  obtain ⟨-, -, e2, e3, -⟩ := idx_facts2 t
  have h : ((cfg2.win 1).blk t).view.emb u = z := by
    funext a; apply Fin.ext
    match a with
    | ⟨0, _⟩ => show win2_1.index t (0 : Fin 2) * 5000 + 1 * (u 0).val = (z 0).val; omega
    | ⟨1, _⟩ => show win2_1.index t (1 : Fin 2) * 1 + 1 * (u 1).val = (z 1).val; omega
  show (V c (Pipeline.arrRef spec2 1) : S100000x1.Idx → EReal) (((cfg2.win 1).blk t).view.emb u) = _
  rw [h]

/-- The weights' block at every point is the whole array. -/
theorem blk2_2 (c : Dev nD) (t : Fin cfg2.N) (u : S128x128.Idx) :
    (iblk2 V c 2 t : S128x128.Idx → EReal) u = (V c (Pipeline.arrRef spec2 2) : S128x128.Idx → EReal) u := by
  obtain ⟨-, -, -, -, e4, e5, -⟩ := idx_facts2 t
  have h : ((cfg2.win 2).blk t).view.emb u = u := by
    funext a; apply Fin.ext
    match a with
    | ⟨0, _⟩ => show win2_2.index t (0 : Fin 2) * 128 + 1 * (u 0).val = (u 0).val; omega
    | ⟨1, _⟩ => show win2_2.index t (1 : Fin 2) * 128 + 1 * (u 1).val = (u 1).val; omega
  show (V c (Pipeline.arrRef spec2 2) : S128x128.Idx → EReal) (((cfg2.win 2).blk t).view.emb u) = _
  rw [h]

/-- The bias row's block at every point is the whole row. -/
theorem blk2_3 (c : Dev nD) (t : Fin cfg2.N) (u : S1x128.Idx) :
    (iblk2 V c 3 t : S1x128.Idx → EReal) u = (V c (Pipeline.arrRef spec2 3) : S1x128.Idx → EReal) u := by
  obtain ⟨-, -, -, -, -, -, e6, e7, -⟩ := idx_facts2 t
  have h : ((cfg2.win 3).blk t).view.emb u = u := by
    funext a; apply Fin.ext
    match a with
    | ⟨0, _⟩ => show win2_3.index t (0 : Fin 2) * 1 + 1 * (u 0).val = (u 0).val; omega
    | ⟨1, _⟩ => show win2_3.index t (1 : Fin 2) * 128 + 1 * (u 1).val = (u 1).val; omega
  show (V c (Pipeline.arrRef spec2 3) : S1x128.Idx → EReal) (((cfg2.win 3).blk t).view.emb u) = _
  rw [h]

/-- What point `t` writes back is block `t` of the dense step of the arrays as the region finds them. -/
theorem flushed2_eq (c : Dev nD) (t : Fin cfg2.N) :
    (dat2 (F := Ideal) V c).flushed 4 t = ((cfg2.win 4).blk t).view.read (Elt Ideal)
      (Cert.Gcn.denseArr (R := 100000) (K := 128) (N := 128) (V c (Pipeline.arrRef spec2 0))
        (V c (Pipeline.arrRef spec2 1)) (V c (Pipeline.arrRef spec2 2)) (V c (Pipeline.arrRef spec2 3))) := by
  have hz : (![0, 0] : Fin 2 → Nat) = fun _ => 0 := funext fun a => by fin_cases a <;> rfl
  show (cfg2.win 4).cut (grid2.coords t) ((dat2 (F := Ideal) V c).after 4 t) = _
  rw [after2_4]
  unfold out2_4
  rw [View.canon_unit_zero hz]
  simp only [View.ld_unit_zero (S := S5000x128) hz, View.ld_unit_zero (S := S5000x1) hz,
    View.ld_unit_zero (S := S128x128) hz, View.ld_unit_zero (S := S1x128) hz]
  rw [pay2_eq]
  obtain ⟨-, -, -, -, -, -, -, -, e8, e9⟩ := idx_facts2 t
  funext y
  show Cert.Gcn.denseArr (R := 5000) (K := 128) (N := 128) (iblk2 V c 0 t) (iblk2 V c 1 t) (iblk2 V c 2 t) (iblk2 V c 3 t) y
    = Cert.Gcn.denseArr (R := 100000) (K := 128) (N := 128) (V c (Pipeline.arrRef spec2 0))
        (V c (Pipeline.arrRef spec2 1)) (V c (Pipeline.arrRef spec2 2)) (V c (Pipeline.arrRef spec2 3))
        (((cfg2.win 4).blk t).view.emb y)
  refine Cert.LibGcnRows.dense_rows _ _ _ _ _ _ _ _ (t.val * 5000) y _ ?_ ?_
    (fun u z h0 h1 => blk2_0 V c t u z h0 h1) (fun u z h0 h1 => blk2_1 V c t u z h0 h1)
    (fun u => blk2_2 V c t u) (fun u => blk2_3 V c t u)
  · show win2_4.index t (0 : Fin 2) * 5000 + 1 * (y 0).val = t.val * 5000 + (y 0).val; omega
  · show win2_4.index t (1 : Fin 2) * 128 + 1 * (y 1).val = (y 1).val; omega

/-- An index of the result is in point `t`'s block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v58).slice (win2_4.rect t)).set ↔ _
  rw [View.set_slice_whole, Rect.mem_set_unit]
  exact Iff.rfl

/-- Every index of the result is in the block of the point its row divided by 5000 names. -/
theorem cover2 (i : S100000x128.Idx) :
    ∃ t : Fin cfg2.N, (cfg2.win 4).flush t = true ∧ i ∈ ((cfg2.win 4).blk t).view.set := by
  have hN : cfg2.N = 20 := N_2
  have hi0 : (i 0).val < 100000 := (i 0).isLt
  have hi1 : (i 1).val < 128 := (i 1).isLt
  obtain ⟨t, ht⟩ : ∃ t : Fin cfg2.N, t.val = (i 0).val / 5000 := ⟨⟨(i 0).val / 5000, by omega⟩, rfl⟩
  obtain ⟨-, -, -, -, -, -, -, -, e8, e9⟩ := idx_facts2 t
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- The result array after the region: the dense step of the four arrays as the region finds them. -/
theorem final2 (c : Dev nD) :
    (dat2 (F := Ideal) V c).arrAt 4 cfg2.N
      = Cert.Gcn.denseArr (R := 100000) (K := 128) (N := 128) (V c (Pipeline.arrRef spec2 0))
        (V c (Pipeline.arrRef spec2 1)) (V c (Pipeline.arrRef spec2 2)) (V c (Pipeline.arrRef spec2 3)) :=
  (dat2 (F := Ideal) V c).arrAt_eq_of_cover 4 _ (fun t _ => flushed2_eq V c t) cover2

end Cert.KernelIdeal.RegionValue

end
-- ==== Proof.HeadRegion.lean ====
/-
  THE READ-OUT AS ONE FUNCTION OF ITS ARRAYS.

  The last region has a single point: its windows are the whole arrays — the graphs' feature sums [512, 128], their node
  counts [512, 1], the weights [128, 2] and the bias row [1, 2] — and its body stores the read-out of what it loads over
  the whole result [512, 2].  So the result array ends holding `Cert.Gcn.headArr` of the four arrays as the region finds
  them.  (The body loads the counts first and the sums second; the specification takes the sums first.)
-/
import proofs.«176127_j35218731827641_2_alg».proof.Proof.Gen.KernelIdeal.Frame
import proofs.«176127_j35218731827641_2_alg».proof.Proof.LibGcnBlock
import proofs.«176127_j35218731827641_2_alg».proof.Proof.LibGcnRows
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The body's payload is the read-out of its loaded blocks. -/
theorem pay3_eq (v0 : FVec Ideal S512x1 .f32) (v2 : FVec Ideal S512x128 .f32) (v9 : FVec Ideal S128x2 .f32)
    (v12 : FVec Ideal S1x2 .f32) :
    k3_pay1 (F := Ideal) v0 v2 v9 v12 = Cert.Gcn.headArr (G := 512) (K := 128) (N := 2) v2 v0 v9 v12 := by
  funext i
  obtain ⟨g, o, rfl⟩ : ∃ (g : Fin 512) (o : Fin 2), i = ix2 g o := ⟨i 0, i 1, eq_ix2 i⟩
  exact Cert.LibGcnBlock.head_apply (G := 512) (K := 128) (N := 2) v0 v2 v9 v12 _ _ _ _ _ _ g o

/-- The printed index maps, decided over the grid: every window sits at block `(0, 0)`. -/
theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The sums' block is the whole array. -/
theorem blk3_0 (c : Dev nD) (t : Fin cfg3.N) (u z : S512x128.Idx)
    (h0 : (z 0).val = 0 + (u 0).val) (h1 : (z 1).val = (u 1).val) :
    (iblk3 V c 0 t : S512x128.Idx → EReal) u = (V c (Pipeline.arrRef spec3 0) : S512x128.Idx → EReal) z := by
  obtain ⟨e0, e1, -⟩ := idx_facts3 t
  have h : ((cfg3.win 0).blk t).view.emb u = z := by
    funext a; apply Fin.ext
    match a with
    | ⟨0, _⟩ => show win3_0.index t (0 : Fin 2) * 512 + 1 * (u 0).val = (z 0).val; omega
    | ⟨1, _⟩ => show win3_0.index t (1 : Fin 2) * 128 + 1 * (u 1).val = (z 1).val; omega
  show (V c (Pipeline.arrRef spec3 0) : S512x128.Idx → EReal) (((cfg3.win 0).blk t).view.emb u) = _
  rw [h]

/-- The counts' block is the whole column. -/
theorem blk3_1 (c : Dev nD) (t : Fin cfg3.N) (u z : S512x1.Idx)
    (h0 : (z 0).val = 0 + (u 0).val) (h1 : (z 1).val = (u 1).val) :
    (iblk3 V c 1 t : S512x1.Idx → EReal) u = (V c (Pipeline.arrRef spec3 1) : S512x1.Idx → EReal) z := by
  obtain ⟨-, -, e2, e3, -⟩ := idx_facts3 t
  have h : ((cfg3.win 1).blk t).view.emb u = z := by
    funext a; apply Fin.ext
    match a with
    | ⟨0, _⟩ => show win3_1.index t (0 : Fin 2) * 512 + 1 * (u 0).val = (z 0).val; omega
    | ⟨1, _⟩ => show win3_1.index t (1 : Fin 2) * 1 + 1 * (u 1).val = (z 1).val; omega
  show (V c (Pipeline.arrRef spec3 1) : S512x1.Idx → EReal) (((cfg3.win 1).blk t).view.emb u) = _
  rw [h]

/-- The weights' block is the whole array. -/
theorem blk3_2 (c : Dev nD) (t : Fin cfg3.N) (u : S128x2.Idx) :
    (iblk3 V c 2 t : S128x2.Idx → EReal) u = (V c (Pipeline.arrRef spec3 2) : S128x2.Idx → EReal) u := by
  obtain ⟨-, -, -, -, e4, e5, -⟩ := idx_facts3 t
  have h : ((cfg3.win 2).blk t).view.emb u = u := by
    funext a; apply Fin.ext
    match a with
    | ⟨0, _⟩ => show win3_2.index t (0 : Fin 2) * 128 + 1 * (u 0).val = (u 0).val; omega
    | ⟨1, _⟩ => show win3_2.index t (1 : Fin 2) * 2 + 1 * (u 1).val = (u 1).val; omega
  show (V c (Pipeline.arrRef spec3 2) : S128x2.Idx → EReal) (((cfg3.win 2).blk t).view.emb u) = _
  rw [h]

/-- The bias row's block is the whole row. -/
theorem blk3_3 (c : Dev nD) (t : Fin cfg3.N) (u : S1x2.Idx) :
    (iblk3 V c 3 t : S1x2.Idx → EReal) u = (V c (Pipeline.arrRef spec3 3) : S1x2.Idx → EReal) u := by
  obtain ⟨-, -, -, -, -, -, e6, e7, -⟩ := idx_facts3 t
  have h : ((cfg3.win 3).blk t).view.emb u = u := by
    funext a; apply Fin.ext
    match a with
    | ⟨0, _⟩ => show win3_3.index t (0 : Fin 2) * 1 + 1 * (u 0).val = (u 0).val; omega
    | ⟨1, _⟩ => show win3_3.index t (1 : Fin 2) * 2 + 1 * (u 1).val = (u 1).val; omega
  show (V c (Pipeline.arrRef spec3 3) : S1x2.Idx → EReal) (((cfg3.win 3).blk t).view.emb u) = _
  rw [h]

/-- What the one point writes back is the (whole) block of the read-out of the arrays as the region finds them. -/
theorem flushed3_eq (c : Dev nD) (t : Fin cfg3.N) :
    (dat3 (F := Ideal) V c).flushed 4 t = ((cfg3.win 4).blk t).view.read (Elt Ideal)
      (Cert.Gcn.headArr (G := 512) (K := 128) (N := 2) (V c (Pipeline.arrRef spec3 0))
        (V c (Pipeline.arrRef spec3 1)) (V c (Pipeline.arrRef spec3 2)) (V c (Pipeline.arrRef spec3 3))) := by
  have hz : (![0, 0] : Fin 2 → Nat) = fun _ => 0 := funext fun a => by fin_cases a <;> rfl
  show (cfg3.win 4).cut (grid3.coords t) ((dat3 (F := Ideal) V c).after 4 t) = _
  rw [after3_4]
  unfold out3_4
  rw [View.canon_unit_zero hz]
  simp only [View.ld_unit_zero (S := S512x128) hz, View.ld_unit_zero (S := S512x1) hz,
    View.ld_unit_zero (S := S128x2) hz, View.ld_unit_zero (S := S1x2) hz]
  rw [pay3_eq]
  obtain ⟨-, -, -, -, -, -, -, -, e8, e9⟩ := idx_facts3 t
  funext y
  show Cert.Gcn.headArr (G := 512) (K := 128) (N := 2) (iblk3 V c 0 t) (iblk3 V c 1 t) (iblk3 V c 2 t) (iblk3 V c 3 t) y
    = Cert.Gcn.headArr (G := 512) (K := 128) (N := 2) (V c (Pipeline.arrRef spec3 0))
        (V c (Pipeline.arrRef spec3 1)) (V c (Pipeline.arrRef spec3 2)) (V c (Pipeline.arrRef spec3 3))
        (((cfg3.win 4).blk t).view.emb y)
  refine Cert.LibGcnRows.head_rows _ _ _ _ _ _ _ _ 0 y _ ?_ ?_
    (fun u z h0 h1 => blk3_0 V c t u z h0 h1) (fun u z h0 h1 => blk3_1 V c t u z h0 h1)
    (fun u => blk3_2 V c t u) (fun u => blk3_3 V c t u)
  · show win3_4.index t (0 : Fin 2) * 512 + 1 * (y 0).val = 0 + (y 0).val; omega
  · show win3_4.index t (1 : Fin 2) * 2 + 1 * (y 1).val = (y 1).val; omega

/-- An index of the result is in the point's block iff each coordinate is in the block's range on its axis. -/
theorem mem_blk3 (t : Fin cfg3.N) (i : S512x2.Idx) :
    i ∈ ((cfg3.win 4).blk t).view.set ↔ ∀ a : Fin 2, win3_4.index t a * S512x2.size a ≤ (i a).val
      ∧ (i a).val < win3_4.index t a * S512x2.size a + S512x2.size a := by
  show i ∈ ((View.whole main_v68).slice (win3_4.rect t)).set ↔ _
  rw [View.set_slice_whole, Rect.mem_set_unit]
  exact Iff.rfl

/-- Every index of the result is in the one point's block. -/
theorem cover3 (i : S512x2.Idx) :
    ∃ t : Fin cfg3.N, (cfg3.win 4).flush t = true ∧ i ∈ ((cfg3.win 4).blk t).view.set := by
  have hi0 : (i 0).val < 512 := (i 0).isLt
  have hi1 : (i 1).val < 2 := (i 1).isLt
  obtain ⟨-, -, -, -, -, -, -, -, e8, e9⟩ := idx_facts3 t3_0
  refine ⟨t3_0, flush3_4 t3_0, ?_⟩
  rw [mem_blk3]
  intro a
  match a with
  | ⟨0, _⟩ =>
    show win3_4.index t3_0 (0 : Fin 2) * 512 ≤ (i 0).val ∧ (i 0).val < win3_4.index t3_0 (0 : Fin 2) * 512 + 512
    omega
  | ⟨1, _⟩ =>
    show win3_4.index t3_0 (1 : Fin 2) * 2 ≤ (i 1).val ∧ (i 1).val < win3_4.index t3_0 (1 : Fin 2) * 2 + 2
    omega

/-- The result array after the region: the read-out of the four arrays as the region finds them. -/
theorem final3 (c : Dev nD) :
    (dat3 (F := Ideal) V c).arrAt 4 cfg3.N
      = Cert.Gcn.headArr (G := 512) (K := 128) (N := 2) (V c (Pipeline.arrRef spec3 0))
        (V c (Pipeline.arrRef spec3 1)) (V c (Pipeline.arrRef spec3 2)) (V c (Pipeline.arrRef spec3 3)) :=
  (dat3 (F := Ideal) V c).arrAt_eq_of_cover 4 _ (fun t _ => flushed3_eq V c t) cover3

end Cert.KernelIdeal.RegionValue

end
-- ==== Proof.KernelValue.lean ====
/-
  THE KERNEL PROGRAM'S RESULT BUFFER HOLDS `out` OF THE ARGUMENTS.

  The buffer contents at the ten boundaries of the run are a fold from the launch memory.  Read from the end: the
  result buffer is the last region's output array, which is the read-out (`headArr`) of the four arrays that region
  found; those are what the last host stretch wrote — the per-graph sums of the third region's output, the counts, the
  bias row — and an argument; the third region's output is the dense step of what it found; and so on back to the
  launch.  The graph's data and the later arguments are carried unchanged through every stretch and every region
  (`Carried`), so each stage is the same expression of the same arrays as in `out`.
-/
import proofs.«176127_j35218731827641_2_alg».proof.Proof.Gen.KernelIdeal.Frame
import proofs.«176127_j35218731827641_2_alg».proof.Proof.KernelCarry
import proofs.«176127_j35218731827641_2_alg».proof.Proof.KernelOut
import proofs.«176127_j35218731827641_2_alg».proof.Proof.DenseRegion0
import proofs.«176127_j35218731827641_2_alg».proof.Proof.DenseRegion1
import proofs.«176127_j35218731827641_2_alg».proof.Proof.DenseRegion2
import proofs.«176127_j35218731827641_2_alg».proof.Proof.HeadRegion

set_option maxRecDepth 100000

noncomputable section

namespace Cert.KernelIdeal.Stages

open Cert.KernelIdeal Cert.KernelIdeal.Edges
open Cert.KernelIdeal.Gen (hostOps0 hostOps0_1 hostOps0_2 hostOps1 hostOps2 hostOps3 W0 W1 W2 W3 W4 W5 W6 W7 W8 W9 W10 V3 V5 V7 V9
  W4_arr W4_of_ne W6_arr W6_of_ne W8_arr W8_of_ne W10_arr W10_of_ne dat1 dat2 A_eq1 A_eq2)
open Cert.KernelIdeal.RegionValue (final0 final1 final2 final3)
open Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- Region 0 writes its own arrays only: the ten pass through it. -/
theorem Carried.reg0 {x1 : IVec S2x1600000 32} {x2 : IVec S100000 32} {x5 : FVec Ideal S128x128 .f32} {x6 : FVec Ideal S128 .f32} {x7 : FVec Ideal S128x128 .f32} {x8 : FVec Ideal S128 .f32} {x9 : FVec Ideal S128x2 .f32} {x10 : FVec Ideal S2 .f32}
    (h : Carried (W3 m ρ c) x1 x2 x5 x6 x7 x8 x9 x10) : Carried (W4 m ρ c) x1 x2 x5 x6 x7 x8 x9 x10 where
  src := (W4_of_ne m ρ c main_v3 (by decide)).trans h.src
  dst := (W4_of_ne m ρ c main_v6 (by decide)).trans h.dst
  dinv := (W4_of_ne m ρ c main_v14 (by decide)).trans h.dinv
  a2 := (W4_of_ne m ρ c main_arg2 (by decide)).trans h.a2
  a5 := (W4_of_ne m ρ c main_arg5 (by decide)).trans h.a5
  a6 := (W4_of_ne m ρ c main_arg6 (by decide)).trans h.a6
  a7 := (W4_of_ne m ρ c main_arg7 (by decide)).trans h.a7
  a8 := (W4_of_ne m ρ c main_arg8 (by decide)).trans h.a8
  a9 := (W4_of_ne m ρ c main_arg9 (by decide)).trans h.a9
  a10 := (W4_of_ne m ρ c main_arg10 (by decide)).trans h.a10

/-- Region 1 writes its own arrays only: the ten pass through it. -/
theorem Carried.reg1 {x1 : IVec S2x1600000 32} {x2 : IVec S100000 32} {x5 : FVec Ideal S128x128 .f32} {x6 : FVec Ideal S128 .f32} {x7 : FVec Ideal S128x128 .f32} {x8 : FVec Ideal S128 .f32} {x9 : FVec Ideal S128x2 .f32} {x10 : FVec Ideal S2 .f32}
    (h : Carried (W5 m ρ c) x1 x2 x5 x6 x7 x8 x9 x10) : Carried (W6 m ρ c) x1 x2 x5 x6 x7 x8 x9 x10 where
  src := (W6_of_ne m ρ c main_v3 (by decide)).trans h.src
  dst := (W6_of_ne m ρ c main_v6 (by decide)).trans h.dst
  dinv := (W6_of_ne m ρ c main_v14 (by decide)).trans h.dinv
  a2 := (W6_of_ne m ρ c main_arg2 (by decide)).trans h.a2
  a5 := ((W6_arr m ρ c 2).trans (((dat1 (V5 m ρ) c).arrAt_in 2 rfl _).trans (A_eq1 (V5 m ρ) c 2))).trans h.a5
  a6 := (W6_of_ne m ρ c main_arg6 (by decide)).trans h.a6
  a7 := (W6_of_ne m ρ c main_arg7 (by decide)).trans h.a7
  a8 := (W6_of_ne m ρ c main_arg8 (by decide)).trans h.a8
  a9 := (W6_of_ne m ρ c main_arg9 (by decide)).trans h.a9
  a10 := (W6_of_ne m ρ c main_arg10 (by decide)).trans h.a10

/-- Region 2 writes its own arrays only: the ten pass through it. -/
theorem Carried.reg2 {x1 : IVec S2x1600000 32} {x2 : IVec S100000 32} {x5 : FVec Ideal S128x128 .f32} {x6 : FVec Ideal S128 .f32} {x7 : FVec Ideal S128x128 .f32} {x8 : FVec Ideal S128 .f32} {x9 : FVec Ideal S128x2 .f32} {x10 : FVec Ideal S2 .f32}
    (h : Carried (W7 m ρ c) x1 x2 x5 x6 x7 x8 x9 x10) : Carried (W8 m ρ c) x1 x2 x5 x6 x7 x8 x9 x10 where
  src := (W8_of_ne m ρ c main_v3 (by decide)).trans h.src
  dst := (W8_of_ne m ρ c main_v6 (by decide)).trans h.dst
  dinv := (W8_of_ne m ρ c main_v14 (by decide)).trans h.dinv
  a2 := (W8_of_ne m ρ c main_arg2 (by decide)).trans h.a2
  a5 := (W8_of_ne m ρ c main_arg5 (by decide)).trans h.a5
  a6 := (W8_of_ne m ρ c main_arg6 (by decide)).trans h.a6
  a7 := ((W8_arr m ρ c 2).trans (((dat2 (V7 m ρ) c).arrAt_in 2 rfl _).trans (A_eq2 (V7 m ρ) c 2))).trans h.a7
  a8 := (W8_of_ne m ρ c main_arg8 (by decide)).trans h.a8
  a9 := (W8_of_ne m ρ c main_arg9 (by decide)).trans h.a9
  a10 := (W8_of_ne m ρ c main_arg10 (by decide)).trans h.a10

variable {x0 : FVec Ideal S100000x3 .f32} {x3 : FVec Ideal S3x128 .f32} {x4 : FVec Ideal S128 .f32} {x1 : IVec S2x1600000 32} {x2 : IVec S100000 32} {x5 : FVec Ideal S128x128 .f32} {x6 : FVec Ideal S128 .f32} {x7 : FVec Ideal S128x128 .f32} {x8 : FVec Ideal S128 .f32} {x9 : FVec Ideal S128x2 .f32} {x10 : FVec Ideal S2 .f32}

set_option maxHeartbeats 4000000 in
/-- The first region's output array: the first layer's scaled rows. -/
theorem out0 (h : Carried (W2 m ρ c) x1 x2 x5 x6 x7 x8 x9 x10)
    (h0 : W2 m ρ c (Proc.devRef .tc main_arg0) = x0) (h3 : W2 m ρ c (Proc.devRef .tc main_arg3) = x3)
    (h4 : W2 m ρ c (Proc.devRef .tc main_arg4) = x4) :
    W4 m ρ c (Proc.devRef .tc main_v30) = feat1 x0 x1 x3 x4 := by
  have e0 : V3 m ρ c main_v27 = agg3 (srcOf x1) (dstOf x1) (scaledIn x0 (dinvOf x1)) := by
    refine (pre0_agg (W2 m ρ c)).trans ?_
    rw [h.src, h.dst, h.dinv, h0]
  have e1 : V3 m ρ c main_v28 = dcol (dinvOf x1) := by
    refine (pre0_dcol (W2 m ρ c)).trans ?_
    rw [h.dinv]
  have e2 : V3 m ρ c main_arg3 = x3 := (pre0_w (W2 m ρ c)).trans h3
  have e3 : V3 m ρ c main_v29 = brow x4 := by
    refine (pre0_brow (W2 m ρ c)).trans ?_
    rw [h4]
  refine (W4_arr m ρ c 4).trans ((final0 (V3 m ρ) c).trans ?_)
  show Cert.Gcn.denseScaledArr (R := 100000) (K := 3) (N := 128) (V3 m ρ c main_v27) (V3 m ρ c main_v28)
    (V3 m ρ c main_arg3) (V3 m ρ c main_v29) = _
  rw [e0, e1, e2, e3]
  try rfl

set_option maxHeartbeats 4000000 in
/-- The second region's output array: the second layer's scaled rows. -/
theorem out1 (h : Carried (W4 m ρ c) x1 x2 x5 x6 x7 x8 x9 x10)
    (hf : W4 m ρ c (Proc.devRef .tc main_v30) = feat1 x0 x1 x3 x4) :
    W6 m ρ c (Proc.devRef .tc main_v44) = feat2 x0 x1 x3 x4 x5 x6 := by
  have e0 : V5 m ρ c main_v41 = agg128 (srcOf x1) (dstOf x1) (feat1 x0 x1 x3 x4) := by
    refine (pre1_agg (W4 m ρ c)).trans ?_
    rw [h.src, h.dst, hf]
  have e1 : V5 m ρ c main_v42 = dcol (dinvOf x1) := by
    refine (pre1_dcol (W4 m ρ c)).trans ?_
    rw [h.dinv]
  have e2 : V5 m ρ c main_arg5 = x5 := (pre1_w (W4 m ρ c)).trans h.a5
  have e3 : V5 m ρ c main_v43 = brow x6 := by
    refine (pre1_brow (W4 m ρ c)).trans ?_
    rw [h.a6]
  refine (W6_arr m ρ c 4).trans ((final1 (V5 m ρ) c).trans ?_)
  show Cert.Gcn.denseScaledArr (R := 100000) (K := 128) (N := 128) (V5 m ρ c main_v41) (V5 m ρ c main_v42)
    (V5 m ρ c main_arg5) (V5 m ρ c main_v43) = _
  rw [e0, e1, e2, e3]
  try rfl

set_option maxHeartbeats 4000000 in
/-- The third region's output array: the third layer's rows. -/
theorem out2 (h : Carried (W6 m ρ c) x1 x2 x5 x6 x7 x8 x9 x10)
    (hf : W6 m ρ c (Proc.devRef .tc main_v44) = feat2 x0 x1 x3 x4 x5 x6) :
    W8 m ρ c (Proc.devRef .tc main_v58) = feat3 x0 x1 x3 x4 x5 x6 x7 x8 := by
  have e0 : V7 m ρ c main_v55 = agg128 (srcOf x1) (dstOf x1) (feat2 x0 x1 x3 x4 x5 x6) := by
    refine (pre2_agg (W6 m ρ c)).trans ?_
    rw [h.src, h.dst, hf]
  have e1 : V7 m ρ c main_v56 = dcol (dinvOf x1) := by
    refine (pre2_dcol (W6 m ρ c)).trans ?_
    rw [h.dinv]
  have e2 : V7 m ρ c main_arg7 = x7 := (pre2_w (W6 m ρ c)).trans h.a7
  have e3 : V7 m ρ c main_v57 = brow x8 := by
    refine (pre2_brow (W6 m ρ c)).trans ?_
    rw [h.a8]
  refine (W8_arr m ρ c 4).trans ((final2 (V7 m ρ) c).trans ?_)
  show Cert.Gcn.denseArr (R := 100000) (K := 128) (N := 128) (V7 m ρ c main_v55) (V7 m ρ c main_v56)
    (V7 m ρ c main_arg7) (V7 m ρ c main_v57) = _
  rw [e0, e1, e2, e3]
  try rfl

set_option maxHeartbeats 4000000 in
/-- The last region's output array: the program's result. -/
theorem out3 (h : Carried (W8 m ρ c) x1 x2 x5 x6 x7 x8 x9 x10)
    (hf : W8 m ρ c (Proc.devRef .tc main_v58) = feat3 x0 x1 x3 x4 x5 x6 x7 x8) :
    W10 m ρ c (Proc.devRef .tc main_v68) = out x0 x1 x2 x3 x4 x5 x6 x7 x8 x9 x10 := by
  have e0 : V9 m ρ c main_v61 = sums x2 (feat3 x0 x1 x3 x4 x5 x6 x7 x8) := by
    refine (pre3_sums (W8 m ρ c)).trans ?_
    rw [h.a2, hf]
  have e1 : V9 m ρ c main_v66 = counts x2 := by
    refine (pre3_counts (W8 m ρ c)).trans ?_
    rw [h.a2]
  have e2 : V9 m ρ c main_arg9 = x9 := (pre3_w (W8 m ρ c)).trans h.a9
  have e3 : V9 m ρ c main_v67 = frow x10 := by
    refine (pre3_frow (W8 m ρ c)).trans ?_
    rw [h.a10]
  refine (W10_arr m ρ c 4).trans ((final3 (V9 m ρ) c).trans ?_)
  show Cert.Gcn.headArr (G := 512) (K := 128) (N := 2) (V9 m ρ c main_v61) (V9 m ρ c main_v66)
    (V9 m ρ c main_arg9) (V9 m ρ c main_v67) = _
  rw [e0, e1, e2, e3]
  try rfl

set_option maxHeartbeats 16000000 in
/-- THE RESULT BUFFER after the run holds `out` of the launch contents of the eleven arguments. -/
theorem value : W10 m ρ c (Proc.devRef .tc main_v68)
    = out (W0 m ρ c (Proc.devRef .tc main_arg0)) (W0 m ρ c (Proc.devRef .tc main_arg1)) (W0 m ρ c (Proc.devRef .tc main_arg2))
        (W0 m ρ c (Proc.devRef .tc main_arg3)) (W0 m ρ c (Proc.devRef .tc main_arg4)) (W0 m ρ c (Proc.devRef .tc main_arg5))
        (W0 m ρ c (Proc.devRef .tc main_arg6)) (W0 m ρ c (Proc.devRef .tc main_arg7)) (W0 m ρ c (Proc.devRef .tc main_arg8))
        (W0 m ρ c (Proc.devRef .tc main_arg9)) (W0 m ρ c (Proc.devRef .tc main_arg10)) := by
  have c2 : Carried (W2 m ρ c) _ _ _ _ _ _ _ _ := Carried.start (W0 m ρ c)
  have a0 : W2 m ρ c (Proc.devRef .tc main_arg0) = W0 m ρ c (Proc.devRef .tc main_arg0) := start_a0 (W0 m ρ c)
  have a3 : W2 m ρ c (Proc.devRef .tc main_arg3) = W0 m ρ c (Proc.devRef .tc main_arg3) := start_a3 (W0 m ρ c)
  have a4 : W2 m ρ c (Proc.devRef .tc main_arg4) = W0 m ρ c (Proc.devRef .tc main_arg4) := start_a4 (W0 m ρ c)
  have f1 := out0 m ρ c c2 a0 a3 a4
  have c4 := Carried.reg0 m ρ c (Carried.step0 c2)
  have f2 := out1 m ρ c c4 f1
  have c6 := Carried.reg1 m ρ c (Carried.step1 c4)
  have f3 := out2 m ρ c c6 f2
  have c8 := Carried.reg2 m ρ c (Carried.step2 c6)
  exact out3 m ρ c c8 f3

end Cert.KernelIdeal.Stages

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibRealEntries.lean ====
/-
  EXTENDED REALS THAT ARE REAL NUMBERS, and the one place a graph Laplacian needs them.

  Over the extended reals a product does not distribute over a difference at the infinities: `(1 - a) · y` and
  `y - a · y` differ when `y` is infinite.  A program that applies `I - A` to a vector as `y - A · y` and one that builds
  the matrix `I - A` and multiplies therefore agree only where the entries are real numbers.  Proved here, free of any
  program:
  • `IsR x` — the extended real `x` is a real number — is closed under sum, difference, product, maximum, the
    exponential and finite sums (`IsR.add` … `IsR.sum`), and holds of the reciprocal square root of a positive real;
  • `coe_sum`: the coercion of a finite real sum is the sum of the coercions;
  • `sum_sub_mul`: `∑ j, (d j - a j) · y j = ∑ j, d j · y j - ∑ j, a j · y j` over real entries;
  • `sum_ind_mul`, `sum_ind_sub_mul`: with `d` the indicator of `i` (the identity matrix's row), the left side is
    `y i - ∑ j, a j · y j`: row `i` of `(I - A) y` is row `i` of `y - A y`;
  • `one_div_sqrt`: at a positive real, `1 / sqrt` is the reciprocal square root;
  • `two_word`: the single-precision pattern `0x40000000` denotes the real number two.
-/
import Idealize.ShloMosaic.PureOps.Ideal
import Idealize.ShloMosaic.PureOps.Ideal.Laws
import proofs.«176127_j35218731827641_2_alg».proof.Proof.LibNormSum

noncomputable section

open scoped BigOperators

namespace Cert.RealEntries

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rwa [max_eq_right h]
  · rwa [max_eq_left h]

theorem IsR.exp {a : EReal} (ha : IsR a) : IsR (Ideal.exp a) := by
  obtain ⟨r, rfl⟩ := ha; exact ⟨Real.exp r, rfl⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-- The coercion of a real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real numbers is the coercion of a real family. -/
theorem exists_real_family {ι : Type*} (f : ι → EReal) (h : ∀ i, IsR (f i)) : ∃ g : ι → ℝ, f = fun i => (g i : EReal) :=
  ⟨fun i => (h i).choose, funext fun i => (h i).choose_spec⟩

/-- Over real numbers, `∑ j, (d j - a j) · y j = ∑ j, d j · y j - ∑ j, a j · y j`. -/
theorem sum_sub_mul {ι : Type*} (s : Finset ι) (d a y : ι → EReal) (hd : ∀ j, IsR (d j)) (ha : ∀ j, IsR (a j))
    (hy : ∀ j, IsR (y j)) : ∑ j ∈ s, (d j - a j) * y j = ∑ j ∈ s, d j * y j - ∑ j ∈ s, a j * y j := by
  obtain ⟨d', rfl⟩ := exists_real_family d hd
  obtain ⟨a', rfl⟩ := exists_real_family a ha
  obtain ⟨y', rfl⟩ := exists_real_family y hy
  simp only [← EReal.coe_sub, ← EReal.coe_mul, ← coe_sum]
  congr 1
  rw [← Finset.sum_sub_distrib]
  exact Finset.sum_congr rfl fun j _ => sub_mul _ _ _

/-- The indicator of `i` picks the `i`-th entry. -/
theorem sum_ind_mul {n : ℕ} (i : Fin n) (y : Fin n → EReal) :
    ∑ j : Fin n, (if i = j then (1 : EReal) else 0) * y j = y i := by
  rw [Finset.sum_eq_single i]
  · rw [if_pos rfl, one_mul]
  · intro j _ hj; rw [if_neg (Ne.symm hj), zero_mul]
  · intro h; exact absurd (Finset.mem_univ i) h

/-- The matrix `I - a` applied to `y`, at row `i`, is `y i - ∑ j, a j · y j` when the entries are real numbers. -/
theorem sum_ind_sub_mul {n : ℕ} (i : Fin n) (a y : Fin n → EReal) (ha : ∀ j, IsR (a j)) (hy : ∀ j, IsR (y j)) :
    ∑ j : Fin n, ((if i = j then (1 : EReal) else 0) - a j) * y j = y i - ∑ j : Fin n, a j * y j := by
  rw [sum_sub_mul Finset.univ _ a y (fun j => by split_ifs; exact IsR.one; exact IsR.zero) ha hy, sum_ind_mul]

/-- At a positive real number `1 / sqrt` is the reciprocal square root. -/
theorem one_div_sqrt (r : ℝ) (hr : 0 < r) : Ideal.div 1 (Ideal.sqrt (r : EReal)) = Ideal.rsqrt (r : EReal) := by
  rw [Cert.NormSum.rsqrt_coe_pos r hr]
  show Ideal.div 1 (if r < 0 then (⊥ : EReal) else (Real.sqrt r : EReal)) = _
  rw [if_neg (not_lt.mpr hr.le), Ideal.div_coe (Real.sqrt_pos.mpr hr).ne', one_mul, one_div]

/-- The reciprocal square root of a positive real number is a real number. -/
theorem IsR.rsqrt_pos (r : ℝ) (hr : 0 < r) : IsR (Ideal.rsqrt (r : EReal)) :=
  ⟨_, Cert.NormSum.rsqrt_coe_pos r hr⟩

/-- The single-precision pattern `0x40000000` denotes the real number two. -/
theorem two_word : Ideal.ofBits .f32 0x40000000#32 = ((2 : ℝ) : EReal) := by
  simp [Ideal.ofBits, Ideal.ieee, -EReal.coe_mul]; norm_num

end Cert.RealEntries

end
-- ==== Proof.LibGcnAlgebra.lean ====
/-
  THE ONE ALGEBRAIC LAW: WHERE THE NORMALISING FACTORS OF A GRAPH CONVOLUTION MAY SIT.

  A graph convolution with symmetric normalisation sends node features h [N, K] to
      out(p, j) = max( (sum over the edges e ending in p of (h[s e, ·] W)(j) * (dv[s e] * dv[t e])) + b[j], 0 ),
  where s e and t e are the edge's source and destination nodes and dv the nodes' factors (one over the square root
  of the degree).  Because an edge ending in p has t e = p, the destination factor is the same for every summand and
  the source factor belongs to the source row: with the rows scaled beforehand, g[q, k] = h[q, k] * dv[q], the same
  number is
      max( (sum over k of ((sum over the edges e ending in p of g[s e, k]) * dv[p]) * W[k, j]) + b[j], 0 ),
  a neighbour sum of the scaled rows, one more scaling of the row, and a matrix product.  Moving a factor across a
  sum and exchanging two finite sums are laws of the real numbers; on the extended reals they fail at the
  infinities, so the law is proved for entries that are real numbers.  Nothing here mentions a program: the edge
  structure is any family S of finite edge sets with any source and destination maps.
-/
import Idealize.ShloMosaic.PureOps.Ideal.Laws
import proofs.«176127_j35218731827641_2_alg».proof.Proof.LibRealEntries

noncomputable section

open scoped BigOperators

namespace Cert.Gcn

open Cert.RealEntries

variable {N E : ℕ}

/-- The neighbour sum: over the edges ending in p, the source rows' entries in column k. -/
def agg {K : ℕ} (S : Fin N → Finset (Fin E)) (s : Fin E → Fin N) (g : Fin N → Fin K → EReal) (p : Fin N) (k : Fin K) :
    EReal := ∑ e ∈ S p, g (s e) k

/-- The layer on rows scaled beforehand: neighbour sum, the row's factor, the weights, the bias, the rectifier. -/
def kLayer {K C : ℕ} (S : Fin N → Finset (Fin E)) (s : Fin E → Fin N) (dv : Fin N → EReal)
    (g : Fin N → Fin K → EReal) (W : Fin K → Fin C → EReal) (b : Fin C → EReal) (p : Fin N) (j : Fin C) : EReal :=
  max ((∑ k : Fin K, (agg S s g p k * dv p) * W k j) + b j) 0

/-- The layer with both factors on every edge: transformed source rows times the edge's two factors, summed. -/
def rLayer {K C : ℕ} (S : Fin N → Finset (Fin E)) (s t : Fin E → Fin N) (dv : Fin N → EReal)
    (h : Fin N → Fin K → EReal) (W : Fin K → Fin C → EReal) (b : Fin C → EReal) (p : Fin N) (j : Fin C) : EReal :=
  max ((∑ e ∈ S p, (∑ k : Fin K, h (s e) k * W k j) * (dv (s e) * dv (t e))) + b j) 0

/-- A two-index family of real numbers is the coercion of a real family. -/
theorem exists_real_family2 {ι κ : Type*} (f : ι → κ → EReal) (h : ∀ i k, IsR (f i k)) :
    ∃ g : ι → κ → ℝ, ∀ i k, f i k = (g i k : EReal) :=
  ⟨fun i k => (h i k).choose, fun i k => (h i k).choose_spec⟩

/-- THE LAW: over real entries the two arrangements of the factors give the same layer. -/
theorem layer_eq {K C : ℕ} (S : Fin N → Finset (Fin E)) (s t : Fin E → Fin N) (dv : Fin N → EReal)
    (ht : ∀ p, ∀ e ∈ S p, t e = p)
    (h : Fin N → Fin K → EReal) (W : Fin K → Fin C → EReal) (b : Fin C → EReal)
    (hh : ∀ q k, IsR (h q k)) (hd : ∀ q, IsR (dv q)) (hW : ∀ k j, IsR (W k j)) (p : Fin N) (j : Fin C) :
    rLayer S s t dv h W b p j = kLayer S s dv (fun q k => h q k * dv q) W b p j := by
  unfold rLayer kLayer agg
  obtain ⟨h', hh'⟩ := exists_real_family2 h hh
  obtain ⟨W', hW'⟩ := exists_real_family2 W hW
  obtain ⟨d', hd'⟩ : ∃ g : Fin N → ℝ, ∀ q, dv q = (g q : EReal) := ⟨fun q => (hd q).choose, fun q => (hd q).choose_spec⟩
  have hsum : (∑ e ∈ S p, (∑ k : Fin K, h (s e) k * W k j) * (dv (s e) * dv (t e)))
      = ∑ k : Fin K, ((∑ e ∈ S p, h (s e) k * dv (s e)) * dv p) * W k j := by
    rw [Finset.sum_congr rfl (fun e he => by rw [ht p e he])]
    simp only [hh', hW', hd', ← EReal.coe_mul, ← coe_sum]
    congr 1
    simp only [Finset.sum_mul]
    rw [Finset.sum_comm]
    exact Finset.sum_congr rfl fun k _ => Finset.sum_congr rfl fun e _ => by ring
  rw [hsum]

/-- The layer's entries are real numbers when its inputs are. -/
theorem kLayer_isR {K C : ℕ} (S : Fin N → Finset (Fin E)) (s : Fin E → Fin N) (dv : Fin N → EReal)
    (g : Fin N → Fin K → EReal) (W : Fin K → Fin C → EReal) (b : Fin C → EReal)
    (hg : ∀ q k, IsR (g q k)) (hd : ∀ q, IsR (dv q)) (hW : ∀ k j, IsR (W k j)) (hb : ∀ j, IsR (b j))
    (p : Fin N) (j : Fin C) : IsR (kLayer S s dv g W b p j) := by
  unfold kLayer agg
  refine IsR.max (IsR.add (IsR.sum _ _ fun k _ => IsR.mul (IsR.mul (IsR.sum _ _ fun e _ => hg _ _) (hd p)) (hW k j)) (hb j))
    IsR.zero

end Cert.Gcn

end
-- ==== Proof.LibSegment.lean ====
/-
  ROW GATHER AND ACCUMULATING SCATTER READ AT AN INDEX.

  A graph layer gathers rows of an array [N, C] by a column of E start indices and adds E update rows
  into an array [N, C] at a column of E destination indices (x[idx] and a segment sum); the same for a vector of length N.
  Read at one index: the gather is the operand's row at the start index, read signed and clamped into [0, N - 1];
  the accumulating scatter is the operand's element plus the sum of the update rows whose destination index, read signed,
  is that row (an index outside [0, N - 1] names no row and its update is dropped).
-/
import Idealize.ShloMosaic.Lib.ValueIdx
import Idealize.ShloMosaic.PureOps.Ideal.Laws

noncomputable section

open scoped BigOperators

namespace Cert.Segment

open Idealize.ShloMosaic Idealize.ShloMosaic.ValueIdx

/-- A start index read signed and clamped into [0, N-1]. -/
def clampRow (N : ℕ) (hN : 0 < N) {w : ℕ} (b : BitVec w) : Fin N := ⟨min b.toInt.toNat (N - 1), by omega⟩

/-- The clamped row's value: the minimum of the signed reading (negative read as 0) and N - 1. -/
theorem clampRow_val (N : ℕ) (hN : 0 < N) {w : ℕ} (b : BitVec w) :
    (clampRow N hN b).val = min b.toInt.toNat (N - 1) := rfl

/-- In a rank-2 shape axis 1 is not axis 0 (a closed fact, used to decide membership in the literal axis lists). -/
theorem one_ne_zero_fin2 : (1 : Fin 2) ≠ 0 := by decide

/-- Axis 1 is not in the list holding axis 0 alone. -/
theorem one_not_mem_zero : (1 : Fin 2) ∉ [(0 : Fin 2)] := fun h => one_ne_zero_fin2 (List.mem_singleton.mp h)

/-! ## Gather of rows of an [N, C] array -/

/-- The dimension numbers of a row gather: operand [N, C], start indices [E, 1], result [E, C]; the result's axis 1 is
    the offset axis (a whole row of C), the operand's axis 0 is collapsed and is the one the start index names. -/
abbrev gatherRowsDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the operand at row idx[e, 0], read signed and clamped into [0, N - 1], column c. -/
theorem gather_rows_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (clampRow N hN (idx (ix2 e (0 : Fin 1)))) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have h1 : (1 : Fin 2) ∈ (gatherRowsDims N E C wf).sKept :=
      (GatherDims.mem_sKept _ _).mpr ⟨one_not_mem_zero, List.not_mem_nil⟩
    unfold GatherDims.start GatherDims.offCoord
    rw [dif_neg (show ¬ (1 : Fin 2) ∈ (gatherRowsDims N E C wf).startIndexMap from one_not_mem_zero), dif_pos h1]
    simp only [Nat.add_zero, Nat.zero_add]
    rfl

/-! ## Gather of elements of a vector of length N -/

/-- The dimension numbers of an element gather: operand [N], start indices [E, 1], result [E]; no offset axis, the
    operand's one axis is collapsed and is the one the start index names. -/
abbrev gatherVecDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT e: the operand at idx[e, 0], read signed and clamped into [0, N - 1]. -/
theorem gather_vec_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (clampRow N hN (idx (ix2 e (0 : Fin 1))))) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The scatter's result index, in general -/

/-- An update lands at operand index i exactly when, on every axis, its start (read signed) plus its window coordinate is
    i's coordinate: the sum is then inside the operand, and outside it the update is dropped. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hi := Option.some.inj heq
      have ha := congrArg (fun f => ((f a).val : ℤ)) hi
      simp only at ha
      rw [← ha, Int.toNat_of_nonneg (h a).1]
    · intro hall
      congr 1
      funext a
      refine Fin.ext ?_
      have := hall a
      show (d.start j idx a + (d.window j a : ℤ)).toNat = (i a).val
      omega
  · rename_i h
    constructor
    · intro heq; cases heq
    · intro hall
      exfalso
      apply h
      intro a
      have := hall a
      have hlt := (i a).isLt
      constructor <;> omega

/-! ## Accumulating scatter of rows into an [N, C] array -/

/-- The dimension numbers of a row scatter: operand [N, C], scatter indices [E, 1], updates [E, C]; the updates' axis 1
    is the window axis (a whole row of C), the operand's axis 0 is inserted and is the one the scatter index names. -/
abbrev scatterRowsDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update (e, c') reads its scatter index at [e, 0]. -/
theorem scatterRows_siIdx {N E C : ℕ} (wf : ScatterDims.WF ⟨2, ![N, C]⟩ ⟨2, ![E, 1]⟩ ⟨2, ![E, C]⟩ [1] [0] [0] 1)
    (e : Fin E) (c' : Fin C) (k : Fin (scatterRowsDims N E C wf).scatterDimsToOperandDims.length) :
    (scatterRowsDims N E C wf).siIdx (ix2 e c') k = ix2 e (0 : Fin 1) := by
  funext b; refine Fin.ext ?_
  match b with
  | ⟨0, _⟩ => rfl
  | ⟨1, _⟩ =>
    have hk : k.val < 1 := k.isLt
    show k.val = 0
    omega

/-- On the row axis the window starts at the scatter index read signed … -/
theorem scatterRows_start0 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl),
    scatterRows_siIdx]

/-- … and on the column axis at 0. -/
theorem scatterRows_start1 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 1 = 0 := by
  unfold ScatterDims.start
  rw [dif_neg (show ¬ (1 : Fin 2) ∈ (scatterRowsDims N E C wf).scatterDimsToOperandDims from one_not_mem_zero)]

/-- The operand's kept axes of a row scatter: axis 1 is kept, axis 0 (inserted) is not. -/
theorem scatterRows_mem_sKept {N E C : ℕ} (wf : ScatterDims.WF ⟨2, ![N, C]⟩ ⟨2, ![E, 1]⟩ ⟨2, ![E, C]⟩ [1] [0] [0] 1)
    (a : Fin 2) : a ∈ (scatterRowsDims N E C wf).sKept ↔ a ∉ [(0 : Fin 2)] := by
  simp [ScatterDims.sKept, Shape.kept, List.mem_filter, List.mem_finRange]

/-- The window coordinate on the row axis is 0 … -/
theorem scatterRows_window0 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 0 = 0 := by
  unfold ScatterDims.window
  rw [dif_neg (fun h => ((scatterRows_mem_sKept wf 0).mp h) (List.mem_singleton.mpr rfl))]

/-- … and on the column axis the update's column. -/
theorem scatterRows_window1 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 1 = c'.val := by
  unfold ScatterDims.window
  rw [dif_pos ((scatterRows_mem_sKept wf 1).mpr one_not_mem_zero)]
  rfl

/-- WHERE A ROW UPDATE LANDS: update (e, c') lands at (p, c) exactly when its scatter index idx[e, 0], read signed, is
    the row p and its column is c. -/
theorem scatterRows_resultIdx {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) (p : Fin N) (c : Fin C) :
    (scatterRowsDims N E C wf).resultIdx? (ix2 e c') idx = some (ix2 p c) ↔
      ((idx (ix2 e (0 : Fin 1))).toInt = (p.val : ℤ) ∧ c' = c) := by
  rw [resultIdx?_eq_some_iff]
  constructor
  · intro hall
    have h0 := hall 0
    have h1 := hall 1
    rw [scatterRows_start0, scatterRows_window0] at h0
    rw [scatterRows_start1, scatterRows_window1] at h1
    refine ⟨?_, Fin.ext ?_⟩
    · have : (((ix2 p c : (⟨2, ![N, C]⟩ : Shape).Idx) 0).val : ℤ) = (p.val : ℤ) := rfl
      omega
    · have : (((ix2 p c : (⟨2, ![N, C]⟩ : Shape).Idx) 1).val : ℤ) = (c.val : ℤ) := rfl
      omega
  · rintro ⟨hp, rfl⟩ a
    match a with
    | ⟨0, _⟩ =>
      show (scatterRowsDims N E C wf).start (ix2 e c') idx 0 + ((scatterRowsDims N E C wf).window (ix2 e c') 0 : ℤ) = (p.val : ℤ)
      rw [scatterRows_start0, scatterRows_window0, hp]; simp
    | ⟨1, _⟩ =>
      show (scatterRowsDims N E C wf).start (ix2 e c') idx 1 + ((scatterRowsDims N E C wf).window (ix2 e c') 1 : ℤ) = (c'.val : ℤ)
      rw [scatterRows_start1, scatterRows_window1]; simp

/-- THE ACCUMULATING ROW SCATTER READ AT (p, c): the operand's element plus the sum, over the updates e whose scatter
    index read signed is the row p, of update e's column c. -/
theorem scatterAdd_rows_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (p : Fin N) (c : Fin C) :
    Ideal.hostScatterAdd (scatterRowsDims N E C wf) x idx upd (ix2 p c) =
      x (ix2 p c) + ∑ e ∈ Finset.univ.filter (fun e : Fin E => (idx (ix2 e (0 : Fin 1))).toInt = (p.val : ℤ)), upd (ix2 e c) := by
  unfold Ideal.hostScatterAdd
  congr 1
  refine Finset.sum_nbij' (fun j : (⟨2, ![E, C]⟩ : Shape).Idx => (j 0 : Fin E)) (fun e : Fin E => ix2 e c) ?_ ?_ ?_ ?_ ?_
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    exact Finset.mem_filter.mpr ⟨Finset.mem_univ _, h.1⟩
  · intro e he
    exact Finset.mem_filter.mpr ⟨Finset.mem_univ _,
      (scatterRows_resultIdx wf idx e c p c).mpr ⟨(Finset.mem_filter.mp he).2, rfl⟩⟩
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show ix2 e c = ix2 e c'
    rw [h.2]
  · intro e _; rfl
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show upd (ix2 e c') = upd (ix2 e c)
    rw [h.2]

/-! ## Accumulating scatter of elements into a vector of length N -/

/-- The dimension numbers of an element scatter: operand [N], scatter indices [E, 1], updates [E]; no window axis, the
    operand's one axis is inserted and is the one the scatter index names. -/
abbrev scatterVecDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e reads its scatter index at [e, 0]. -/
theorem scatterVec_siIdx {N E : ℕ} (wf : ScatterDims.WF ⟨1, ![N]⟩ ⟨2, ![E, 1]⟩ ⟨1, ![E]⟩ [] [0] [0] 1)
    (e : Fin E) (k : Fin (scatterVecDims N E wf).scatterDimsToOperandDims.length) :
    (scatterVecDims N E wf).siIdx (ix1 e) k = ix2 e (0 : Fin 1) := by
  funext b; refine Fin.ext ?_
  match b with
  | ⟨0, _⟩ => rfl
  | ⟨1, _⟩ =>
    have hk : k.val < 1 := k.isLt
    show k.val = 0
    omega

/-- The window starts at the scatter index read signed … -/
theorem scatterVec_start0 {N E w : ℕ} (wf : ScatterDims.WF ⟨1, ![N]⟩ ⟨2, ![E, 1]⟩ ⟨1, ![E]⟩ [] [0] [0] 1)
    (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl),
    scatterVec_siIdx]

/-- … and its window coordinate is 0: the one operand axis is inserted, not kept. -/
theorem scatterVec_window0 {N E : ℕ} (wf : ScatterDims.WF ⟨1, ![N]⟩ ⟨2, ![E, 1]⟩ ⟨1, ![E]⟩ [] [0] [0] 1)
    (e : Fin E) : (scatterVecDims N E wf).window (ix1 e) 0 = 0 := by
  unfold ScatterDims.window
  rw [dif_neg (fun h => by
    have h' : (0 : Fin 1) ∉ [(0 : Fin 1)] := by
      simpa [ScatterDims.sKept, Shape.kept, List.mem_filter, List.mem_finRange] using h
    exact h' (List.mem_singleton.mpr rfl))]

/-- WHERE AN ELEMENT UPDATE LANDS: update e lands at p exactly when its scatter index idx[e, 0], read signed, is p. -/
theorem scatterVec_resultIdx {N E w : ℕ} (wf : ScatterDims.WF ⟨1, ![N]⟩ ⟨2, ![E, 1]⟩ ⟨1, ![E]⟩ [] [0] [0] 1)
    (idx : IVec ⟨2, ![E, 1]⟩ w) (e : Fin E) (p : Fin N) :
    (scatterVecDims N E wf).resultIdx? (ix1 e) idx = some (ix1 p) ↔ (idx (ix2 e (0 : Fin 1))).toInt = (p.val : ℤ) := by
  rw [resultIdx?_eq_some_iff]
  constructor
  · intro hall
    have h0 := hall 0
    rw [scatterVec_start0, scatterVec_window0] at h0
    have : (((ix1 p : (⟨1, ![N]⟩ : Shape).Idx) 0).val : ℤ) = (p.val : ℤ) := rfl
    omega
  · intro hp a
    obtain rfl : a = 0 := Subsingleton.elim _ _
    show (scatterVecDims N E wf).start (ix1 e) idx 0 + ((scatterVecDims N E wf).window (ix1 e) 0 : ℤ) = (p.val : ℤ)
    rw [scatterVec_start0, scatterVec_window0, hp]; simp

/-- THE ACCUMULATING ELEMENT SCATTER READ AT p: the operand's element plus the sum of the updates e whose scatter index
    read signed is p. -/
theorem scatterAdd_vec_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (p : Fin N) :
    Ideal.hostScatterAdd (scatterVecDims N E wf) x idx upd (ix1 p) =
      x (ix1 p) + ∑ e ∈ Finset.univ.filter (fun e : Fin E => (idx (ix2 e (0 : Fin 1))).toInt = (p.val : ℤ)), upd (ix1 e) := by
  unfold Ideal.hostScatterAdd
  congr 1
  refine Finset.sum_nbij' (fun j : (⟨1, ![E]⟩ : Shape).Idx => (j 0 : Fin E)) (fun e : Fin E => ix1 e) ?_ ?_ ?_ ?_ ?_
  · intro j hj
    obtain ⟨e, rfl⟩ : ∃ (e : Fin E), j = ix1 e := ⟨j 0, eq_ix1 j⟩
    exact Finset.mem_filter.mpr ⟨Finset.mem_univ _, (scatterVec_resultIdx wf idx e p).mp (Finset.mem_filter.mp hj).2⟩
  · intro e he
    exact Finset.mem_filter.mpr ⟨Finset.mem_univ _, (scatterVec_resultIdx wf idx e p).mpr (Finset.mem_filter.mp he).2⟩
  · intro j _
    obtain ⟨e, rfl⟩ : ∃ (e : Fin E), j = ix1 e := ⟨j 0, eq_ix1 j⟩
    rfl
  · intro e _; rfl
  · intro j _
    obtain ⟨e, rfl⟩ : ∃ (e : Fin E), j = ix1 e := ⟨j 0, eq_ix1 j⟩
    rfl

/-! ## A start index already in range -/

/-- jax wraps a negative start index (b <s 0 ? b + N : b) before a gather; a start index whose signed value is already
    a row p < N is unchanged by the wrap and by the clamp. -/
theorem clampRow_wrap {N : ℕ} (hN : 0 < N) (b : BitVec 32) (p : Fin N) (h : b.toInt = (p.val : ℤ)) :
    clampRow N hN (Scalar.select (IntOp.cmpi .slt b 0#32) (IntOp.addi b (BitVec.ofNat 32 N)) b) = p := by
  have hslt : b.slt 0#32 = false := by
    rw [BitVec.slt]
    have h0 : (0#32 : BitVec 32).toInt = 0 := by decide
    rw [h0, h]
    exact decide_eq_false (by omega)
  have hc : IntOp.cmpi .slt b 0#32 = 0#1 := by
    show BitVec.ofBool (b.slt 0#32) = 0#1
    rw [hslt]; rfl
  rw [hc, select_zero]
  refine Fin.ext ?_
  rw [clampRow_val, h]
  have := p.isLt
  simp only [Int.toNat_natCast]
  omega

end Cert.Segment

end
-- ==== Proof.LibAggregate.lean ====
/-
  A GRAPH LAYER'S WEIGHTED NEIGHBOUR AGGREGATION READ AT AN INDEX.

  A graph convolution layer combines, for every node p, the rows of a feature array H [N, C] at the sources of the
  edges that end in p, each scaled by that edge's weight: with a source vector src, a destination vector dst and a
  weight vector w, all of length E,
      out[p, j] = sum over the edges e with dst[e] = p of  w[e] * H[src[e], j].
  A jnp program spells it as three array operations: a row gather H[src] (start indices = src as a column [E, 1]),
  a product with the weights broadcast first to a column [E, 1] and then over the C columns, and an accumulating
  scatter of the E product rows into an array of zeros [N, C] (scatter indices = dst as a column [E, 1]). This file
  reads that composite at one index (p, j), generic in the extents N, E, C: the gather's start index is read signed
  and clamped into [0, N - 1]; the scatter's destination index is read signed, and an edge whose destination is no
  row contributes nothing; the zero operand drops out (0 + s = s).
-/
import proofs.«176127_j35218731827641_2_alg».proof.Proof.LibSegment
import Idealize.ShloMosaic.Lib.Pipeline.Value
import Idealize.ShloMosaic.Lib.IdealHost

noncomputable section

open scoped BigOperators

namespace Cert.Aggregate

open Idealize.ShloMosaic Idealize.ShloMosaic.ValueIdx Cert.Segment

/-- A vector of length E broadcast to a column [E, 1] reads, at row e, the vector at e. -/
theorem column_apply {α : Type} {E : ℕ} (hi : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hi v (ix2 e z) = v (ix1 e) := by
  refine broadcastInDim_apply ![0] hi v (ix2 e z) (ix1 e) (fun a => ?_)
  match a with
  | ⟨0, _⟩ =>
    show e.val = if E = 1 then 0 else e.val
    by_cases h1 : E = 1
    · rw [if_pos h1]; have := e.isLt; omega
    · rw [if_neg h1]

/-- A column [E, 1] broadcast over C columns reads, at (e, c), the column at row e. -/
theorem columns_apply {α : Type} {E C : ℕ} (hc : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] hc v (ix2 e c) = v (ix2 e (0 : Fin 1)) := by
  refine broadcastInDim_apply ![0, 1] hc v (ix2 e c) (ix2 e (0 : Fin 1)) (fun a => ?_)
  match a with
  | ⟨0, _⟩ =>
    show e.val = if E = 1 then 0 else e.val
    by_cases h1 : E = 1
    · rw [if_pos h1]; have := e.isLt; omega
    · rw [if_neg h1]
  | ⟨1, _⟩ =>
    show (0 : ℕ) = if (1 : ℕ) = 1 then 0 else c.val
    rw [if_pos rfl]

/-- THE AGGREGATION READ AT (p, j): the sum, over the edges e whose destination read signed is the row p, of the edge's
    weight times the feature row at the edge's source (read signed, clamped into [0, N - 1]), column j. -/
theorem aggregate_apply {N E C : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (hi : (⟨1, ![E]⟩ : Shape).BroadcastsInDim ⟨2, ![E, 1]⟩ ![0])
    (hc : (⟨2, ![E, 1]⟩ : Shape).BroadcastsInDim ⟨2, ![E, C]⟩ ![0, 1])
    (nrm : FVec Ideal ⟨1, ![E]⟩ .f32) (H : FVec Ideal ⟨2, ![N, C]⟩ .f32) (srcw dst : IVec ⟨1, ![E]⟩ 32)
    (p : Fin N) (j : Fin C) :
    Host.scatterAdd (F := Ideal) (scatterRowsDims N E C wfs)
        (broadcastInDim ⟨2, ![N, C]⟩ ![] hz (constant (F := Ideal) ⟨0, ![]⟩ .f32 0x00000000#32))
        (broadcastInDim ⟨2, ![E, 1]⟩ ![0] hi dst)
        (mulf (broadcastInDim ⟨2, ![E, C]⟩ ![0, 1] hc (broadcastInDim ⟨2, ![E, 1]⟩ ![0] hi nrm))
              (Host.gather (gatherRowsDims N E C wfg) H (broadcastInDim ⟨2, ![E, 1]⟩ ![0] hi srcw))) (ix2 p j)
      = ∑ e ∈ Finset.univ.filter (fun e : Fin E => (dst (ix1 e)).toInt = (p.val : ℤ)),
          nrm (ix1 e) * H (ix2 (clampRow N hN (srcw (ix1 e))) j) := by
  show Ideal.hostScatterAdd (scatterRowsDims N E C wfs) _ _ _ (ix2 p j) = _
  rw [scatterAdd_rows_apply, broadcastInDim_scalar_apply]
  have h0 : constant (F := Ideal) ⟨0, ![]⟩ .f32 0x00000000#32 ix0 = 0 := Ideal.ofBits_zero_f32
  rw [h0, zero_add]
  refine Finset.sum_congr (Finset.filter_congr (fun e _ => by rw [column_apply])) (fun e _ => ?_)
  show broadcastInDim ⟨2, ![E, C]⟩ ![0, 1] hc (broadcastInDim ⟨2, ![E, 1]⟩ ![0] hi nrm) (ix2 e j)
      * Host.gather (gatherRowsDims N E C wfg) H (broadcastInDim ⟨2, ![E, 1]⟩ ![0] hi srcw) (ix2 e j) = _
  rw [columns_apply, column_apply, gather_rows_apply hN, column_apply]

end Cert.Aggregate

end
-- ==== Proof.LibGcnEdges.lean ====
/-
  THE EDGE STRUCTURE OF A GRAPH GIVEN BY TWO INDEX VECTORS, AND THE HOST'S GATHER / SCATTER READ THROUGH IT.

  A graph on N nodes is given by two vectors of E signed 32-bit indices, the edges' sources and destinations.  A row
  gather x[src] first wraps a negative index (i < 0 ? i + N : i) and then clamps it into [0, N - 1]: that row is
  `rowOf N src e`.  An accumulating scatter into zeros at the destinations adds update e to row p exactly when
  dst[e], read signed, is p: those edges are `inEdges N dst p`, and an index that names no row is dropped.  For an
  edge in `inEdges N dst p` the wrapped and clamped destination is p itself.  The four host patterns a graph layer
  uses are read here at one index, generic in the extents: the wrapped index column; the row gather and the element
  gather through it; the accumulating scatter of rows, and of elements, into zeros.
-/
import proofs.«176127_j35218731827641_2_alg».proof.Proof.LibSegment
import proofs.«176127_j35218731827641_2_alg».proof.Proof.LibAggregate

noncomputable section

open scoped BigOperators

namespace Cert.Gcn

open Idealize.ShloMosaic Idealize.ShloMosaic.ValueIdx Cert.Segment Cert.Aggregate

/-- jnp's wrap of a negative index. -/
def wrapAt (N : ℕ) (b : BitVec 32) : BitVec 32 :=
  Scalar.select (IntOp.cmpi .slt b 0#32) (IntOp.addi b (BitVec.ofNat 32 N)) b

/-- The row a gather reads for edge e: the index wrapped, read signed, clamped into [0, N - 1]. -/
def rowOf (N : ℕ) (hN : 0 < N) {E : ℕ} (v : IVec ⟨1, ![E]⟩ 32) (e : Fin E) : Fin N :=
  clampRow N hN (wrapAt N (v (ix1 e)))

/-- The edges a scatter adds into row p: those whose index, read signed, is p. -/
def inEdges (N : ℕ) {E : ℕ} (v : IVec ⟨1, ![E]⟩ 32) (p : Fin N) : Finset (Fin E) :=
  Finset.univ.filter (fun e : Fin E => (v (ix1 e)).toInt = (p.val : ℤ))

/-- An edge that the scatter adds into row p has p as its wrapped and clamped index. -/
theorem rowOf_of_mem {N : ℕ} (hN : 0 < N) {E : ℕ} (v : IVec ⟨1, ![E]⟩ 32) (p : Fin N) (e : Fin E)
    (he : e ∈ inEdges N v p) : rowOf N hN v e = p :=
  clampRow_wrap hN _ p (Finset.mem_filter.mp he).2

/-- The wrapped index vector as a column, read at row e. -/
theorem wrapCol_apply {E : ℕ} (N : ℕ) (hi : (⟨1, ![E]⟩ : Shape).BroadcastsInDim ⟨2, ![E, 1]⟩ ![0])
    (hs : (⟨0, ![]⟩ : Shape).BroadcastsInDim ⟨1, ![E]⟩ ![]) (v : IVec ⟨1, ![E]⟩ 32) (e : Fin E) (z : Fin 1) :
    broadcastInDim ⟨2, ![E, 1]⟩ ![0] hi
      (select (cmpi .slt v (broadcastInDim ⟨1, ![E]⟩ ![] hs (constantI ⟨0, ![]⟩ 32 0#32)))
        (addi v (broadcastInDim ⟨1, ![E]⟩ ![] hs (constantI ⟨0, ![]⟩ 32 (BitVec.ofNat 32 N)))) v) (ix2 e z)
      = wrapAt N (v (ix1 e)) := by
  rw [column_apply]
  show Scalar.select (IntOp.cmpi .slt (v (ix1 e)) (broadcastInDim ⟨1, ![E]⟩ ![] hs (constantI ⟨0, ![]⟩ 32 0#32) (ix1 e)))
    (IntOp.addi (v (ix1 e)) (broadcastInDim ⟨1, ![E]⟩ ![] hs (constantI ⟨0, ![]⟩ 32 (BitVec.ofNat 32 N)) (ix1 e))) (v (ix1 e)) = _
  rw [broadcastInDim_scalar_apply, broadcastInDim_scalar_apply]
  rfl

/-- The row gather through the wrapped column, at (e, k): the operand's row `rowOf`, column k. -/
theorem gather_rows_wrapped {α : Type} {N E C : ℕ} (hN : 0 < N)
    (wfg : GatherDims.WF ⟨2, ![N, C]⟩ ⟨2, ![E, 1]⟩ ⟨2, ![E, C]⟩ [1] [0] [] [0] [] 1 ![1, C])
    (hi : (⟨1, ![E]⟩ : Shape).BroadcastsInDim ⟨2, ![E, 1]⟩ ![0])
    (hs : (⟨0, ![]⟩ : Shape).BroadcastsInDim ⟨1, ![E]⟩ ![])
    (G : (⟨2, ![N, C]⟩ : Shape).Idx → α) (v : IVec ⟨1, ![E]⟩ 32) (e : Fin E) (k : Fin C) :
    Host.gather (gatherRowsDims N E C wfg) G (broadcastInDim ⟨2, ![E, 1]⟩ ![0] hi
      (select (cmpi .slt v (broadcastInDim ⟨1, ![E]⟩ ![] hs (constantI ⟨0, ![]⟩ 32 0#32)))
        (addi v (broadcastInDim ⟨1, ![E]⟩ ![] hs (constantI ⟨0, ![]⟩ 32 (BitVec.ofNat 32 N)))) v)) (ix2 e k)
      = G (ix2 (rowOf N hN v e) k) := by
  rw [gather_rows_apply hN, wrapCol_apply]
  rfl

/-- The element gather through the wrapped column, at e. -/
theorem gather_vec_wrapped {α : Type} {N E : ℕ} (hN : 0 < N)
    (wfg : GatherDims.WF ⟨1, ![N]⟩ ⟨2, ![E, 1]⟩ ⟨1, ![E]⟩ [] [0] [] [0] [] 1 ![1])
    (hi : (⟨1, ![E]⟩ : Shape).BroadcastsInDim ⟨2, ![E, 1]⟩ ![0])
    (hs : (⟨0, ![]⟩ : Shape).BroadcastsInDim ⟨1, ![E]⟩ ![])
    (G : (⟨1, ![N]⟩ : Shape).Idx → α) (v : IVec ⟨1, ![E]⟩ 32) (e : Fin E) :
    Host.gather (gatherVecDims N E wfg) G (broadcastInDim ⟨2, ![E, 1]⟩ ![0] hi
      (select (cmpi .slt v (broadcastInDim ⟨1, ![E]⟩ ![] hs (constantI ⟨0, ![]⟩ 32 0#32)))
        (addi v (broadcastInDim ⟨1, ![E]⟩ ![] hs (constantI ⟨0, ![]⟩ 32 (BitVec.ofNat 32 N)))) v)) (ix1 e)
      = G (ix1 (rowOf N hN v e)) := by
  rw [gather_vec_apply hN, wrapCol_apply]
  rfl

/-- The accumulating scatter of rows into zeros at a destination column, at (p, k): the sum over `inEdges`. -/
theorem scatter_rows_zero {N E C : ℕ}
    (wfs : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (hi : (⟨1, ![E]⟩ : Shape).BroadcastsInDim ⟨2, ![E, 1]⟩ ![0])
    (v : IVec ⟨1, ![E]⟩ 32) (U : (⟨2, ![E, C]⟩ : Shape).Idx → EReal) (p : Fin N) (k : Fin C) :
    Host.scatterAdd (F := Ideal) (φ := .f32) (scatterRowsDims N E C wfs)
        (broadcastInDim ⟨2, ![N, C]⟩ ![] hz (constant (F := Ideal) ⟨0, ![]⟩ .f32 0x00000000#32))
        (broadcastInDim ⟨2, ![E, 1]⟩ ![0] hi v) U (ix2 p k)
      = ∑ e ∈ inEdges N v p, U (ix2 e k) := by
  show Ideal.hostScatterAdd (scatterRowsDims N E C wfs) _ _ _ (ix2 p k) = _
  rw [scatterAdd_rows_apply, broadcastInDim_scalar_apply]
  have h0 : constant (F := Ideal) ⟨0, ![]⟩ .f32 0x00000000#32 ix0 = 0 := Ideal.ofBits_zero_f32
  rw [h0, zero_add]
  exact Finset.sum_congr (Finset.filter_congr (fun e _ => by rw [column_apply])) (fun e _ => rfl)

/-- The accumulating scatter of elements into zeros at a destination column, at p. -/
theorem scatter_vec_zero {N E : ℕ}
    (wfs : ScatterDims.WF ⟨1, ![N]⟩ ⟨2, ![E, 1]⟩ ⟨1, ![E]⟩ [] [0] [0] 1)
    (hz : (⟨0, ![]⟩ : Shape).BroadcastsInDim ⟨1, ![N]⟩ ![])
    (hi : (⟨1, ![E]⟩ : Shape).BroadcastsInDim ⟨2, ![E, 1]⟩ ![0])
    (v : IVec ⟨1, ![E]⟩ 32) (U : (⟨1, ![E]⟩ : Shape).Idx → EReal) (p : Fin N) :
    Host.scatterAdd (F := Ideal) (φ := .f32) (scatterVecDims N E wfs)
        (broadcastInDim ⟨1, ![N]⟩ ![] hz (constant (F := Ideal) ⟨0, ![]⟩ .f32 0x00000000#32))
        (broadcastInDim ⟨2, ![E, 1]⟩ ![0] hi v) U (ix1 p)
      = ∑ e ∈ inEdges N v p, U (ix1 e) := by
  show Ideal.hostScatterAdd (scatterVecDims N E wfs) _ _ _ (ix1 p) = _
  rw [scatterAdd_vec_apply, broadcastInDim_scalar_apply]
  have h0 : constant (F := Ideal) ⟨0, ![]⟩ .f32 0x00000000#32 ix0 = 0 := Ideal.ofBits_zero_f32
  rw [h0, zero_add]
  exact Finset.sum_congr (Finset.filter_congr (fun e _ => by rw [column_apply])) (fun e _ => rfl)

end Cert.Gcn

end
-- ==== Proof.LibGcnModel.lean ====
/-
  THE WHOLE NETWORK AS ONE FUNCTION OF ITS ARRAYS, IN THE TWO ARRANGEMENTS.

  Three graph-convolution layers on 100000 nodes and 1700000 edges (the given edges and one self loop per node), then,
  per graph of a batch of 512, the mean of its nodes' 128 features and a linear map to 2 outputs.  The edge structure
  is read off the source and destination index vectors as the host's gather and scatter read them (`LibGcnEdges`): the
  edges into a node, each edge's source row, each node's factor; the nodes of a graph are read off the batch vector in
  the same way.  `kFeat` is the arrangement that scales rows before the neighbour sum, `rFeat` the one that scales
  every edge by both factors; over real entries they agree layer by layer (`LibGcnAlgebra.layer_eq`), each layer's
  output being real again.  The read-out is the same expression on both sides.
-/
import proofs.«176127_j35218731827641_2_alg».proof.Proof.LibGcnAlgebra
import proofs.«176127_j35218731827641_2_alg».proof.Proof.LibGcnEdges

noncomputable section

open scoped BigOperators

namespace Cert.Gcn

open Idealize.ShloMosaic Idealize.ShloMosaic.ValueIdx Cert.RealEntries

section Network

variable (src dst : IVec ⟨1, ![1700000]⟩ 32) (batch : IVec ⟨1, ![100000]⟩ 32)
  (dinv : (⟨1, ![100000]⟩ : Shape).Idx → EReal)

/-- The edges ending in node p. -/
def edgesInto (p : Fin 100000) : Finset (Fin 1700000) := inEdges 100000 dst p
/-- The node an edge's features are gathered from. -/
def srcRow (e : Fin 1700000) : Fin 100000 := rowOf 100000 (by decide) src e
/-- The node an edge's destination factor is gathered from. -/
def dstRow (e : Fin 1700000) : Fin 100000 := rowOf 100000 (by decide) dst e
/-- A node's factor. -/
def factor (q : Fin 100000) : EReal := dinv (ix1 q)
/-- The nodes of graph g. -/
def nodesOf (g : Fin 512) : Finset (Fin 100000) := inEdges 512 batch g

theorem dstRow_of_mem (p : Fin 100000) (e : Fin 1700000) (he : e ∈ edgesInto dst p) : dstRow dst e = p :=
  rowOf_of_mem (by decide) dst p e he

/-- The read-out of node features h3: per graph the feature sums over its nodes divided by its node count (at least
    one), a linear map, a bias. -/
def readout (h3 : Fin 100000 → Fin 128 → EReal) (Wfc : (⟨2, ![128, 2]⟩ : Shape).Idx → EReal)
    (bfc : (⟨1, ![2]⟩ : Shape).Idx → EReal) (g : Fin 512) (o : Fin 2) : EReal :=
  (∑ k : Fin 128, Ideal.div (∑ n ∈ nodesOf batch g, h3 n k)
      (max (∑ _n ∈ nodesOf batch g, Ideal.ofBits .f32 0x3F800000#32) (Ideal.ofBits .f32 0x3F800000#32)) * Wfc (ix2 k o))
    + bfc (ix1 o)

variable (x : (⟨2, ![100000, 3]⟩ : Shape).Idx → EReal)
  (W1 : (⟨2, ![3, 128]⟩ : Shape).Idx → EReal) (b1 : (⟨1, ![128]⟩ : Shape).Idx → EReal)
  (W2 : (⟨2, ![128, 128]⟩ : Shape).Idx → EReal) (b2 : (⟨1, ![128]⟩ : Shape).Idx → EReal)
  (W3 : (⟨2, ![128, 128]⟩ : Shape).Idx → EReal) (b3 : (⟨1, ![128]⟩ : Shape).Idx → EReal)

/-- First layer, rows scaled beforehand. -/
def kFeat1 : Fin 100000 → Fin 128 → EReal :=
  kLayer (edgesInto dst) (srcRow src) (factor dinv) (fun q k => x (ix2 q k) * factor dinv q)
    (fun k j => W1 (ix2 k j)) (fun j => b1 (ix1 j))
/-- Second layer on the first layer's scaled rows. -/
def kFeat2 : Fin 100000 → Fin 128 → EReal :=
  kLayer (edgesInto dst) (srcRow src) (factor dinv) (fun q k => kFeat1 src dst dinv x W1 b1 q k * factor dinv q)
    (fun k j => W2 (ix2 k j)) (fun j => b2 (ix1 j))
/-- Third layer on the second layer's scaled rows. -/
def kFeat3 : Fin 100000 → Fin 128 → EReal :=
  kLayer (edgesInto dst) (srcRow src) (factor dinv)
    (fun q k => kFeat2 src dst dinv x W1 b1 W2 b2 q k * factor dinv q) (fun k j => W3 (ix2 k j)) (fun j => b3 (ix1 j))

/-- The three layers with both factors on every edge. -/
def rFeat1 : Fin 100000 → Fin 128 → EReal :=
  rLayer (edgesInto dst) (srcRow src) (dstRow dst) (factor dinv) (fun q k => x (ix2 q k))
    (fun k j => W1 (ix2 k j)) (fun j => b1 (ix1 j))
def rFeat2 : Fin 100000 → Fin 128 → EReal :=
  rLayer (edgesInto dst) (srcRow src) (dstRow dst) (factor dinv) (rFeat1 src dst dinv x W1 b1)
    (fun k j => W2 (ix2 k j)) (fun j => b2 (ix1 j))
def rFeat3 : Fin 100000 → Fin 128 → EReal :=
  rLayer (edgesInto dst) (srcRow src) (dstRow dst) (factor dinv) (rFeat2 src dst dinv x W1 b1 W2 b2)
    (fun k j => W3 (ix2 k j)) (fun j => b3 (ix1 j))

variable (hd : ∀ q, IsR (dinv (ix1 q))) (hx : ∀ i, IsR (x i))
  (hW1 : ∀ i, IsR (W1 i)) (hb1 : ∀ i, IsR (b1 i)) (hW2 : ∀ i, IsR (W2 i)) (hb2 : ∀ i, IsR (b2 i))
  (hW3 : ∀ i, IsR (W3 i))

include hd hx hW1 in
theorem rFeat1_eq : rFeat1 src dst dinv x W1 b1 = kFeat1 src dst dinv x W1 b1 :=
  funext fun p => funext fun j =>
    layer_eq (edgesInto dst) (srcRow src) (dstRow dst) (factor dinv) (dstRow_of_mem dst) _ _ _
      (fun q k => hx _) hd (fun k j => hW1 _) p j

include hd hx hW1 hb1 in
theorem kFeat1_isR (q : Fin 100000) (k : Fin 128) : IsR (kFeat1 src dst dinv x W1 b1 q k) :=
  kLayer_isR _ _ _ _ _ _ (fun q k => (hx _).mul (hd q)) hd (fun k j => hW1 _) (fun j => hb1 _) q k

include hd hx hW1 hb1 hW2 in
theorem rFeat2_eq : rFeat2 src dst dinv x W1 b1 W2 b2 = kFeat2 src dst dinv x W1 b1 W2 b2 := by
  unfold rFeat2 kFeat2
  rw [rFeat1_eq src dst dinv x W1 b1 hd hx hW1]
  exact funext fun p => funext fun j =>
    layer_eq (edgesInto dst) (srcRow src) (dstRow dst) (factor dinv) (dstRow_of_mem dst) _ _ _
      (kFeat1_isR src dst dinv x W1 b1 hd hx hW1 hb1) hd (fun k j => hW2 _) p j

include hd hx hW1 hb1 hW2 hb2 in
theorem kFeat2_isR (q : Fin 100000) (k : Fin 128) : IsR (kFeat2 src dst dinv x W1 b1 W2 b2 q k) :=
  kLayer_isR _ _ _ _ _ _ (fun q k => (kFeat1_isR src dst dinv x W1 b1 hd hx hW1 hb1 q k).mul (hd q)) hd
    (fun k j => hW2 _) (fun j => hb2 _) q k

include hd hx hW1 hb1 hW2 hb2 hW3 in
/-- THE TWO ARRANGEMENTS AGREE on the node features after three layers, over real entries. -/
theorem rFeat3_eq : rFeat3 src dst dinv x W1 b1 W2 b2 W3 b3 = kFeat3 src dst dinv x W1 b1 W2 b2 W3 b3 := by
  unfold rFeat3 kFeat3
  rw [rFeat2_eq src dst dinv x W1 b1 W2 b2 hd hx hW1 hb1 hW2]
  exact funext fun p => funext fun j =>
    layer_eq (edgesInto dst) (srcRow src) (dstRow dst) (factor dinv) (dstRow_of_mem dst) _ _ _
      (kFeat2_isR src dst dinv x W1 b1 W2 b2 hd hx hW1 hb1 hW2 hb2) hd (fun k j => hW3 _) p j

end Network

end Cert.Gcn

end
-- ==== Proof.LibGcnStages.lean ====
/-
  THE HOST PATTERNS OF A GRAPH LAYER AND OF THE READ-OUT, READ AT AN INDEX AND MATCHED WITH THE MODEL.

  Generic in the extents and free of any program:
  • the neighbour sum — a row gather at the wrapped source indices followed by an accumulating scatter into zeros at
    the destination indices — at (p, k) is the sum, over the edges ending in p, of the source rows' entries in column k;
  • rows scaled by a per-row factor that is broadcast first to a column and then over the columns;
  • the per-graph node count kept as a column: an accumulating scatter of one constant word into zeros, cast to a
    column, is the sum of that word over the graph's nodes;
  • a dense step applied to a neighbour sum, with the factor arriving as a column and the bias as a row, is the model's
    layer (`kLayer`); the read-out applied to per-graph sums and counts is the model's `readout`.
  The additions and products are kept in the order written; no algebra of the extended reals is used.
-/
import Idealize.ShloMosaic.Lib.ValueLayout
import proofs.«176127_j35218731827641_2_alg».proof.Proof.LibColumn
import proofs.«176127_j35218731827641_2_alg».proof.Proof.LibGcnSpec
import proofs.«176127_j35218731827641_2_alg».proof.Proof.LibGcnModel

noncomputable section

open scoped BigOperators

namespace Cert.Gcn

open Idealize.ShloMosaic Idealize.ShloMosaic.ValueIdx Idealize.ShloMosaic.ColumnLayout Cert.Segment Cert.Aggregate

/-- THE NEIGHBOUR SUM READ AT (p, k): the rows of G gathered at the wrapped sources and added into zeros at the
    destinations give, in row p and column k, the sum over the edges ending in p of the source row's entry. -/
theorem neighbourSum_apply {N E C : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (hi : (⟨1, ![E]⟩ : Shape).BroadcastsInDim ⟨2, ![E, 1]⟩ ![0])
    (hs : (⟨0, ![]⟩ : Shape).BroadcastsInDim ⟨1, ![E]⟩ ![])
    (src dst : IVec ⟨1, ![E]⟩ 32) (G : (⟨2, ![N, C]⟩ : Shape).Idx → EReal) (p : Fin N) (k : Fin C) :
    Host.scatterAdd (F := Ideal) (φ := .f32) (scatterRowsDims N E C wfs)
        (broadcastInDim ⟨2, ![N, C]⟩ ![] hz (constant (F := Ideal) ⟨0, ![]⟩ .f32 0x00000000#32))
        (broadcastInDim ⟨2, ![E, 1]⟩ ![0] hi dst)
        (Host.gather (gatherRowsDims N E C wfg) G (broadcastInDim ⟨2, ![E, 1]⟩ ![0] hi
          (select (cmpi .slt src (broadcastInDim ⟨1, ![E]⟩ ![] hs (constantI ⟨0, ![]⟩ 32 0#32)))
            (addi src (broadcastInDim ⟨1, ![E]⟩ ![] hs (constantI ⟨0, ![]⟩ 32 (BitVec.ofNat 32 N)))) src))) (ix2 p k)
      = ∑ e ∈ inEdges N dst p, G (ix2 (rowOf N hN src e) k) :=
  (scatter_rows_zero wfs hz hi dst _ p k).trans
    (Finset.sum_congr rfl fun e _ => gather_rows_wrapped hN wfg hi hs G src e k)

/-- Rows scaled by a per-row factor, the factor broadcast to a column and then over the columns, at (q, k). -/
theorem scaledRows_apply {N C : ℕ} (h1 : (⟨1, ![N]⟩ : Shape).BroadcastsInDim ⟨2, ![N, 1]⟩ ![0])
    (h2 : (⟨2, ![N, 1]⟩ : Shape).BroadcastsInDim ⟨2, ![N, C]⟩ ![0, 1])
    (x : FVec Ideal ⟨2, ![N, C]⟩ .f32) (d : FVec Ideal ⟨1, ![N]⟩ .f32) (q : Fin N) (k : Fin C) :
    mulf x (broadcastInDim ⟨2, ![N, C]⟩ ![0, 1] h2 (broadcastInDim ⟨2, ![N, 1]⟩ ![0] h1 d)) (ix2 q k)
      = (x (ix2 q k) * d (ix1 q) : EReal) := by
  show (x (ix2 q k) * broadcastInDim ⟨2, ![N, C]⟩ ![0, 1] h2 (broadcastInDim ⟨2, ![N, 1]⟩ ![0] h1 d) (ix2 q k) : EReal) = _
  rw [columns_apply, column_apply]

/-- A count kept as a column: one constant word w added into zeros once per index that names row g, then cast to a
    column, is the sum of w's value over those indices. -/
theorem countColumn_apply {N E : ℕ} (wfs : ScatterDims.WF ⟨1, ![N]⟩ ⟨2, ![E, 1]⟩ ⟨1, ![E]⟩ [] [0] [0] 1)
    (hz : (⟨0, ![]⟩ : Shape).BroadcastsInDim ⟨1, ![N]⟩ ![])
    (hi : (⟨1, ![E]⟩ : Shape).BroadcastsInDim ⟨2, ![E, 1]⟩ ![0])
    (ho : (⟨0, ![]⟩ : Shape).BroadcastsInDim ⟨1, ![E]⟩ ![])
    (hc : (⟨1, ![N]⟩ : Shape).ShapeCasts ⟨2, ![N, 1]⟩)
    (v : IVec ⟨1, ![E]⟩ 32) (w : BitVec 32) (g : Fin N) (u : Fin 1) :
    shapeCast ⟨2, ![N, 1]⟩ (Host.scatterAdd (F := Ideal) (φ := .f32) (scatterVecDims N E wfs)
        (broadcastInDim ⟨1, ![N]⟩ ![] hz (constant (F := Ideal) ⟨0, ![]⟩ .f32 0x00000000#32))
        (broadcastInDim ⟨2, ![E, 1]⟩ ![0] hi v)
        (broadcastInDim ⟨1, ![E]⟩ ![] ho (constant (F := Ideal) ⟨0, ![]⟩ .f32 w))) hc (ix2 g u)
      = ∑ _n ∈ inEdges N v g, Ideal.ofBits .f32 w := by
  rw [shapeCast_a_a1_apply]
  exact (scatter_vec_zero wfs hz hi v _ g).trans
    (Finset.sum_congr rfl fun n _ => broadcastInDim_scalar_apply ho _ (ix1 n))

/-- A DENSE STEP ON A NEIGHBOUR SUM IS THE MODEL'S LAYER: with A the neighbour sum of g over the edge sets S and source
    map s, the factor column d holding dv and the bias row b holding b'. -/
theorem dense_eq_kLayer {N E K C : ℕ} (S : Fin N → Finset (Fin E)) (s : Fin E → Fin N) (dv : Fin N → EReal)
    (g : Fin N → Fin K → EReal)
    (A : (⟨2, ![N, K]⟩ : Shape).Idx → EReal) (d : (⟨2, ![N, 1]⟩ : Shape).Idx → EReal)
    (W : (⟨2, ![K, C]⟩ : Shape).Idx → EReal) (b : (⟨2, ![1, C]⟩ : Shape).Idx → EReal)
    (b' : (⟨1, ![C]⟩ : Shape).Idx → EReal)
    (hA : ∀ p k, A (ix2 p k) = ∑ e ∈ S p, g (s e) k) (hd : ∀ p, d (ix2 p (0 : Fin 1)) = dv p)
    (hb : ∀ j, b (ix2 (0 : Fin 1) j) = b' (ix1 j)) (p : Fin N) (j : Fin C) :
    denseArr A d W b (ix2 p j) = kLayer S s dv g (fun k j => W (ix2 k j)) (fun j => b' (ix1 j)) p j := by
  rw [denseArr_apply, hd, hb]
  unfold kLayer agg
  simp only [hA]

/-- THE READ-OUT ON PER-GRAPH SUMS AND COUNTS IS THE MODEL'S READ-OUT. -/
theorem head_eq_readout (batch : IVec ⟨1, ![100000]⟩ 32) (h3 : Fin 100000 → Fin 128 → EReal)
    (S : (⟨2, ![512, 128]⟩ : Shape).Idx → EReal) (cnt : (⟨2, ![512, 1]⟩ : Shape).Idx → EReal)
    (W : (⟨2, ![128, 2]⟩ : Shape).Idx → EReal) (b : (⟨2, ![1, 2]⟩ : Shape).Idx → EReal)
    (b' : (⟨1, ![2]⟩ : Shape).Idx → EReal)
    (hS : ∀ g k, S (ix2 g k) = ∑ n ∈ inEdges 512 batch g, h3 n k)
    (hc : ∀ g, cnt (ix2 g (0 : Fin 1)) = ∑ _n ∈ inEdges 512 batch g, Ideal.ofBits .f32 0x3F800000#32)
    (hb : ∀ o, b (ix2 (0 : Fin 1) o) = b' (ix1 o)) (g : Fin 512) (o : Fin 2) :
    headArr S cnt W b (ix2 g o) = readout batch h3 W b' g o := by
  rw [headArr_apply, hc, hb]
  unfold readout nodesOf
  simp only [hS]

end Cert.Gcn

end
-- ==== Proof.KernelOutApply.lean ====
/-
  THE KERNEL PROGRAM'S RESULT READ AT AN INDEX: IT IS THE MODEL.

  Each host array expression of the program is read at one index, for ARBITRARY source, destination, factor and batch
  vectors: the two neighbour sums, the scaled input rows, the factor column, the bias rows, the per-graph sums and
  counts.  With these a dense step on a neighbour sum is the model's layer, so the three layers, written over
  arbitrary vectors, are the model's three layers (the first two scaled once more for the next neighbour sum), and
  the read-out on the per-graph sums and counts is the model's read-out.  The program's own vectors — computed from
  the edge list — are put in only at the very end and are never unfolded.
-/
import proofs.«176127_j35218731827641_2_alg».proof.Proof.KernelOut
import proofs.«176127_j35218731827641_2_alg».proof.Proof.LibGcnStages

noncomputable section

open scoped BigOperators

namespace Cert.KernelIdeal.Stages

open Cert.KernelIdeal Cert.KernelIdeal.Edges
open Idealize.ShloMosaic Idealize.ShloMosaic.ValueIdx Idealize.ShloMosaic.ColumnLayout Cert.Gcn

variable [Cert.KernelIdeal.Facts]
open Cert.KernelIdeal.Facts₀ Cert.KernelIdeal.Facts

/-! ## The host array expressions at an index -/

/-- The neighbour sum of 3-column rows at (p, k). -/
theorem agg3_apply (src dst : IVec S1700000 32) (G : FVec Ideal S100000x3 .f32) (p : Fin 100000) (k : Fin 3) :
    agg3 src dst G (ix2 p k) = ∑ e ∈ inEdges 100000 dst p, G (ix2 (rowOf 100000 (by decide) src e) k) := by
  unfold agg3 col wrapCol
  exact neighbourSum_apply (N := 100000) (E := 1700000) (C := 3) (by decide)
    scatter_S100000x3_S1700000x1_S1700000x3_1_0_0_1_wf gather_S100000x3_S1700000x1_S1700000x3_1_0_n_n_0_1_13_wf
    bcast_S_S100000x3 bcast_S1700000_S1700000x1_0 bcast_S_S1700000 src dst G p k

/-- Widening an array of extended reals leaves it as it was. -/
theorem widen_id {s : Shape} (v : FVec Ideal s .bf16) (h : FTy.bits .bf16 < FTy.bits .f32) :
    (extf .f32 v h : s.Idx → EReal) = v := rfl

/-- The neighbour sum of 128-column rows at (p, k): widening the gathered rows changes nothing. -/
theorem agg128_apply (src dst : IVec S1700000 32) (G : FVec Ideal S100000x128 .bf16) (p : Fin 100000) (k : Fin 128) :
    agg128 src dst G (ix2 p k) = ∑ e ∈ inEdges 100000 dst p, G (ix2 (rowOf 100000 (by decide) src e) k) := by
  unfold agg128 col wrapCol
  rw [widen_id]
  exact neighbourSum_apply (N := 100000) (E := 1700000) (C := 128) (by decide)
    scatter_S100000x128_S1700000x1_S1700000x128_1_0_0_1_wf gather_S100000x128_S1700000x1_S1700000x128_1_0_n_n_0_1_1128_wf
    bcast_S_S100000x128 bcast_S1700000_S1700000x1_0 bcast_S_S1700000 src dst G p k

/-- The scaled input rows at (q, k). -/
theorem scaledIn_apply (x0 : FVec Ideal S100000x3 .f32) (dinv : FVec Ideal S100000 .f32) (q : Fin 100000) (k : Fin 3) :
    scaledIn x0 dinv (ix2 q k) = (x0 (ix2 q k) * dinv (ix1 q) : EReal) :=
  scaledRows_apply bcast_S100000_S100000x1_0 bcast_S100000x1_S100000x3_0_1 x0 dinv q k

/-- The factor column at row p. -/
theorem dcol_apply (dinv : FVec Ideal S100000 .f32) (p : Fin 100000) : dcol dinv (ix2 p (0 : Fin 1)) = dinv (ix1 p) :=
  shapeCast_a_a1_apply dinv shapeCasts_S100000_S100000x1 p 0

/-- A bias row at column j. -/
theorem brow_apply (b : FVec Ideal S128 .f32) (j : Fin 128) : brow b (ix2 (0 : Fin 1) j) = b (ix1 j) :=
  shapeCast_a_1a_apply b shapeCasts_S128_S1x128 0 j

/-- The last bias row at column o. -/
theorem frow_apply (b : FVec Ideal S2 .f32) (o : Fin 2) : frow b (ix2 (0 : Fin 1) o) = b (ix1 o) :=
  shapeCast_a_1a_apply b shapeCasts_S2_S1x2 0 o

/-- The per-graph feature sums at (g, k). -/
theorem sums_apply (batch : IVec S100000 32) (H : FVec Ideal S100000x128 .f32) (g : Fin 512) (k : Fin 128) :
    sums batch H (ix2 g k) = ∑ n ∈ inEdges 512 batch g, H (ix2 n k) := by
  unfold sums
  exact scatter_rows_zero (N := 512) (E := 100000) (C := 128) scatter_S512x128_S100000x1_S100000x128_1_0_0_1_wf
    bcast_S_S512x128 bcast_S100000_S100000x1_0 batch H g k

/-- The per-graph node count at row g: the one word summed over the graph's nodes. -/
theorem counts_apply (batch : IVec S100000 32) (g : Fin 512) :
    counts batch (ix2 g (0 : Fin 1)) = ∑ _n ∈ inEdges 512 batch g, Ideal.ofBits .f32 0x3F800000#32 := by
  unfold counts
  exact countColumn_apply (N := 512) (E := 100000) scatter_S512_S100000x1_S100000_n_0_0_1_wf bcast_S_S512
    bcast_S100000_S100000x1_0 bcast_S_S100000 shapeCasts_S512_S512x1 batch 0x3F800000#32 g 0

/-! ## One layer -/

/-- The dense step on the neighbour sum of 3-column rows G, whose entries are g, is the model's layer on g. -/
theorem layer3 (src dst : IVec S1700000 32) (dinv : FVec Ideal S100000 .f32) (G : FVec Ideal S100000x3 .f32)
    (g : Fin 100000 → Fin 3 → EReal) (hG : ∀ q k, G (ix2 q k) = g q k)
    (W : FVec Ideal S3x128 .f32) (b : FVec Ideal S128 .f32) (p : Fin 100000) (j : Fin 128) :
    denseArr (R := 100000) (K := 3) (N := 128) (agg3 src dst G) (dcol dinv) W (brow b) (ix2 p j)
      = kLayer (edgesInto dst) (srcRow src) (factor dinv) g (fun k j => W (ix2 k j)) (fun j => b (ix1 j)) p j :=
  dense_eq_kLayer (edgesInto dst) (srcRow src) (factor dinv) g (agg3 src dst G) (dcol dinv) W (brow b) b
    (fun p k => (agg3_apply src dst G p k).trans (Finset.sum_congr rfl fun e _ => hG _ k))
    (dcol_apply dinv) (brow_apply b) p j

/-- The dense step on the neighbour sum of 128-column rows G, whose entries are g, is the model's layer on g. -/
theorem layer128 (src dst : IVec S1700000 32) (dinv : FVec Ideal S100000 .f32) (G : FVec Ideal S100000x128 .bf16)
    (g : Fin 100000 → Fin 128 → EReal) (hG : ∀ q k, G (ix2 q k) = g q k)
    (W : FVec Ideal S128x128 .f32) (b : FVec Ideal S128 .f32) (p : Fin 100000) (j : Fin 128) :
    denseArr (R := 100000) (K := 128) (N := 128) (agg128 src dst G) (dcol dinv) W (brow b) (ix2 p j)
      = kLayer (edgesInto dst) (srcRow src) (factor dinv) g (fun k j => W (ix2 k j)) (fun j => b (ix1 j)) p j :=
  dense_eq_kLayer (edgesInto dst) (srcRow src) (factor dinv) g (agg128 src dst G) (dcol dinv) W (brow b) b
    (fun p k => (agg128_apply src dst G p k).trans (Finset.sum_congr rfl fun e _ => hG _ k))
    (dcol_apply dinv) (brow_apply b) p j

/-! ## The three layers and the read-out over arbitrary source, destination, factor and batch vectors -/

section Generic

variable (src dst : IVec S1700000 32) (dinv : FVec Ideal S100000 .f32) (batch : IVec S100000 32)
  (x0 : FVec Ideal S100000x3 .f32) (x3 : FVec Ideal S3x128 .f32) (x4 : FVec Ideal S128 .f32)
  (x5 : FVec Ideal S128x128 .f32) (x6 : FVec Ideal S128 .f32) (x7 : FVec Ideal S128x128 .f32) (x8 : FVec Ideal S128 .f32)
  (x9 : FVec Ideal S128x2 .f32) (x10 : FVec Ideal S2 .f32)

/-- The first layer's scaled output rows over arbitrary vectors. -/
def gFeat1 : FVec Ideal S100000x128 .bf16 :=
  denseScaledArr (R := 100000) (K := 3) (N := 128) (agg3 src dst (scaledIn x0 dinv)) (dcol dinv) x3 (brow x4)

/-- The second layer's scaled output rows over arbitrary vectors. -/
def gFeat2 : FVec Ideal S100000x128 .bf16 :=
  denseScaledArr (R := 100000) (K := 128) (N := 128) (agg128 src dst (gFeat1 src dst dinv x0 x3 x4)) (dcol dinv) x5 (brow x6)

/-- The third layer's output rows over arbitrary vectors. -/
def gFeat3 : FVec Ideal S100000x128 .f32 :=
  denseArr (R := 100000) (K := 128) (N := 128) (agg128 src dst (gFeat2 src dst dinv x0 x3 x4 x5 x6)) (dcol dinv) x7 (brow x8)

theorem gFeat1_apply (p : Fin 100000) (j : Fin 128) :
    gFeat1 src dst dinv x0 x3 x4 (ix2 p j) = kFeat1 src dst dinv x0 x3 x4 p j * factor dinv p := by
  unfold gFeat1
  rw [denseScaledArr_apply, dcol_apply]
  unfold kFeat1
  exact congrArg (fun t : EReal => t * dinv (ix1 p))
    (layer3 src dst dinv (scaledIn x0 dinv) (fun q k => x0 (ix2 q k) * factor dinv q) (scaledIn_apply x0 dinv) x3 x4 p j)

theorem gFeat2_apply (p : Fin 100000) (j : Fin 128) :
    gFeat2 src dst dinv x0 x3 x4 x5 x6 (ix2 p j) = kFeat2 src dst dinv x0 x3 x4 x5 x6 p j * factor dinv p := by
  unfold gFeat2
  rw [denseScaledArr_apply, dcol_apply]
  unfold kFeat2
  exact congrArg (fun t : EReal => t * dinv (ix1 p))
    (layer128 src dst dinv (gFeat1 src dst dinv x0 x3 x4) (fun q k => kFeat1 src dst dinv x0 x3 x4 q k * factor dinv q)
      (gFeat1_apply src dst dinv x0 x3 x4) x5 x6 p j)

theorem gFeat3_apply (p : Fin 100000) (j : Fin 128) :
    gFeat3 src dst dinv x0 x3 x4 x5 x6 x7 x8 (ix2 p j) = kFeat3 src dst dinv x0 x3 x4 x5 x6 x7 x8 p j := by
  unfold gFeat3 kFeat3
  exact layer128 src dst dinv (gFeat2 src dst dinv x0 x3 x4 x5 x6)
    (fun q k => kFeat2 src dst dinv x0 x3 x4 x5 x6 q k * factor dinv q) (gFeat2_apply src dst dinv x0 x3 x4 x5 x6) x7 x8 p j

/-- The read-out of node features H, whose entries are h3, is the model's read-out of h3. -/
theorem head_apply (H : FVec Ideal S100000x128 .f32) (h3 : Fin 100000 → Fin 128 → EReal)
    (hH : ∀ n k, H (ix2 n k) = h3 n k) (g : Fin 512) (o : Fin 2) :
    headArr (G := 512) (K := 128) (N := 2) (sums batch H) (counts batch) x9 (frow x10) (ix2 g o)
      = readout batch h3 x9 x10 g o :=
  head_eq_readout batch h3 (sums batch H) (counts batch) x9 (frow x10) x10
    (fun g k => (sums_apply batch H g k).trans (Finset.sum_congr rfl fun n _ => hH n k))
    (counts_apply batch) (frow_apply x10) g o

end Generic

/-! ## The program's own vectors -/

variable (x0 : FVec Ideal S100000x3 .f32) (x1 : IVec S2x1600000 32) (x2 : IVec S100000 32)
  (x3 : FVec Ideal S3x128 .f32) (x4 : FVec Ideal S128 .f32) (x5 : FVec Ideal S128x128 .f32) (x6 : FVec Ideal S128 .f32)
  (x7 : FVec Ideal S128x128 .f32) (x8 : FVec Ideal S128 .f32) (x9 : FVec Ideal S128x2 .f32) (x10 : FVec Ideal S2 .f32)

theorem feat1_apply (p : Fin 100000) (j : Fin 128) :
    feat1 x0 x1 x3 x4 (ValueIdx.ix2 p j)
      = Cert.Gcn.kFeat1 (srcOf x1) (dstOf x1) (dinvOf x1) x0 x3 x4 p j * Cert.Gcn.factor (dinvOf x1) p :=
  gFeat1_apply (srcOf x1) (dstOf x1) (dinvOf x1) x0 x3 x4 p j

theorem feat2_apply (p : Fin 100000) (j : Fin 128) :
    feat2 x0 x1 x3 x4 x5 x6 (ValueIdx.ix2 p j)
      = Cert.Gcn.kFeat2 (srcOf x1) (dstOf x1) (dinvOf x1) x0 x3 x4 x5 x6 p j * Cert.Gcn.factor (dinvOf x1) p :=
  gFeat2_apply (srcOf x1) (dstOf x1) (dinvOf x1) x0 x3 x4 x5 x6 p j

theorem feat3_apply (p : Fin 100000) (j : Fin 128) :
    feat3 x0 x1 x3 x4 x5 x6 x7 x8 (ValueIdx.ix2 p j)
      = Cert.Gcn.kFeat3 (srcOf x1) (dstOf x1) (dinvOf x1) x0 x3 x4 x5 x6 x7 x8 p j :=
  gFeat3_apply (srcOf x1) (dstOf x1) (dinvOf x1) x0 x3 x4 x5 x6 x7 x8 p j

theorem out_apply (g : Fin 512) (o : Fin 2) :
    out x0 x1 x2 x3 x4 x5 x6 x7 x8 x9 x10 (ValueIdx.ix2 g o)
      = Cert.Gcn.readout x2 (Cert.Gcn.kFeat3 (srcOf x1) (dstOf x1) (dinvOf x1) x0 x3 x4 x5 x6 x7 x8) x9 x10 g o :=
  head_apply x2 x9 x10 (feat3 x0 x1 x3 x4 x5 x6 x7 x8) _ (feat3_apply x0 x1 x3 x4 x5 x6 x7 x8) g o

end Cert.KernelIdeal.Stages

end
-- ==== Proof.RefEdges.lean ====
/-
  THE GRAPH'S DATA AS THE PROGRAM COMPUTES IT FROM THE EDGE LIST: sources, destinations, degrees, factors.

  The edge list is an array [2, E0] of signed 32-bit node indices; the program appends one self loop per node, so the
  source vector is row 0 followed by 0, 1, …, N - 1 and the destination vector row 1 followed by the same.  A node's
  degree is the number of edges ending in it (an accumulating scatter of ones into zeros), and its factor is the
  reciprocal square root of the degree where the degree is positive and zero elsewhere.  These four arrays are named
  here by the operations that compute them, as functions of the edge list alone; everything later treats them as
  given arrays and reads them only through the edge structure they define.
-/
import proofs.«176127_j35218731827641_2_alg».proof.ReferenceIdeal
import Idealize.ShloMosaic.PureOps.Ideal
import Idealize.ShloMosaic.PureOps.Ideal.Laws

noncomputable section

namespace Cert.ReferenceIdeal.Edges

open Cert.ReferenceIdeal Idealize.ShloMosaic

variable [Cert.ReferenceIdeal.Facts]
open Cert.ReferenceIdeal.Facts₀ Cert.ReferenceIdeal.Facts

/-- The edges' source nodes: row 0 of the edge list, then one self loop per node. -/
def srcOf (x1 : IVec S2x1600000 32) : IVec S1700000 32 :=
  concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0

/-- The edges' destination nodes: row 1 of the edge list, then one self loop per node. -/
def dstOf (x1 : IVec S2x1600000 32) : IVec S1700000 32 :=
  concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0

/-- A node's degree: the number of edges ending in it, as a sum of ones. -/
def degOf (x1 : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 (dstOf x1))
    (broadcastInDim S1700000 ![] bcast_S_S1700000 (constant (F := Ideal) S_ .f32 0x3F800000#32))

/-- A node's factor: the reciprocal square root of its degree where that is positive, zero elsewhere. -/
def dinvOf (x1 : IVec S2x1600000 32) : FVec Ideal S100000 .f32 :=
  select (cmpf (F := Ideal) .ogt (degOf x1) (broadcastInDim S100000 ![] bcast_S_S100000 (constant (F := Ideal) S_ .f32 0x00000000#32)))
    (Host.rsqrt (F := Ideal) (degOf x1))
    (broadcastInDim S100000 ![] bcast_S_S100000 (id (constant (F := Ideal) S_ .f32 0x00000000#32)))

end Cert.ReferenceIdeal.Edges

end
-- ==== Proof.LibGcnEpilogue.lean ====
/-
  THE EPILOGUE OF A GRAPH-CONVOLUTION LAYER, at the ideal values.

  After the neighbours' messages have been summed into `agg`, a graph-convolution layer adds each node's own transformed
  features `h` weighted by a per-node factor `d`, adds a bias `b` per output column, and rectifies:
      out (p, j) = max ((agg (p, j) + h (p, j) · d p) + b j, 0).
  The factor is one number per ROW and the bias one number per COLUMN.  Two spellings of this entry are read here, generic
  in the number `R` of rows and `N` of columns:
  • on the vector unit the factor arrives as a column `[R, 1]` and the bias as a row `[1, N]`; each is cast to itself and
    broadcast over the block (`kepi`);
  • on the host the factor and the bias are vectors, each broadcast first to a column or a row and then over the array,
    and the rectifier compares with the zero constant broadcast from a scalar (`hepi`).
  A column `[R, 1]` obtained from a vector by a cast, and a row `[1, N]` likewise, hold the vector's entries
  (`colOf_cast`, `rowOf_cast`).  Entry `(p, j)` depends on row `p` of `agg`, `h`, `d` and on nothing else of them, so the
  epilogue of a block of rows is that block of rows of the epilogue of the whole (`epiArr_rows`).  The additions are kept in
  the order written; no algebra of the extended reals is used.
-/
import Idealize.ShloMosaic.Lib.ValueIdx
import Idealize.ShloMosaic.Lib.ValueLayout
import Idealize.ShloMosaic.Lib.Pipeline.Value
import Idealize.ShloMosaic.PureOps.Ideal.Laws
import proofs.«176127_j35218731827641_2_alg».proof.Proof.LibColumn

noncomputable section

namespace Cert.GcnEpilogue

open Idealize.ShloMosaic Idealize.ShloMosaic.ValueIdx Idealize.ShloMosaic.ColumnLayout

/-- The level the rectifier compares with: the value of the all-zero word (never evaluated). -/
def zf : EReal := Ideal.ofBits .f32 0x00000000#32

/-- The epilogue as a whole array: factor `d` per row, bias `b` per column. -/
def epiArr {R N : ℕ} (agg h : (⟨2, ![R, N]⟩ : Shape).Idx → EReal) (d : (⟨1, ![R]⟩ : Shape).Idx → EReal)
    (b : (⟨1, ![N]⟩ : Shape).Idx → EReal) : (⟨2, ![R, N]⟩ : Shape).Idx → EReal :=
  fun i => max ((agg i + h i * d (ix1 (i 0))) + b (ix1 (i 1))) zf

theorem epiArr_apply {R N : ℕ} (agg h : (⟨2, ![R, N]⟩ : Shape).Idx → EReal) (d : (⟨1, ![R]⟩ : Shape).Idx → EReal)
    (b : (⟨1, ![N]⟩ : Shape).Idx → EReal) (p : Fin R) (c : Fin N) :
    epiArr agg h d b (ix2 p c) = max ((agg (ix2 p c) + h (ix2 p c) * d (ix1 p)) + b (ix1 c)) zf := rfl

/-- The entries of a column `[R, 1]`, as a vector. -/
def colOf {R : ℕ} (v : (⟨2, ![R, 1]⟩ : Shape).Idx → EReal) : (⟨1, ![R]⟩ : Shape).Idx → EReal :=
  fun i => v (ix2 (i 0) (0 : Fin 1))

/-- The entries of a row `[1, N]`, as a vector. -/
def rowOf {N : ℕ} (v : (⟨2, ![1, N]⟩ : Shape).Idx → EReal) : (⟨1, ![N]⟩ : Shape).Idx → EReal :=
  fun i => v (ix2 (0 : Fin 1) (i 0))

/-- A vector cast to a column and read back is itself. -/
theorem colOf_cast {R : ℕ} (x : (⟨1, ![R]⟩ : Shape).Idx → EReal) (h : (⟨1, ![R]⟩ : Shape).ShapeCasts ⟨2, ![R, 1]⟩) :
    colOf (shapeCast ⟨2, ![R, 1]⟩ x h) = x := by
  funext i
  rw [eq_ix1 i]
  exact shapeCast_a_a1_apply x h (i 0) 0

/-- A vector cast to a row and read back is itself. -/
theorem rowOf_cast {N : ℕ} (x : (⟨1, ![N]⟩ : Shape).Idx → EReal) (h : (⟨1, ![N]⟩ : Shape).ShapeCasts ⟨2, ![1, N]⟩) :
    rowOf (shapeCast ⟨2, ![1, N]⟩ x h) = x := by
  funext i
  rw [eq_ix1 i]
  exact shapeCast_a_1a_apply x h 0 (i 0)

/-! ## The vector unit's spelling -/

/-- On a block: `agg` and `h` cast to themselves, the factor column cast to itself and broadcast over the columns, the
    bias row cast to itself and broadcast over the rows, the rectifier against the zero word splat over the block. -/
theorem kepi {R N : ℕ} (v0 v2 : FVec Ideal ⟨2, ![R, N]⟩ .f32) (v4 : FVec Ideal ⟨2, ![R, 1]⟩ .f32)
    (v9 : FVec Ideal ⟨2, ![1, N]⟩ .f32)
    (h0 : (⟨2, ![R, N]⟩ : Shape).ShapeCasts ⟨2, ![R, N]⟩) (h4 : (⟨2, ![R, 1]⟩ : Shape).ShapeCasts ⟨2, ![R, 1]⟩)
    (hb4 : (⟨2, ![R, 1]⟩ : Shape).Broadcasts ⟨2, ![R, N]⟩)
    (h9 : (⟨2, ![1, N]⟩ : Shape).ShapeCasts ⟨2, ![1, N]⟩) (hb9 : (⟨2, ![1, N]⟩ : Shape).Broadcasts ⟨2, ![R, N]⟩) :
    maximumf (addf (addf (shapeCast ⟨2, ![R, N]⟩ v0 h0)
          (mulf (shapeCast ⟨2, ![R, N]⟩ v2 h0) (broadcastTo ⟨2, ![R, N]⟩ (shapeCast ⟨2, ![R, 1]⟩ v4 h4) hb4)))
        (broadcastTo ⟨2, ![R, N]⟩ (shapeCast ⟨2, ![1, N]⟩ v9 h9) hb9))
      (broadcast ⟨2, ![R, N]⟩ (Scalar.ofBits (F := Ideal) .f32 0x00000000#32))
      = epiArr v0 v2 (colOf v4) (rowOf v9) := by
  funext i
  obtain ⟨p, c, rfl⟩ : ∃ (p : Fin R) (c : Fin N), i = ix2 p c := ⟨i 0, i 1, eq_ix2 i⟩
  show max ((shapeCast ⟨2, ![R, N]⟩ v0 h0 (ix2 p c)
        + shapeCast ⟨2, ![R, N]⟩ v2 h0 (ix2 p c) * broadcastTo ⟨2, ![R, N]⟩ (shapeCast ⟨2, ![R, 1]⟩ v4 h4) hb4 (ix2 p c))
      + broadcastTo ⟨2, ![R, N]⟩ (shapeCast ⟨2, ![1, N]⟩ v9 h9) hb9 (ix2 p c)) zf = _
  rw [shapeCast_self, shapeCast_self, shapeCast_self, shapeCast_self, broadcastTo_a1_ab_apply, broadcastTo_1b_ab_apply]
  rfl

/-! ## The host's spelling -/

/-- A vector broadcast to a column `[R, 1]` (its one axis sent to axis 0), read at `(p, u)`. -/
theorem bcast_col_apply {α : Type} {R : ℕ} (x : (⟨1, ![R]⟩ : Shape).Idx → α)
    (h : (⟨1, ![R]⟩ : Shape).BroadcastsInDim ⟨2, ![R, 1]⟩ ![0]) (p : Fin R) (u : Fin 1) :
    broadcastInDim ⟨2, ![R, 1]⟩ ![0] h x (ix2 p u) = x (ix1 p) := by
  refine broadcastInDim_apply ![0] h x (ix2 p u) (ix1 p) fun a => ?_
  match a with
  | ⟨0, _⟩ =>
    show p.val = if R = 1 then 0 else p.val
    split
    · have := p.isLt; omega
    · rfl

/-- A column `[R, 1]` broadcast over `N` columns, read at `(p, c)`. -/
theorem bcast_col_over_apply {α : Type} {R N : ℕ} (v : (⟨2, ![R, 1]⟩ : Shape).Idx → α)
    (h : (⟨2, ![R, 1]⟩ : Shape).BroadcastsInDim ⟨2, ![R, N]⟩ ![0, 1]) (p : Fin R) (c : Fin N) :
    broadcastInDim ⟨2, ![R, N]⟩ ![0, 1] h v (ix2 p c) = v (ix2 p (0 : Fin 1)) := by
  refine broadcastInDim_apply ![0, 1] h v (ix2 p c) (ix2 p (0 : Fin 1)) fun a => ?_
  match a with
  | ⟨0, _⟩ =>
    show p.val = if R = 1 then 0 else p.val
    split
    · have := p.isLt; omega
    · rfl
  | ⟨1, _⟩ => rfl

/-- A vector broadcast to a row `[1, N]` (its one axis sent to axis 1), read at `(u, c)`. -/
theorem bcast_row_apply {α : Type} {N : ℕ} (x : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h x (ix2 u c) = x (ix1 c) := by
  refine broadcastInDim_apply ![1] h x (ix2 u c) (ix1 c) fun a => ?_
  match a with
  | ⟨0, _⟩ =>
    show c.val = if N = 1 then 0 else c.val
    split
    · have := c.isLt; omega
    · rfl

/-- A row `[1, N]` broadcast over `R` rows, read at `(p, c)`. -/
theorem bcast_row_over_apply {α : Type} {R N : ℕ} (v : (⟨2, ![1, N]⟩ : Shape).Idx → α)
    (h : (⟨2, ![1, N]⟩ : Shape).BroadcastsInDim ⟨2, ![R, N]⟩ ![0, 1]) (p : Fin R) (c : Fin N) :
    broadcastInDim ⟨2, ![R, N]⟩ ![0, 1] h v (ix2 p c) = v (ix2 (0 : Fin 1) c) := by
  refine broadcastInDim_apply ![0, 1] h v (ix2 p c) (ix2 (0 : Fin 1) c) fun a => ?_
  match a with
  | ⟨0, _⟩ => rfl
  | ⟨1, _⟩ =>
    show c.val = if N = 1 then 0 else c.val
    split
    · have := c.isLt; omega
    · rfl

/-- On the host: the factor vector broadcast to a column and over the columns, the bias vector broadcast to a row and
    over the rows, the rectifier against the zero constant broadcast from a scalar. -/
theorem hepi {R N : ℕ} (agg h : FVec Ideal ⟨2, ![R, N]⟩ .f32) (d : FVec Ideal ⟨1, ![R]⟩ .f32) (b : FVec Ideal ⟨1, ![N]⟩ .f32)
    (hd1 : (⟨1, ![R]⟩ : Shape).BroadcastsInDim ⟨2, ![R, 1]⟩ ![0])
    (hd2 : (⟨2, ![R, 1]⟩ : Shape).BroadcastsInDim ⟨2, ![R, N]⟩ ![0, 1])
    (hb1 : (⟨1, ![N]⟩ : Shape).BroadcastsInDim ⟨2, ![1, N]⟩ ![1])
    (hb2 : (⟨2, ![1, N]⟩ : Shape).BroadcastsInDim ⟨2, ![R, N]⟩ ![0, 1])
    (hz : (⟨0, ![]⟩ : Shape).BroadcastsInDim ⟨2, ![R, N]⟩ ![]) :
    maximumf (addf (addf agg (mulf h (broadcastInDim ⟨2, ![R, N]⟩ ![0, 1] hd2 (broadcastInDim ⟨2, ![R, 1]⟩ ![0] hd1 d))))
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
      = epiArr agg h d b := by
  funext i
  obtain ⟨p, c, rfl⟩ : ∃ (p : Fin R) (c : Fin N), i = ix2 p c := ⟨i 0, i 1, eq_ix2 i⟩
  show max ((agg (ix2 p c)
        + h (ix2 p c) * broadcastInDim ⟨2, ![R, N]⟩ ![0, 1] hd2 (broadcastInDim ⟨2, ![R, 1]⟩ ![0] hd1 d) (ix2 p c))
      + broadcastInDim ⟨2, ![R, N]⟩ ![0, 1] hb2 (broadcastInDim ⟨2, ![1, N]⟩ ![1] hb1 b) (ix2 p c))
      (broadcastInDim ⟨2, ![R, N]⟩ ![] hz (constant (F := Ideal) ⟨0, ![]⟩ .f32 0x00000000#32) (ix2 p c)) = _
  rw [bcast_col_over_apply, bcast_col_apply, bcast_row_over_apply, bcast_row_apply,
    broadcastInDim_apply _ hz _ (ix2 p c) ix0 (fun a => a.elim0)]
  rfl

/-! ## Row locality -/

/-- Row `p` of the epilogue of a block is row `p'` of the epilogue of the whole arrays when row `p` of the block's
    `agg`, `h` and factor are row `p'` of the whole arrays' and the biases are one vector. -/
theorem epiArr_rows {R R' N : ℕ} (agg h : (⟨2, ![R, N]⟩ : Shape).Idx → EReal) (d : (⟨1, ![R]⟩ : Shape).Idx → EReal)
    (AGG H : (⟨2, ![R', N]⟩ : Shape).Idx → EReal) (D : (⟨1, ![R']⟩ : Shape).Idx → EReal)
    (b : (⟨1, ![N]⟩ : Shape).Idx → EReal) (p : Fin R) (p' : Fin R') (c : Fin N)
    (ha : agg (ix2 p c) = AGG (ix2 p' c)) (hh : h (ix2 p c) = H (ix2 p' c)) (hd : d (ix1 p) = D (ix1 p')) :
    epiArr agg h d b (ix2 p c) = epiArr AGG H D b (ix2 p' c) := by
  rw [epiArr_apply, epiArr_apply, ha, hh, hd]

/-- The same at indices given by the values of their coordinates: the block's index `y` and the whole array's index `i`
    name the same column, `i`'s row is `y`'s row moved down by `off`; the block's `agg`, `h` and factor are the whole
    arrays' read `off` rows down; the biases agree entry by entry. -/
theorem epi_block {R R' N : ℕ} (agg h : (⟨2, ![R, N]⟩ : Shape).Idx → EReal) (d : (⟨1, ![R]⟩ : Shape).Idx → EReal)
    (b : (⟨1, ![N]⟩ : Shape).Idx → EReal)
    (AGG H : (⟨2, ![R', N]⟩ : Shape).Idx → EReal) (D : (⟨1, ![R']⟩ : Shape).Idx → EReal)
    (B : (⟨1, ![N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, N]⟩ : Shape).Idx) (z : (⟨2, ![R', N]⟩ : Shape).Idx),
      (z 0).val = off + (u 0).val → (z 1).val = (u 1).val → agg u = AGG z)
    (hh : ∀ (u : (⟨2, ![R, N]⟩ : Shape).Idx) (z : (⟨2, ![R', N]⟩ : Shape).Idx),
      (z 0).val = off + (u 0).val → (z 1).val = (u 1).val → h u = H z)
    (hd : ∀ (u : Fin R) (z : Fin R'), z.val = off + u.val → d (ix1 u) = D (ix1 z))
    (hb : ∀ u : Fin N, b (ix1 u) = B (ix1 u)) :
    epiArr agg h d b y = epiArr AGG H D B i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [epiArr_apply, epiArr_apply, ha (ix2 p c') (ix2 p' c') hi0 rfl, hh (ix2 p c') (ix2 p' c') hi0 rfl, hd p p' hi0, hb c']

end Cert.GcnEpilogue

end
-- ==== Proof.LibGcnHost.lean ====
/-
  A GRAPH-CONVOLUTION LAYER AND THE READ-OUT AS THE HOST SPELLS THEM, READ AT AN INDEX.

  On the host one layer is a chain of whole-array operations: the node features times the weights; a row gather of the
  product at the edges' wrapped source indices; a product with the edges' weights (each edge's two factors, gathered at
  the wrapped source and destination indices and multiplied) broadcast first to a column and then over the columns; an
  accumulating scatter of the edge rows into zeros at the destinations; the bias broadcast to a row and over the rows;
  the larger of the sum and the zero constant broadcast from a scalar.  Read at `(p, j)` this is
      max ((∑ over the edges e into p of (∑ k, h (s e, k) · W (k, j)) · (dv (s e) · dv (t e))) + b j, 0),
  the layer `Cert.Gcn.rLayer` over the edge structure the index vectors define.  The read-out is: the node features
  summed per graph by an accumulating scatter at the batch vector; the node counts summed likewise from ones, the larger
  of them and one, broadcast to a column and over the columns; the quotient; a product with the weights; a bias.  All
  generic in the extents; every sum is compared term by term in the order written and nothing is regrouped.
-/
import proofs.«176127_j35218731827641_2_alg».proof.Proof.LibGcnAlgebra
import proofs.«176127_j35218731827641_2_alg».proof.Proof.LibGcnEdges
import proofs.«176127_j35218731827641_2_alg».proof.Proof.LibBlockDot
import proofs.«176127_j35218731827641_2_alg».proof.Proof.LibGcnEpilogue
import Idealize.ShloMosaic.Lib.IdealHost

noncomputable section

open scoped BigOperators

namespace Cert.LibGcnHost

open Idealize.ShloMosaic Idealize.ShloMosaic.ValueIdx Cert.Segment Cert.Aggregate Cert.Gcn

/-- An index vector with its negative entries wrapped, as a column. -/
def wrapCol {E : ℕ} (N : ℕ) (hi : (⟨1, ![E]⟩ : Shape).BroadcastsInDim ⟨2, ![E, 1]⟩ ![0])
    (hs : (⟨0, ![]⟩ : Shape).BroadcastsInDim ⟨1, ![E]⟩ ![]) (v : IVec ⟨1, ![E]⟩ 32) : IVec ⟨2, ![E, 1]⟩ 32 :=
  broadcastInDim ⟨2, ![E, 1]⟩ ![0] hi
    (select (cmpi .slt v (broadcastInDim ⟨1, ![E]⟩ ![] hs (constantI ⟨0, ![]⟩ 32 0#32)))
      (addi v (broadcastInDim ⟨1, ![E]⟩ ![] hs (constantI ⟨0, ![]⟩ 32 (BitVec.ofNat 32 N)))) v)

/-- Each edge's weight: the factor at its source times the factor at its destination. -/
def edgeNorm {N E : ℕ} (wfgv : GatherDims.WF ⟨1, ![N]⟩ ⟨2, ![E, 1]⟩ ⟨1, ![E]⟩ [] [0] [] [0] [] 1 ![1])
    (hi : (⟨1, ![E]⟩ : Shape).BroadcastsInDim ⟨2, ![E, 1]⟩ ![0])
    (hs : (⟨0, ![]⟩ : Shape).BroadcastsInDim ⟨1, ![E]⟩ ![])
    (dinv : FVec Ideal ⟨1, ![N]⟩ .f32) (src dst : IVec ⟨1, ![E]⟩ 32) : FVec Ideal ⟨1, ![E]⟩ .f32 :=
  mulf (Host.gather (gatherVecDims N E wfgv) dinv (wrapCol N hi hs src))
    (Host.gather (gatherVecDims N E wfgv) dinv (wrapCol N hi hs dst))

/-- One layer as the host spells it, from the edge weights `nrm`. -/
def hostLayer {N E K C : ℕ}
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (hi : (⟨1, ![E]⟩ : Shape).BroadcastsInDim ⟨2, ![E, 1]⟩ ![0])
    (hs : (⟨0, ![]⟩ : Shape).BroadcastsInDim ⟨1, ![E]⟩ ![])
    (hc : (⟨2, ![E, 1]⟩ : Shape).BroadcastsInDim ⟨2, ![E, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (nrm : FVec Ideal ⟨1, ![E]⟩ .f32) (h : FVec Ideal ⟨2, ![N, K]⟩ .f32) (W : FVec Ideal ⟨2, ![K, C]⟩ .f32)
    (b : FVec Ideal ⟨1, ![C]⟩ .f32) (src dst : IVec ⟨1, ![E]⟩ 32) : FVec Ideal ⟨2, ![N, C]⟩ .f32 :=
  maximumf
    (addf
      (Host.scatterAdd (F := Ideal) (scatterRowsDims N E C wfs)
        (broadcastInDim ⟨2, ![N, C]⟩ ![] hz (constant (F := Ideal) ⟨0, ![]⟩ .f32 0x00000000#32))
        (broadcastInDim ⟨2, ![E, 1]⟩ ![0] hi dst)
        (mulf (Host.gather (gatherRowsDims N E C wfg) (Host.dotGeneral (DotDims.plain N K C) none h W) (wrapCol N hi hs src))
          (broadcastInDim ⟨2, ![E, C]⟩ ![0, 1] hc (broadcastInDim ⟨2, ![E, 1]⟩ ![0] hi nrm))))
      (broadcastInDim ⟨2, ![N, C]⟩ ![0, 1] hb2 (broadcastInDim ⟨2, ![1, C]⟩ ![1] hb1 b)))
    (broadcastInDim ⟨2, ![N, C]⟩ ![] hz (constant (F := Ideal) ⟨0, ![]⟩ .f32 0x00000000#32))

/-- THE LAYER READ AT (p, j): the layer with both factors on every edge, over the edge structure of `src`, `dst`. -/
theorem hostLayer_apply {N E K C : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (wfgv : GatherDims.WF ⟨1, ![N]⟩ ⟨2, ![E, 1]⟩ ⟨1, ![E]⟩ [] [0] [] [0] [] 1 ![1])
    (hz : (⟨0, ![]⟩ : Shape).BroadcastsInDim ⟨2, ![N, C]⟩ ![])
    (hi : (⟨1, ![E]⟩ : Shape).BroadcastsInDim ⟨2, ![E, 1]⟩ ![0])
    (hs : (⟨0, ![]⟩ : Shape).BroadcastsInDim ⟨1, ![E]⟩ ![])
    (hc : (⟨2, ![E, 1]⟩ : Shape).BroadcastsInDim ⟨2, ![E, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (dinv : FVec Ideal ⟨1, ![N]⟩ .f32) (h : FVec Ideal ⟨2, ![N, K]⟩ .f32) (W : FVec Ideal ⟨2, ![K, C]⟩ .f32)
    (b : FVec Ideal ⟨1, ![C]⟩ .f32) (src dst : IVec ⟨1, ![E]⟩ 32) (p : Fin N) (j : Fin C) :
    hostLayer wfs wfg hz hi hs hc hb1 hb2 (edgeNorm wfgv hi hs dinv src dst) h W b src dst (ix2 p j)
      = rLayer (inEdges N dst) (rowOf N hN src) (rowOf N hN dst) (fun q => dinv (ix1 q))
          (fun q k => h (ix2 q k)) (fun k c => W (ix2 k c)) (fun c => b (ix1 c)) p j := by
  unfold hostLayer rLayer
  show max (Host.scatterAdd (F := Ideal) (φ := .f32) (scatterRowsDims N E C wfs)
        (broadcastInDim ⟨2, ![N, C]⟩ ![] hz (constant (F := Ideal) ⟨0, ![]⟩ .f32 0x00000000#32))
        (broadcastInDim ⟨2, ![E, 1]⟩ ![0] hi dst)
        (mulf (Host.gather (gatherRowsDims N E C wfg) (Host.dotGeneral (DotDims.plain N K C) none h W) (wrapCol N hi hs src))
          (broadcastInDim ⟨2, ![E, C]⟩ ![0, 1] hc (broadcastInDim ⟨2, ![E, 1]⟩ ![0] hi (edgeNorm wfgv hi hs dinv src dst))))
        (ix2 p j)
      + broadcastInDim ⟨2, ![N, C]⟩ ![0, 1] hb2 (broadcastInDim ⟨2, ![1, C]⟩ ![1] hb1 b) (ix2 p j))
    (broadcastInDim ⟨2, ![N, C]⟩ ![] hz (constant (F := Ideal) ⟨0, ![]⟩ .f32 0x00000000#32) (ix2 p j)) = _
  have h0 : constant (F := Ideal) ⟨0, ![]⟩ .f32 0x00000000#32 ix0 = 0 := Ideal.ofBits_zero_f32
  rw [scatter_rows_zero, Cert.GcnEpilogue.bcast_row_over_apply, Cert.GcnEpilogue.bcast_row_apply,
    broadcastInDim_scalar_apply, h0]
  congr 2
  refine Finset.sum_congr rfl fun e _ => ?_
  show Host.gather (gatherRowsDims N E C wfg) (Host.dotGeneral (DotDims.plain N K C) none h W) (wrapCol N hi hs src) (ix2 e j)
      * broadcastInDim ⟨2, ![E, C]⟩ ![0, 1] hc (broadcastInDim ⟨2, ![E, 1]⟩ ![0] hi (edgeNorm wfgv hi hs dinv src dst)) (ix2 e j)
    = _
  unfold wrapCol
  rw [gather_rows_wrapped hN, Cert.BlockDot.hdot_apply, columns_apply, column_apply]
  unfold edgeNorm wrapCol
  show _ * (Host.gather (gatherVecDims N E wfgv) dinv _ (ix1 e) * Host.gather (gatherVecDims N E wfgv) dinv _ (ix1 e)) = _
  rw [gather_vec_wrapped hN, gather_vec_wrapped hN]

/-- The read-out as the host spells it. -/
def hostReadout {G N C O : ℕ}
    (wfsr : ScatterDims.WF ⟨2, ![G, C]⟩ ⟨2, ![N, 1]⟩ ⟨2, ![N, C]⟩ [1] [0] [0] 1)
    (wfsv : ScatterDims.WF ⟨1, ![G]⟩ ⟨2, ![N, 1]⟩ ⟨1, ![N]⟩ [] [0] [0] 1)
    (hzGC : (⟨0, ![]⟩ : Shape).BroadcastsInDim ⟨2, ![G, C]⟩ ![])
    (hzG : (⟨0, ![]⟩ : Shape).BroadcastsInDim ⟨1, ![G]⟩ ![])
    (hzN : (⟨0, ![]⟩ : Shape).BroadcastsInDim ⟨1, ![N]⟩ ![])
    (hi : (⟨1, ![N]⟩ : Shape).BroadcastsInDim ⟨2, ![N, 1]⟩ ![0])
    (hg1 : (⟨1, ![G]⟩ : Shape).BroadcastsInDim ⟨2, ![G, 1]⟩ ![0])
    (hg2 : (⟨2, ![G, 1]⟩ : Shape).BroadcastsInDim ⟨2, ![G, C]⟩ ![0, 1])
    (hb1 : (⟨1, ![O]⟩ : Shape).BroadcastsInDim ⟨2, ![1, O]⟩ ![1])
    (hb2 : (⟨2, ![1, O]⟩ : Shape).BroadcastsInDim ⟨2, ![G, O]⟩ ![0, 1])
    (batch : IVec ⟨1, ![N]⟩ 32) (h3 : FVec Ideal ⟨2, ![N, C]⟩ .f32) (Wfc : FVec Ideal ⟨2, ![C, O]⟩ .f32)
    (bfc : FVec Ideal ⟨1, ![O]⟩ .f32) : FVec Ideal ⟨2, ![G, O]⟩ .f32 :=
  addf
    (Host.dotGeneral (DotDims.plain G C O) none
      (Host.divf
        (Host.scatterAdd (F := Ideal) (scatterRowsDims G N C wfsr)
          (broadcastInDim ⟨2, ![G, C]⟩ ![] hzGC (constant (F := Ideal) ⟨0, ![]⟩ .f32 0x00000000#32))
          (broadcastInDim ⟨2, ![N, 1]⟩ ![0] hi batch) h3)
        (broadcastInDim ⟨2, ![G, C]⟩ ![0, 1] hg2 (broadcastInDim ⟨2, ![G, 1]⟩ ![0] hg1
          (maximumf
            (Host.scatterAdd (F := Ideal) (scatterVecDims G N wfsv)
              (broadcastInDim ⟨1, ![G]⟩ ![] hzG (constant (F := Ideal) ⟨0, ![]⟩ .f32 0x00000000#32))
              (broadcastInDim ⟨2, ![N, 1]⟩ ![0] hi batch)
              (broadcastInDim ⟨1, ![N]⟩ ![] hzN (constant (F := Ideal) ⟨0, ![]⟩ .f32 0x3F800000#32)))
            (broadcastInDim ⟨1, ![G]⟩ ![] hzG (constant (F := Ideal) ⟨0, ![]⟩ .f32 0x3F800000#32))))))
      Wfc)
    (broadcastInDim ⟨2, ![G, O]⟩ ![0, 1] hb2 (broadcastInDim ⟨2, ![1, O]⟩ ![1] hb1 bfc))

/-- THE READ-OUT READ AT (g, o): per graph the feature sums over its nodes divided by its node count (at least the
    single-precision one), times the weights, plus the bias. -/
theorem hostReadout_apply {G N C O : ℕ}
    (wfsr : ScatterDims.WF ⟨2, ![G, C]⟩ ⟨2, ![N, 1]⟩ ⟨2, ![N, C]⟩ [1] [0] [0] 1)
    (wfsv : ScatterDims.WF ⟨1, ![G]⟩ ⟨2, ![N, 1]⟩ ⟨1, ![N]⟩ [] [0] [0] 1)
    (hzGC : (⟨0, ![]⟩ : Shape).BroadcastsInDim ⟨2, ![G, C]⟩ ![])
    (hzG : (⟨0, ![]⟩ : Shape).BroadcastsInDim ⟨1, ![G]⟩ ![])
    (hzN : (⟨0, ![]⟩ : Shape).BroadcastsInDim ⟨1, ![N]⟩ ![])
    (hi : (⟨1, ![N]⟩ : Shape).BroadcastsInDim ⟨2, ![N, 1]⟩ ![0])
    (hg1 : (⟨1, ![G]⟩ : Shape).BroadcastsInDim ⟨2, ![G, 1]⟩ ![0])
    (hg2 : (⟨2, ![G, 1]⟩ : Shape).BroadcastsInDim ⟨2, ![G, C]⟩ ![0, 1])
    (hb1 : (⟨1, ![O]⟩ : Shape).BroadcastsInDim ⟨2, ![1, O]⟩ ![1])
    (hb2 : (⟨2, ![1, O]⟩ : Shape).BroadcastsInDim ⟨2, ![G, O]⟩ ![0, 1])
    (batch : IVec ⟨1, ![N]⟩ 32) (h3 : FVec Ideal ⟨2, ![N, C]⟩ .f32) (Wfc : FVec Ideal ⟨2, ![C, O]⟩ .f32)
    (bfc : FVec Ideal ⟨1, ![O]⟩ .f32) (g : Fin G) (o : Fin O) :
    hostReadout wfsr wfsv hzGC hzG hzN hi hg1 hg2 hb1 hb2 batch h3 Wfc bfc (ix2 g o)
      = (∑ k : Fin C, Ideal.div (∑ n ∈ inEdges G batch g, h3 (ix2 n k))
            (max (∑ _n ∈ inEdges G batch g, Ideal.ofBits .f32 0x3F800000#32) (Ideal.ofBits .f32 0x3F800000#32))
          * Wfc (ix2 k o)) + bfc (ix1 o) := by
  unfold hostReadout
  show Host.dotGeneral (DotDims.plain G C O) none _ Wfc (ix2 g o)
      + broadcastInDim ⟨2, ![G, O]⟩ ![0, 1] hb2 (broadcastInDim ⟨2, ![1, O]⟩ ![1] hb1 bfc) (ix2 g o) = _
  rw [Cert.BlockDot.hdot_apply, Cert.GcnEpilogue.bcast_row_over_apply, Cert.GcnEpilogue.bcast_row_apply]
  congr 1
  refine Finset.sum_congr rfl fun k _ => ?_
  rw [hostDivf_apply, scatter_rows_zero, columns_apply, column_apply]
  show Ideal.div _ (max (Host.scatterAdd (F := Ideal) (φ := .f32) (scatterVecDims G N wfsv)
        (broadcastInDim ⟨1, ![G]⟩ ![] hzG (constant (F := Ideal) ⟨0, ![]⟩ .f32 0x00000000#32))
        (broadcastInDim ⟨2, ![N, 1]⟩ ![0] hi batch)
        (broadcastInDim ⟨1, ![N]⟩ ![] hzN (constant (F := Ideal) ⟨0, ![]⟩ .f32 0x3F800000#32)) (ix1 g))
      (broadcastInDim ⟨1, ![G]⟩ ![] hzG (constant (F := Ideal) ⟨0, ![]⟩ .f32 0x3F800000#32) (ix1 g))) * _ = _
  rw [scatter_vec_zero, broadcastInDim_scalar_apply]
  congr 3

end Cert.LibGcnHost

end
-- ==== Proof.RefValue.lean ====
/-
  THE REFERENCE PROGRAM'S RESULT AS ONE STAGED FUNCTION OF ITS ARGUMENTS, AND THAT FUNCTION READ AT AN INDEX.

  The reference computes, from the node features, the edge list, the batch vector and the layers' weights and biases:
  the edges' sources and destinations with one self loop per node, the nodes' factors (`Cert.ReferenceIdeal.Edges`), each
  edge's weight (its two factors multiplied), three graph-convolution layers — features times weights, gathered at the
  wrapped sources, scaled by the edge weights, summed into zeros at the destinations, plus the bias, rectified —, and the
  read-out — per graph the node features summed and divided by the node count (at least one), times the last weights,
  plus the last bias.  `refOut` is that chain written stage by stage in the program's own operations; the program's
  composed result is `refOut` of the arguments by unfolding the stages.  Read at `(g, o)` it is the read-out of the third
  layer `Cert.Gcn.rFeat3` over the edge structure the edge list defines: each stage is the generic host layer or read-out
  (`Cert.LibGcnHost`) at this program's extents.
-/
import proofs.«176127_j35218731827641_2_alg».proof.Proof.RefRun
import proofs.«176127_j35218731827641_2_alg».proof.Proof.RefEdges
import proofs.«176127_j35218731827641_2_alg».proof.Proof.LibGcnModel
import proofs.«176127_j35218731827641_2_alg».proof.Proof.LibGcnHost

noncomputable section

namespace Cert.ReferenceIdeal.RefValue

open Cert.ReferenceIdeal Cert.ReferenceIdeal.Gen Cert.ReferenceIdeal.Edges
open Idealize.ShloMosaic Idealize.ShloMosaic.TcCoe Idealize.ShloMosaic.ValueIdx Idealize.SL.Sem

/-- An edge index vector with its negative entries wrapped, as a column. -/
def wrapc (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- Each edge's weight: the factor at its source times the factor at its destination. -/
def nrmOf (x1 : IVec S2x1600000 32) : FVec Ideal S1700000 .f32 :=
  mulf (Host.gather gather_S100000_S1700000x1_S1700000_n_0_n_n_0_1_1 (dinvOf x1) (wrapc (srcOf x1))) (Host.gather gather_S100000_S1700000x1_S1700000_n_0_n_n_0_1_1 (dinvOf x1) (wrapc (dstOf x1)))

/-- One layer after the product `hw` of the features and the weights: gathered at the sources, scaled per edge, summed
    into zeros at the destinations, plus the bias, rectified. -/
def propagate (x1 : IVec S2x1600000 32) (hw : FVec Ideal S100000x128 .f32) (b : FVec Ideal S128 .f32) : FVec Ideal S100000x128 .f32 :=
  maximumf (addf (Host.scatterAdd (F := Ideal) scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 (dstOf x1)) (mulf (Host.gather gather_S100000x128_S1700000x1_S1700000x128_1_0_n_n_0_1_1128 hw (wrapc (srcOf x1))) (broadcastInDim S1700000x128 ![0, 1] bcast_S1700000x1_S1700000x128_0_1 (broadcastInDim S1700000x1 ![0] bcast_S1700000_S1700000x1_0 (nrmOf x1))))) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- The node features after the first layer. -/
def feat1 (x0 : FVec Ideal S100000x3 .f32) (x1 : IVec S2x1600000 32) (x3 : FVec Ideal S3x128 .f32) (x4 : FVec Ideal S128 .f32) :
    FVec Ideal S100000x128 .f32 :=
  propagate x1 (Host.dotGeneral dot_S100000x3_S3x128_S100000x128_1_0_0_1_n_n none x0 x3) x4

/-- The node features after the second layer. -/
def feat2 (x0 : FVec Ideal S100000x3 .f32) (x1 : IVec S2x1600000 32) (x3 : FVec Ideal S3x128 .f32) (x4 : FVec Ideal S128 .f32)
    (x5 : FVec Ideal S128x128 .f32) (x6 : FVec Ideal S128 .f32) : FVec Ideal S100000x128 .f32 :=
  propagate x1 (Host.dotGeneral dot_S100000x128_S128x128_S100000x128_1_0_0_1_n_n none (feat1 x0 x1 x3 x4) x5) x6

/-- The node features after the third layer. -/
def feat3 (x0 : FVec Ideal S100000x3 .f32) (x1 : IVec S2x1600000 32) (x3 : FVec Ideal S3x128 .f32) (x4 : FVec Ideal S128 .f32)
    (x5 : FVec Ideal S128x128 .f32) (x6 : FVec Ideal S128 .f32) (x7 : FVec Ideal S128x128 .f32) (x8 : FVec Ideal S128 .f32) :
    FVec Ideal S100000x128 .f32 :=
  propagate x1 (Host.dotGeneral dot_S100000x128_S128x128_S100000x128_1_0_0_1_n_n none (feat2 x0 x1 x3 x4 x5 x6) x7) x8

/-- The read-out of node features `h3` at the batch vector `x2`. -/
def headOf (x2 : IVec S100000 32) (h3 : FVec Ideal S100000x128 .f32) (x9 : FVec Ideal S128x2 .f32) (x10 : FVec Ideal S2 .f32) :
    FVec Ideal S512x2 .f32 :=
  addf (Host.dotGeneral dot_S512x128_S128x2_S512x2_1_0_0_1_n_n none (Host.divf (Host.scatterAdd (F := Ideal) scatter_S512x128_S100000x1_S100000x128_1_0_0_1 (broadcastInDim S512x128 ![] bcast_S_S512x128 (constant (F := Ideal) S_ .f32 0x00000000#32)) (broadcastInDim S100000x1 ![0] bcast_S100000_S100000x1_0 x2) h3) (broadcastInDim S512x128 ![0, 1] bcast_S512x1_S512x128_0_1 (broadcastInDim S512x1 ![0] bcast_S512_S512x1_0 (maximumf (Host.scatterAdd (F := Ideal) scatter_S512_S100000x1_S100000_n_0_0_1 (broadcastInDim S512 ![] bcast_S_S512 (constant (F := Ideal) S_ .f32 0x00000000#32)) (broadcastInDim S100000x1 ![0] bcast_S100000_S100000x1_0 x2) (broadcastInDim S100000 ![] bcast_S_S100000 (constant (F := Ideal) S_ .f32 0x3F800000#32))) (broadcastInDim S512 ![] bcast_S_S512 (constant (F := Ideal) S_ .f32 0x3F800000#32)))))) x9) (broadcastInDim S512x2 ![0, 1] bcast_S1x2_S512x2_0_1 (broadcastInDim S1x2 ![1] bcast_S2_S1x2_1 x10))

/-- THE REFERENCE'S RESULT as a function of its eleven arguments: the three layers, then the read-out. -/
def refOut (x0 : FVec Ideal S100000x3 .f32) (x1 : IVec S2x1600000 32) (x2 : IVec S100000 32) (x3 : FVec Ideal S3x128 .f32)
    (x4 : FVec Ideal S128 .f32) (x5 : FVec Ideal S128x128 .f32) (x6 : FVec Ideal S128 .f32) (x7 : FVec Ideal S128x128 .f32)
    (x8 : FVec Ideal S128 .f32) (x9 : FVec Ideal S128x2 .f32) (x10 : FVec Ideal S2 .f32) : S512x2.Idx → EReal :=
  headOf x2 (feat3 x0 x1 x3 x4 x5 x6 x7 x8) x9 x10

set_option maxRecDepth 16384 in
/-- The program's composed result is `refOut` of the arguments' launch contents: the stages unfold to the composed term. -/
theorem res_eq (m : (ℓ : Loc nD τ sig) → Buf (Elt Ideal) ℓ) (c : Dev nD) :
    Cert.ReferenceIdeal.ValueP.res_main_v99 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.ValueP.res_main_v99 refOut headOf feat3 feat2 feat1 propagate nrmOf wrapc srcOf dstOf dinvOf degOf
  rfl

/-- The first layer read at (p, j). -/
theorem feat1_apply (x0 : FVec Ideal S100000x3 .f32) (x1 : IVec S2x1600000 32) (x3 : FVec Ideal S3x128 .f32)
    (x4 : FVec Ideal S128 .f32) (p : Fin 100000) (j : Fin 128) :
    feat1 x0 x1 x3 x4 (ix2 p j) = Cert.Gcn.rFeat1 (srcOf x1) (dstOf x1) (dinvOf x1) x0 x3 x4 p j :=
  Cert.LibGcnHost.hostLayer_apply (N := 100000) (E := 1700000) (K := 3) (C := 128) (by decide)
    scatter_S100000x128_S1700000x1_S1700000x128_1_0_0_1_wf gather_S100000x128_S1700000x1_S1700000x128_1_0_n_n_0_1_1128_wf
    gather_S100000_S1700000x1_S1700000_n_0_n_n_0_1_1_wf bcast_S_S100000x128 bcast_S1700000_S1700000x1_0 bcast_S_S1700000
    bcast_S1700000x1_S1700000x128_0_1 bcast_S128_S1x128_1 bcast_S1x128_S100000x128_0_1
    (dinvOf x1) x0 x3 x4 (srcOf x1) (dstOf x1) p j

/-- The second layer read at (p, j). -/
theorem feat2_apply (x0 : FVec Ideal S100000x3 .f32) (x1 : IVec S2x1600000 32) (x3 : FVec Ideal S3x128 .f32)
    (x4 : FVec Ideal S128 .f32) (x5 : FVec Ideal S128x128 .f32) (x6 : FVec Ideal S128 .f32) (p : Fin 100000) (j : Fin 128) :
    feat2 x0 x1 x3 x4 x5 x6 (ix2 p j) = Cert.Gcn.rFeat2 (srcOf x1) (dstOf x1) (dinvOf x1) x0 x3 x4 x5 x6 p j := by
  have h := Cert.LibGcnHost.hostLayer_apply (N := 100000) (E := 1700000) (K := 128) (C := 128) (by decide)
    scatter_S100000x128_S1700000x1_S1700000x128_1_0_0_1_wf gather_S100000x128_S1700000x1_S1700000x128_1_0_n_n_0_1_1128_wf
    gather_S100000_S1700000x1_S1700000_n_0_n_n_0_1_1_wf bcast_S_S100000x128 bcast_S1700000_S1700000x1_0 bcast_S_S1700000
    bcast_S1700000x1_S1700000x128_0_1 bcast_S128_S1x128_1 bcast_S1x128_S100000x128_0_1
    (dinvOf x1) (feat1 x0 x1 x3 x4) x5 x6 (srcOf x1) (dstOf x1) p j
  simp only [feat1_apply] at h
  exact h

/-- The third layer read at (p, j). -/
theorem feat3_apply (x0 : FVec Ideal S100000x3 .f32) (x1 : IVec S2x1600000 32) (x3 : FVec Ideal S3x128 .f32)
    (x4 : FVec Ideal S128 .f32) (x5 : FVec Ideal S128x128 .f32) (x6 : FVec Ideal S128 .f32) (x7 : FVec Ideal S128x128 .f32)
    (x8 : FVec Ideal S128 .f32) (p : Fin 100000) (j : Fin 128) :
    feat3 x0 x1 x3 x4 x5 x6 x7 x8 (ix2 p j)
      = Cert.Gcn.rFeat3 (srcOf x1) (dstOf x1) (dinvOf x1) x0 x3 x4 x5 x6 x7 x8 p j := by
  have h := Cert.LibGcnHost.hostLayer_apply (N := 100000) (E := 1700000) (K := 128) (C := 128) (by decide)
    scatter_S100000x128_S1700000x1_S1700000x128_1_0_0_1_wf gather_S100000x128_S1700000x1_S1700000x128_1_0_n_n_0_1_1128_wf
    gather_S100000_S1700000x1_S1700000_n_0_n_n_0_1_1_wf bcast_S_S100000x128 bcast_S1700000_S1700000x1_0 bcast_S_S1700000
    bcast_S1700000x1_S1700000x128_0_1 bcast_S128_S1x128_1 bcast_S1x128_S100000x128_0_1
    (dinvOf x1) (feat2 x0 x1 x3 x4 x5 x6) x7 x8 (srcOf x1) (dstOf x1) p j
  simp only [feat2_apply] at h
  exact h

/-- THE REFERENCE'S RESULT READ AT (g, o): the read-out of the third layer over the edge structure of the edge list. -/
theorem refOut_apply (x0 : FVec Ideal S100000x3 .f32) (x1 : IVec S2x1600000 32) (x2 : IVec S100000 32) (x3 : FVec Ideal S3x128 .f32)
    (x4 : FVec Ideal S128 .f32) (x5 : FVec Ideal S128x128 .f32) (x6 : FVec Ideal S128 .f32) (x7 : FVec Ideal S128x128 .f32)
    (x8 : FVec Ideal S128 .f32) (x9 : FVec Ideal S128x2 .f32) (x10 : FVec Ideal S2 .f32) (g : Fin 512) (o : Fin 2) :
    refOut x0 x1 x2 x3 x4 x5 x6 x7 x8 x9 x10 (ValueIdx.ix2 g o)
      = Cert.Gcn.readout x2 (Cert.Gcn.rFeat3 (srcOf x1) (dstOf x1) (dinvOf x1) x0 x3 x4 x5 x6 x7 x8) x9 x10 g o := by
  have h := Cert.LibGcnHost.hostReadout_apply (G := 512) (N := 100000) (C := 128) (O := 2)
    scatter_S512x128_S100000x1_S100000x128_1_0_0_1_wf scatter_S512_S100000x1_S100000_n_0_0_1_wf
    bcast_S_S512x128 bcast_S_S512 bcast_S_S100000 bcast_S100000_S100000x1_0 bcast_S512_S512x1_0 bcast_S512x1_S512x128_0_1
    bcast_S2_S1x2_1 bcast_S1x2_S512x2_0_1 x2 (feat3 x0 x1 x3 x4 x5 x6 x7 x8) x9 x10 g o
  simp only [feat3_apply] at h
  exact h

end Cert.ReferenceIdeal.RefValue

end
-- ==== Proof.BridgeEdges.lean ====
/-
  THE TWO PROGRAMS COMPUTE THE SAME GRAPH DATA FROM THE EDGE LIST.

  The reference program and the kernel program build the edges' sources and destinations (a row of the edge list followed
  by one self loop per node), the nodes' degrees and the nodes' factors by the same operations in the same order; only the
  names of the shapes, of the dimension records and of the side conditions differ, and those are the same literals.  So
  the four arrays are equal, by unfolding the names; the factor is compared with the degree kept as one term.
-/
import proofs.«176127_j35218731827641_2_alg».proof.Proof.KernelEdges
import proofs.«176127_j35218731827641_2_alg».proof.Proof.RefEdges

noncomputable section

namespace Cert.Bridge

open Idealize.ShloMosaic

variable [Cert.KernelIdeal.Facts] [Cert.ReferenceIdeal.Facts]

/-- The same source vector. -/
theorem srcOf_eq (x1 : IVec ⟨2, ![2, 1600000]⟩ 32) :
    Cert.ReferenceIdeal.Edges.srcOf x1 = Cert.KernelIdeal.Edges.srcOf x1 := rfl

/-- The same destination vector. -/
theorem dstOf_eq (x1 : IVec ⟨2, ![2, 1600000]⟩ 32) :
    Cert.ReferenceIdeal.Edges.dstOf x1 = Cert.KernelIdeal.Edges.dstOf x1 := rfl

/-- The same degrees. -/
theorem degOf_eq (x1 : IVec ⟨2, ![2, 1600000]⟩ 32) :
    Cert.ReferenceIdeal.Edges.degOf x1 = Cert.KernelIdeal.Edges.degOf x1 := by
  unfold Cert.ReferenceIdeal.Edges.degOf Cert.KernelIdeal.Edges.degOf
  rw [dstOf_eq]
  rfl

/-- The same factors. -/
theorem dinvOf_eq (x1 : IVec ⟨2, ![2, 1600000]⟩ 32) :
    Cert.ReferenceIdeal.Edges.dinvOf x1 = Cert.KernelIdeal.Edges.dinvOf x1 := by
  unfold Cert.ReferenceIdeal.Edges.dinvOf Cert.KernelIdeal.Edges.dinvOf
  rw [degOf_eq]

end Cert.Bridge

end
-- ==== Proof.KernelDinv.lean ====
/-
  EVERY NODE'S FACTOR IS A REAL NUMBER.

  A node's degree is an accumulating scatter of ones into zeros at the edges' destinations: at node q it is the sum,
  over the edges ending in q, of the constant one, that is the real number "how many edges end in q".  The factor is
  the reciprocal square root of the degree where the degree is above zero and the zero word elsewhere.  Where the
  comparison holds the degree is a positive real, and the reciprocal square root of a positive real is a real number;
  elsewhere the factor is zero.  Either way it is a real number.  Nothing is evaluated at any extent: the edge list
  stays a variable, the step from a degree to its factor is proved for an arbitrary degree vector, and the degree
  is only ever read as the cardinality of a finite set.
-/
import proofs.«176127_j35218731827641_2_alg».proof.Proof.KernelEdges
import proofs.«176127_j35218731827641_2_alg».proof.Proof.LibGcnEdges
import proofs.«176127_j35218731827641_2_alg».proof.Proof.LibRealEntries
import proofs.«176127_j35218731827641_2_alg».proof.Proof.LibNormSum

noncomputable section

open scoped BigOperators

namespace Cert.KernelIdeal.Edges

open Cert.KernelIdeal Idealize.ShloMosaic Idealize.ShloMosaic.ValueIdx Cert.RealEntries

/-- A sum of ones over a finite set is its cardinality, a real number. -/
theorem sum_ones {ι : Type*} (S : Finset ι) (f : ι → EReal) (h : ∀ e ∈ S, f e = 1) :
    ∑ e ∈ S, f e = ((S.card : ℝ) : EReal) := by
  rw [Finset.sum_congr rfl h, Finset.sum_const, EReal.nsmul_eq_mul, mul_one, EReal.coe_natCast]

/-- From a degree to its factor, for an arbitrary degree vector: where the entry at q is a natural number, "the
    reciprocal square root where the entry is above zero, zero elsewhere" is a real number at q. -/
theorem factor_isR {N : ℕ} (hb : (⟨0, ![]⟩ : Shape).BroadcastsInDim ⟨1, ![N]⟩ ![]) (deg : FVec Ideal ⟨1, ![N]⟩ .f32)
    (q : Fin N) (n : ℕ) (hd : deg (ix1 q) = ((n : ℝ) : EReal)) :
    IsR (select (cmpf (F := Ideal) .ogt deg (broadcastInDim ⟨1, ![N]⟩ ![] hb (constant (F := Ideal) ⟨0, ![]⟩ .f32 0x00000000#32)))
      (Host.rsqrt (F := Ideal) deg)
      (broadcastInDim ⟨1, ![N]⟩ ![] hb (id (constant (F := Ideal) ⟨0, ![]⟩ .f32 0x00000000#32))) (ix1 q)) := by
  have hz : broadcastInDim ⟨1, ![N]⟩ ![] hb (constant (F := Ideal) ⟨0, ![]⟩ .f32 0x00000000#32) (ix1 q) = (0 : EReal) :=
    (broadcastInDim_scalar_apply _ _ _).trans Ideal.ofBits_zero_f32
  show IsR (Scalar.select
    (FloatOps.cmpf (F := Ideal) (φ := .f32) .ogt (deg (ix1 q))
      (broadcastInDim ⟨1, ![N]⟩ ![] hb (constant (F := Ideal) ⟨0, ![]⟩ .f32 0x00000000#32) (ix1 q)))
    (Ideal.rsqrt (deg (ix1 q)))
    (broadcastInDim ⟨1, ![N]⟩ ![] hb (constant (F := Ideal) ⟨0, ![]⟩ .f32 0x00000000#32) (ix1 q)))
  rw [hz, hd]
  unfold Scalar.select
  split_ifs with hc
  · have hpos : (0 : ℝ) < (n : ℝ) := by
      by_contra hn
      have h3 : BitVec.ofBool (decide ((0 : EReal) < ((n : ℝ) : EReal))) = 1#1 := hc
      rw [decide_eq_false (fun hlt => hn (EReal.coe_pos.mp hlt))] at h3
      exact absurd h3 (by decide)
    exact IsR.rsqrt_pos _ hpos
  · exact IsR.zero

variable [Cert.KernelIdeal.Facts]
open Cert.KernelIdeal.Facts₀ Cert.KernelIdeal.Facts

/-- The degree of node q is the number of edges ending in q, as a real number. -/
theorem deg_apply (x1 : IVec S2x1600000 32) (q : Fin 100000) :
    degOf x1 (ix1 q) = (((Cert.Gcn.inEdges 100000 (dstOf x1) q).card : ℝ) : EReal) := by
  have hs : degOf x1 (ix1 q)
      = ∑ e ∈ Cert.Gcn.inEdges 100000 (dstOf x1) q,
          broadcastInDim S1700000 ![] bcast_S_S1700000 (constant (F := Ideal) S_ .f32 0x3F800000#32) (ix1 e) :=
    Cert.Gcn.scatter_vec_zero (N := 100000) (E := 1700000) scatter_S100000_S1700000x1_S1700000_n_0_0_1_wf
      bcast_S_S100000 bcast_S1700000_S1700000x1_0 (dstOf x1) _ q
  exact hs.trans (sum_ones _ _ (fun e _ => (broadcastInDim_scalar_apply _ _ _).trans Cert.NormSum.one_word))

/-- The factor of every node is a real number. -/
theorem dinv_isR (x1 : IVec S2x1600000 32) (q : Fin 100000) : Cert.RealEntries.IsR (dinvOf x1 (ValueIdx.ix1 q)) :=
  factor_isR (N := 100000) bcast_S_S100000 (degOf x1) q _ (deg_apply x1 q)

end Cert.KernelIdeal.Edges

end
-- ==== Proof.LibFiniteEntry.lean ====
/-
  FROM "EVERY ENTRY IS BELOW INFINITY IN ABSOLUTE VALUE" TO "EVERY ENTRY IS A REAL NUMBER", at the ideal values.

  A precondition that an array is finite is printed as: the absolute value of the array, compared entry by entry (ordered,
  less than) with the single-precision word of `+∞` broadcast from a scalar.  At the ideal values the absolute value of
  `x` is `max x (-x)`, the word `0x7F800000` is `⊤`, and an extended real whose absolute value is below `⊤` is neither `⊤`
  nor `⊥`: it is a real number.  No program appears in this module.
-/
import Idealize.ShloMosaic.PureOps.Ideal.Laws
import Idealize.ShloMosaic.Lib.ValueIdx
import Idealize.ShloMosaic.Lib.Pipeline.Value
import proofs.«176127_j35218731827641_2_alg».proof.Proof.LibRealEntries

noncomputable section

namespace Cert.FiniteEntry

open Idealize.ShloMosaic Idealize.ShloMosaic.ValueIdx Cert.RealEntries

/-- The single-precision pattern `0x7F800000` (sign 0, exponent all ones, fraction 0) denotes `+∞`. -/
theorem inf_word : Ideal.ofBits .f32 0x7F800000#32 = (⊤ : EReal) := by simp [Ideal.ofBits, Ideal.ieee]

/-- An extended real whose absolute value is below `⊤` is a real number. -/
theorem isR_of_abs_lt_top (x : EReal) (h : max x (-x) < ⊤) : IsR x := by
  induction x using EReal.rec with
  | bot => simp at h
  | coe r => exact ⟨r, rfl⟩
  | top => simp at h

/-- The printed comparison at an index. -/
theorem isR_of_cmp {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    IsR (x i) := by
  have h' : FloatOps.cmpf (F := Ideal) (φ := .f32) .olt (max (x i) (-(x i)))
      (broadcastInDim s ![] hb (constant (F := Ideal) ⟨0, ![]⟩ .f32 0x7F800000#32) i) = 1#1 := h
  rw [broadcastInDim_apply _ hb _ i ix0 (fun a => a.elim0)] at h'
  have h2 : FloatOps.cmpf (F := Ideal) (φ := .f32) .olt (max (x i) (-(x i))) (Ideal.ofBits .f32 0x7F800000#32) = 1#1 := h'
  rw [inf_word] at h2
  by_cases hlt : max (x i) (-(x i)) < (⊤ : EReal)
  · exact isR_of_abs_lt_top _ hlt
  · exfalso
    have h3 : BitVec.ofBool (decide (max (x i) (-(x i)) < (⊤ : EReal))) = 1#1 := h2
    rw [decide_eq_false hlt] at h3
    exact absurd h3 (by decide)

end Cert.FiniteEntry

end
-- ==== Proof.FiniteInputs.lean ====
/-
  FROM THE PRECONDITION TO "EVERY ENTRY OF THE FLOAT INPUTS IS A REAL NUMBER", at the ideal values.

  The precondition is a conjunction, over the nine float inputs, of the statement "every entry of the array is below
  `+∞` in absolute value": per input an entrywise comparison of the absolute value with the broadcast word of `+∞`,
  folded by `and` over all axes into one bit, and the nine bits joined by `and`.  A conjunction that is 1 has every
  conjunct 1; a fold by `and` over all axes that is 1 met a 1 at every index; and an extended real whose absolute
  value is below `+∞` is a real number.  Every array stays a variable throughout: nothing is evaluated at any extent.
-/
import Idealize.ShloMosaic.Lib.ReduceAll
import proofs.«176127_j35218731827641_2_alg».proof.Pre_finite_inputs
import proofs.«176127_j35218731827641_2_alg».proof.Proof.LibFiniteEntry

noncomputable section

namespace Cert.Finite

open Idealize.ShloMosaic Idealize.ShloMosaic.ValueIdx Cert.RealEntries Cert.Pre_finite_inputs

/-- The scalar shape has exactly one index. -/
instance subsingleton_scalar_idx : Subsingleton (⟨0, ![]⟩ : Shape).Idx := ⟨fun a b => funext fun d => d.elim0⟩

/-- One input: if the fold by `and`, over all axes, of the entrywise test "absolute value below `+∞`" is 1, every entry
    of the array is a real number. -/
theorem isR_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (init : IVec ⟨0, ![]⟩ 1)
    (e : Host.reduce IntOp.andi
        (cmpf .olt (Host.absf x) (broadcastInDim s ![] hb (constant (F := Ideal) ⟨0, ![]⟩ .f32 0x7F800000#32)))
        init hr hu ix0 = 1#1) (i : s.Idx) : IsR (x i) :=
  Cert.FiniteEntry.isR_of_cmp x hb i (Host.reduce_andi_all _ init hr hu ix0 e i)

/-- Under the precondition every entry of every one of the nine float inputs is a real number. -/
theorem real_of_pre_all [Facts] (x0 : FVec Ideal S100000x3 .f32) (x1 : IVec S2x1600000 32) (x2 : IVec S100000 32)
    (x3 : FVec Ideal S3x128 .f32) (x4 : FVec Ideal S128 .f32) (x5 : FVec Ideal S128x128 .f32)
    (x6 : FVec Ideal S128 .f32) (x7 : FVec Ideal S128x128 .f32) (x8 : FVec Ideal S128 .f32)
    (x9 : FVec Ideal S128x2 .f32) (x10 : FVec Ideal S2 .f32)
    (h : fn (F := Ideal) x0 x1 x2 x3 x4 x5 x6 x7 x8 x9 x10 = fun _ => 1#1) :
    (∀ i, IsR (x0 i)) ∧ (∀ i, IsR (x3 i)) ∧ (∀ i, IsR (x4 i)) ∧ (∀ i, IsR (x5 i)) ∧ (∀ i, IsR (x6 i))
      ∧ (∀ i, IsR (x7 i)) ∧ (∀ i, IsR (x8 i)) ∧ (∀ i, IsR (x9 i)) ∧ (∀ i, IsR (x10 i)) := by
  have h0 := congrFun h ix0
  dsimp only [fn, fn_part1, fn_part2] at h0
  obtain ⟨h8, e10⟩ := IntOp.andi_eq_one.1 h0
  obtain ⟨h7, e9⟩ := IntOp.andi_eq_one.1 h8
  obtain ⟨h6, e8⟩ := IntOp.andi_eq_one.1 h7
  obtain ⟨h5, e7⟩ := IntOp.andi_eq_one.1 h6
  obtain ⟨h4, e6⟩ := IntOp.andi_eq_one.1 h5
  obtain ⟨h3, e5⟩ := IntOp.andi_eq_one.1 h4
  obtain ⟨h2, e4⟩ := IntOp.andi_eq_one.1 h3
  obtain ⟨e0, e3⟩ := IntOp.andi_eq_one.1 h2
  exact ⟨isR_of_all x0 _ _ _ _ e0, isR_of_all x3 _ _ _ _ e3, isR_of_all x4 _ _ _ _ e4, isR_of_all x5 _ _ _ _ e5,
    isR_of_all x6 _ _ _ _ e6, isR_of_all x7 _ _ _ _ e7, isR_of_all x8 _ _ _ _ e8, isR_of_all x9 _ _ _ _ e9,
    isR_of_all x10 _ _ _ _ e10⟩

/-- Under the precondition every entry of the first seven float inputs (arguments 0 and 3 to 8) is a real number; the
    last two float inputs are in `real_of_pre_all`. -/
theorem real_of_pre [Facts] (x0 : FVec Ideal S100000x3 .f32) (x1 : IVec S2x1600000 32) (x2 : IVec S100000 32)
    (x3 : FVec Ideal S3x128 .f32) (x4 : FVec Ideal S128 .f32) (x5 : FVec Ideal S128x128 .f32)
    (x6 : FVec Ideal S128 .f32) (x7 : FVec Ideal S128x128 .f32) (x8 : FVec Ideal S128 .f32)
    (x9 : FVec Ideal S128x2 .f32) (x10 : FVec Ideal S2 .f32)
    (h : fn (F := Ideal) x0 x1 x2 x3 x4 x5 x6 x7 x8 x9 x10 = fun _ => 1#1) :
    (∀ i, IsR (x0 i)) ∧ (∀ i, IsR (x3 i)) ∧ (∀ i, IsR (x4 i)) ∧ (∀ i, IsR (x5 i)) ∧ (∀ i, IsR (x6 i))
      ∧ (∀ i, IsR (x7 i)) ∧ (∀ i, IsR (x8 i)) := by
  obtain ⟨r0, r3, r4, r5, r6, r7, r8, _, _⟩ := real_of_pre_all x0 x1 x2 x3 x4 x5 x6 x7 x8 x9 x10 h
  exact ⟨r0, r3, r4, r5, r6, r7, r8⟩

end Cert.Finite

end
-- ==== Proof.Bridge.lean ====
/-
  THE REFERENCE'S RESULT IS THE KERNEL PROGRAM'S RESULT, under the precondition.

  Both results are read at an index (g, o) as the same read-out of the node features after three layers; the reference's
  layers carry both factors on every edge (`Cert.Gcn.rFeat3`), the kernel program's scale the rows beforehand
  (`Cert.Gcn.kFeat3`).  The edge structure is the same on both sides (the two programs compute sources, destinations and
  factors by the same operations).  The two arrangements agree where every entry is a real number: the precondition makes
  every entry of the float inputs real, and every node's factor is real (a reciprocal square root of a positive count, or
  zero).
-/
import proofs.«176127_j35218731827641_2_alg».proof.Proof.Gen.KernelIdeal
import proofs.«176127_j35218731827641_2_alg».proof.Proof.Gen.ReferenceIdeal
import proofs.«176127_j35218731827641_2_alg».proof.Proof.Gen.Pre_finite_inputs
import proofs.«176127_j35218731827641_2_alg».proof.Proof.BridgeEdges
import proofs.«176127_j35218731827641_2_alg».proof.Proof.RefValue
import proofs.«176127_j35218731827641_2_alg».proof.Proof.KernelDinv
import proofs.«176127_j35218731827641_2_alg».proof.Proof.FiniteInputs
import proofs.«176127_j35218731827641_2_alg».proof.Proof.LibGcnModel
import proofs.«176127_j35218731827641_2_alg».proof.Proof.KernelOut

noncomputable section

namespace Cert.Bridge

open Idealize.ShloMosaic Idealize.ShloMosaic.ValueIdx

/-- THE TWO RESULTS AGREE: under the precondition, and given the kernel program's result read at an index as the
    read-out of the three layers with the rows scaled beforehand, the reference's result is the kernel program's. -/
theorem out_eq (x0 : FVec Ideal ⟨2, ![100000, 3]⟩ .f32) (x1 : IVec ⟨2, ![2, 1600000]⟩ 32) (x2 : IVec ⟨1, ![100000]⟩ 32)
    (x3 : FVec Ideal ⟨2, ![3, 128]⟩ .f32) (x4 : FVec Ideal ⟨1, ![128]⟩ .f32) (x5 : FVec Ideal ⟨2, ![128, 128]⟩ .f32)
    (x6 : FVec Ideal ⟨1, ![128]⟩ .f32) (x7 : FVec Ideal ⟨2, ![128, 128]⟩ .f32) (x8 : FVec Ideal ⟨1, ![128]⟩ .f32)
    (x9 : FVec Ideal ⟨2, ![128, 2]⟩ .f32) (x10 : FVec Ideal ⟨1, ![2]⟩ .f32)
    (hpre : Cert.Pre_finite_inputs.fn (F := Ideal) x0 x1 x2 x3 x4 x5 x6 x7 x8 x9 x10 = fun _ => 1#1)
    (hout : ∀ (g : Fin 512) (o : Fin 2), Cert.KernelIdeal.Stages.out x0 x1 x2 x3 x4 x5 x6 x7 x8 x9 x10 (ValueIdx.ix2 g o)
      = Cert.Gcn.readout x2 (Cert.Gcn.kFeat3 (Cert.KernelIdeal.Edges.srcOf x1) (Cert.KernelIdeal.Edges.dstOf x1)
          (Cert.KernelIdeal.Edges.dinvOf x1) x0 x3 x4 x5 x6 x7 x8) x9 x10 g o) :
    Cert.ReferenceIdeal.RefValue.refOut x0 x1 x2 x3 x4 x5 x6 x7 x8 x9 x10
      = Cert.KernelIdeal.Stages.out x0 x1 x2 x3 x4 x5 x6 x7 x8 x9 x10 := by
  funext i
  obtain ⟨g, o, rfl⟩ : ∃ (g : Fin 512) (o : Fin 2), i = ix2 g o := ⟨i 0, i 1, eq_ix2 i⟩
  obtain ⟨r0, r3, r4, r5, r6, r7, _⟩ := Cert.Finite.real_of_pre x0 x1 x2 x3 x4 x5 x6 x7 x8 x9 x10 hpre
  rw [Cert.ReferenceIdeal.RefValue.refOut_apply, hout g o, srcOf_eq, dstOf_eq, dinvOf_eq,
    Cert.Gcn.rFeat3_eq (Cert.KernelIdeal.Edges.srcOf x1) (Cert.KernelIdeal.Edges.dstOf x1)
      (Cert.KernelIdeal.Edges.dinvOf x1) x0 x3 x4 x5 x6 x7 x8
      (fun q => Cert.KernelIdeal.Edges.dinv_isR x1 q) r0 r3 r4 r5 r6 r7]

end Cert.Bridge

end
-- ==== Proof.lean ====
/-
  A THREE-LAYER GRAPH CONVOLUTION WITH A MEAN READ-OUT: THE TILED KERNEL PROGRAM AGAINST THE jnp REFERENCE.

  Both programs add a self loop to every node, count each node's degree, and take its factor 1 / sqrt(degree).  The
  reference then, for each layer, multiplies the node features by the weights, gathers the transformed row at every
  edge's source, scales it by the two factors of the edge's end points, and adds it into the edge's destination row;
  bias and rectifier follow.  The kernel program scales each node's row by its own factor once, gathers and adds the
  scaled rows (no per-edge product), and leaves the rest of the layer to a pipelined region, 5000 rows at a grid
  point: the row's factor again, the product with the weights, the bias, the rectifier, and (for the next layer) the
  factor once more.  Both end with the per-graph mean of the node features and a linear map; the kernel program does
  the division and the map in a fourth region.

  At the ideal values both results are the same function of the arguments where the float inputs are real numbers:
  an edge into node p has p as its destination, so its destination factor can leave the edge sum, the source
  factor belongs to the source row, and the sum over edges exchanges with the sum of the matrix product.  These are
  laws of the real numbers, not of the extended reals; the precondition (every float input finite) gives the real
  entries, the degrees are natural numbers, so the factors are real, and every layer's output is real again.

  The modules: `LibGcnSpec` / `LibGcnAlgebra` / `LibGcnEdges` / `LibGcnModel` (the mathematics, free of any program);
  `LibGcnBlock`, `LibGcnRows`, `DenseRegion0`–`2`, `HeadRegion` (each region's output array as the dense step, or the
  read-out, of the arrays it finds); `KernelRun`, `KernelEdges`, `KernelHost`, `KernelCarry`, `KernelOut`,
  `KernelValue`, `KernelOutApply`, `KernelDinv` (the kernel program's result buffer as one function of the arguments,
  and that function at an index); `RefRun`, `RefEdges`, `LibGcnHost`, `RefValue` (the same for the reference);
  `FiniteInputs` (the precondition read as "every entry is real"); `Bridge` (the two functions are equal).
-/
import proofs.«176127_j35218731827641_2_alg».proof.Defs
import proofs.«176127_j35218731827641_2_alg».proof.Proof.Gen.Kernel
import proofs.«176127_j35218731827641_2_alg».proof.Proof.Gen.Kernel.Frame
import proofs.«176127_j35218731827641_2_alg».proof.Proof.Gen.KernelIdeal
import proofs.«176127_j35218731827641_2_alg».proof.Proof.Gen.KernelIdeal.Frame
import proofs.«176127_j35218731827641_2_alg».proof.Proof.Gen.ReferenceIdeal
import proofs.«176127_j35218731827641_2_alg».proof.Proof.Gen.Pre_finite_inputs
import proofs.«176127_j35218731827641_2_alg».proof.Proof.KernelRun
import proofs.«176127_j35218731827641_2_alg».proof.Proof.KernelValue
import proofs.«176127_j35218731827641_2_alg».proof.Proof.KernelOutApply
import proofs.«176127_j35218731827641_2_alg».proof.Proof.RefRun
import proofs.«176127_j35218731827641_2_alg».proof.Proof.RefValue
import proofs.«176127_j35218731827641_2_alg».proof.Proof.Bridge
import Idealize.ShloMosaic.Adequacy
import Idealize.ShloMosaic.Init

noncomputable section

namespace Cert.Proof

open Idealize.ShloMosaic Idealize.SL.Sem

/-- The word-level kernel program runs and returns its arguments as launched. -/
theorem frame_kernel : Cert.frame_Kernel := fun m ρ _ => Cert.Kernel.Gen.frame m ρ

/-- So does the kernel program at the ideal values. -/
theorem frame_kernel_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- No operation of the kernel program was rewritten for the ideal reading. -/
theorem preserves : Cert.preserves_Kernel_KernelIdeal := trivial

/-- From memories agreeing on the arguments, both programs end with the same result array: the kernel program's
    is `out` of its arguments, the reference's `refOut` of the same arguments, and the two are one function where the
    float inputs are real. -/
theorem algebraic : Cert.algebraic_KernelIdeal_ReferenceIdeal := by
  intro m ρ m' ρ' hpre hagree
  refine ⟨fun c => Cert.KernelIdeal.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Stages.value m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.RefValue.res_eq, e0, e1, e2, e3, e4, e5, e6, e7, e8, e9, e10]
    exact Cert.Bridge.out_eq _ _ _ _ _ _ _ _ _ _ _ (hpre c)
      (fun g o => Cert.KernelIdeal.Stages.out_apply _ _ _ _ _ _ _ _ _ _ _ g o)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
